-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256 : Shape := ⟨1, ![256]⟩
abbrev S256x64 : Shape := ⟨2, ![256, 64]⟩
abbrev S_ : Shape := ⟨0, ![]⟩

class Facts : Prop where
  bcast_S_S512x512x2 : S_.BroadcastsInDim S512x512x2 (![] : Fin 0 → Fin S512x512x2.rank)
  reducesTo_S512x512x2_S_d0_1_2 : S512x512x2.ReducesTo [0, 1, 2] S_
  h_S_ : 0 < S_.numel
  bcast_S_S512x512x64 : S_.BroadcastsInDim S512x512x64 (![] : Fin 0 → Fin S512x512x64.rank)
  reducesTo_S512x512x64_S_d0_1_2 : S512x512x64.ReducesTo [0, 1, 2] S_
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg3 : IVec S512x512 32) (main_arg8 : FVec F S256x64 .f32) (main_arg9 : FVec F S256 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S512x512 32 := broadcastInDim S512x512 ![] bcast_S_S512x512 main_c_16
  let main_v45 : IVec S512x512 1 := cmpi .sge main_arg3 main_v44
  let main_c_17 : IVec S_ 32 := constantI S_ 32 1#32
  let main_v46 : IVec S512x512 32 := broadcastInDim S512x512 ![] bcast_S_S512x512 main_c_17
  let main_v47 : IVec S512x512 1 := cmpi .sle main_arg3 main_v46
  let main_v48 : IVec S512x512 1 := andi main_v45 main_v47
  let main_c_18 : IVec S_ 1 := constantI S_ 1 1#1
  let main_v49 : IVec S_ 1 := (fun x v => Host.reduce IntOp.andi x v reducesTo_S512x512_S_d0_1 h_S_) main_v48 main_c_18
  let main_v50 : IVec S_ 1 := andi main_v43 main_v49
  main_v50

def fn_part1 {F : FTy → Type} [FloatOps F] (main_arg3 : IVec S512x512 32) (main_arg5 : FVec F S32 .f32) (main_arg6 : FVec F S256x32 .f32) (main_arg7 : FVec F S256 .f32) (main_arg8 : FVec F S256x64 .f32) (main_arg9 : FVec F S256 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg8 main_arg9 main_v33

def fn {F : FTy → Type} [FloatOps F] (main_arg0 : FVec F S512x512x2 .f32) (main_arg1 : FVec F S512x512x64 .f32) (main_arg2 : FVec F S512x512x64 .f32) (main_arg3 : IVec S512x512 32) (main_arg4 : FVec F S32x2 .f32) (main_arg5 : FVec F S32 .f32) (main_arg6 : FVec F S256x32 .f32) (main_arg7 : FVec F S256 .f32) (main_arg8 : FVec F S256x64 .f32) (main_arg9 : FVec F S256 .f32) : IVec S_ 1 :=
  let main_v0 : FVec F S512x512x2 .f32 := Host.absf main_arg0
  let main_cst : FVec F S_ .f32 := constant S_ .f32 0x7F800000#32
  let main_v1 : FVec F S512x512x2 .f32 := broadcastInDim S512x512x2 ![] bcast_S_S512x512x2 main_cst
  let main_v2 : IVec S512x512x2 1 := cmpf .olt main_v0 main_v1
  let main_c : IVec S_ 1 := constantI S_ 1 1#1
  let main_v3 : IVec S_ 1 := (fun x v => Host.reduce IntOp.andi x v reducesTo_S512x512x2_S_d0_1_2 h_S_) main_v2 main_c
  let main_v4 : FVec F S512x512x64 .f32 := Host.absf main_arg1
  let main_cst_0 : FVec F S_ .f32 := constant S_ .f32 0x7F800000#32
  let main_v5 : FVec F S512x512x64 .f32 := broadcastInDim S512x512x64 ![] bcast_S_S512x512x64 main_cst_0
  let main_v6 : IVec S512x512x64 1 := cmpf .olt main_v4 main_v5
  let main_c_1 : IVec S_ 1 := constantI S_ 1 1#1
  let main_v7 : IVec S_ 1 := (fun x v => Host.reduce IntOp.andi x v reducesTo_S512x512x64_S_d0_1_2 h_S_) main_v6 main_c_1
  let main_v8 : IVec S_ 1 := andi main_v3 main_v7
  let main_v9 : FVec F S512x512x64 .f32 := Host.absf main_arg2
  let main_cst_2 : FVec F S_ .f32 := constant S_ .f32 0x7F800000#32
  let main_v10 : FVec F S512x512x64 .f32 := broadcastInDim S512x512x64 ![] bcast_S_S512x512x64 main_cst_2
  let main_v11 : IVec S512x512x64 1 := cmpf .olt main_v9 main_v10
  let main_c_3 : IVec S_ 1 := constantI S_ 1 1#1
  let main_v12 : IVec S_ 1 := (fun x v => Host.reduce IntOp.andi x v reducesTo_S512x512x64_S_d0_1_2 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg3 main_arg5 main_arg6 main_arg7 main_arg8 main_arg9 main_v13 main_v16
-- ==== Kernel.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256 : Shape := ⟨1, ![256]⟩
abbrev S256x64 : Shape := ⟨2, ![256, 64]⟩
abbrev S512x64x512 : Shape := ⟨3, ![512, 64, 512]⟩
abbrev S2x512x512 : Shape := ⟨3, ![2, 512, 512]⟩
abbrev S1x512x512 : Shape := ⟨3, ![1, 512, 512]⟩
abbrev S3x512x512 : Shape := ⟨3, ![3, 512, 512]⟩
abbrev S_ : Shape := ⟨0, ![]⟩
abbrev S96x3 : Shape := ⟨2, ![96, 3]⟩
abbrev S1 : Shape := ⟨1, ![1]⟩
abbrev S2 : Shape := ⟨1, ![2]⟩
abbrev S64 : Shape := ⟨1, ![64]⟩
abbrev S96 : Shape := ⟨1, ![96]⟩
abbrev S96x1 : Shape := ⟨2, ![96, 1]⟩
abbrev S4x64x32 : Shape := ⟨3, ![4, 64, 32]⟩
abbrev S1x64x32 : Shape := ⟨3, ![1, 64, 32]⟩
abbrev S64x32 : Shape := ⟨2, ![64, 32]⟩
abbrev S4x64x64 : Shape := ⟨3, ![4, 64, 64]⟩
abbrev S1x64x64 : Shape := ⟨3, ![1, 64, 64]⟩
abbrev S64x64 : Shape := ⟨2, ![64, 64]⟩
abbrev S256x1 : Shape := ⟨2, ![256, 1]⟩
abbrev S4x64x1 : Shape := ⟨3, ![4, 64, 1]⟩
abbrev S1x64x1 : Shape := ⟨3, ![1, 64, 1]⟩
abbrev S64x1 : Shape := ⟨2, ![64, 1]⟩
abbrev S3x32x512 : Shape := ⟨3, ![3, 32, 512]⟩
abbrev S32x64x512 : Shape := ⟨3, ![32, 64, 512]⟩
abbrev S1x64x512 : Shape := ⟨3, ![1, 64, 512]⟩
abbrev S64x512 : Shape := ⟨2, ![64, 512]⟩
abbrev S3x1x512 : Shape := ⟨3, ![3, 1, 512]⟩
abbrev S3x512 : Shape := ⟨2, ![3, 512]⟩
abbrev S96x512 : Shape := ⟨2, ![96, 512]⟩
abbrev S32x512 : Shape := ⟨2, ![32, 512]⟩
abbrev S256x512 : Shape := ⟨2, ![256, 512]⟩
abbrev S192x512 : Shape := ⟨2, ![192, 512]⟩

abbrev nBuf : Space → Nat
  | .hbm => 99
  | .vmem => 15
  | .smem => 0
  | _ => 0

abbrev bufTy : (tb : Table) → Fin (tcTables nBuf tb) → BufTy
  | .hbm, ⟨0, _⟩ => ⟨S512x512x2, .f32⟩
  | .hbm, ⟨1, _⟩ => ⟨S512x512x64, .f32⟩
  | .hbm, ⟨2, _⟩ => ⟨S512x512x64, .f32⟩
  | .hbm, ⟨3, _⟩ => ⟨S512x512, .i32⟩
  | .hbm, ⟨4, _⟩ => ⟨S32x2, .f32⟩
  | .hbm, ⟨5, _⟩ => ⟨S32, .f32⟩
  | .hbm, ⟨6, _⟩ => ⟨S256x32, .f32⟩
  | .hbm, ⟨7, _⟩ => ⟨S256, .f32⟩
  | .hbm, ⟨8, _⟩ => ⟨S256x64, .f32⟩
  | .hbm, ⟨9, _⟩ => ⟨S256, .f32⟩
  | .hbm, ⟨10, _⟩ => ⟨S512x64x512, .f32⟩
  | .hbm, ⟨11, _⟩ => ⟨S512x64x512, .f32⟩
  | .hbm, ⟨12, _⟩ => ⟨S2x512x512, .f32⟩
  | .hbm, ⟨13, _⟩ => ⟨S512x512, .f32⟩
  | .hbm, ⟨14, _⟩ => ⟨S1x512x512, .f32⟩
  | .hbm, ⟨15, _⟩ => ⟨S3x512x512, .f32⟩
  | .hbm, ⟨16, _⟩ => ⟨S_, .f32⟩
  | .hbm, ⟨17, _⟩ => ⟨S96x3, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S96x3, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S_, .f32⟩
  | .hbm, ⟨30, _⟩ => ⟨S64, .f32⟩
  | .hbm, ⟨31, _⟩ => ⟨S96x3, .f32⟩
  | .hbm, ⟨32, _⟩ => ⟨S_, .f32⟩
  | .hbm, ⟨33, _⟩ => ⟨S64, .f32⟩
  | .hbm, ⟨34, _⟩ => ⟨S96, .f32⟩
  | .hbm, ⟨35, _⟩ => ⟨S96x1, .f32⟩
  | .hbm, ⟨36, _⟩ => ⟨S4x64x32, .f32⟩
  | .hbm, ⟨37, _⟩ => ⟨S1x64x32, .f32⟩
  | .hbm, ⟨38, _⟩ => ⟨S64x32, .f32⟩
  | .hbm, ⟨39, _⟩ => ⟨S_, .f32⟩
  | .hbm, ⟨40, _⟩ => ⟨S64x32, .f32⟩
  | .hbm, ⟨41, _⟩ => ⟨S64x32, .f32⟩
  | .hbm, ⟨42, _⟩ => ⟨S1x64x32, .f32⟩
  | .hbm, ⟨43, _⟩ => ⟨S64x32, .f32⟩
  | .hbm, ⟨44, _⟩ => ⟨S_, .f32⟩
  | .hbm, ⟨45, _⟩ => ⟨S64x32, .f32⟩
  | .hbm, ⟨46, _⟩ => ⟨S64x32, .f32⟩
  | .hbm, ⟨47, _⟩ => ⟨S1x64x32, .f32⟩
  | .hbm, ⟨48, _⟩ => ⟨S64x32, .f32⟩
  | .hbm, ⟨49, _⟩ => ⟨S_, .f32⟩
  | .hbm, ⟨50, _⟩ => ⟨S64x32, .f32⟩
  | .hbm, ⟨51, _⟩ => ⟨S64x32, .f32⟩
  | .hbm, ⟨52, _⟩ => ⟨S1x64x32, .f32⟩
  | .hbm, ⟨53, _⟩ => ⟨S64x32, .f32⟩
  | .hbm, ⟨54, _⟩ => ⟨S256x32, .f32⟩
  | .hbm, ⟨55, _⟩ => ⟨S4x64x64, .f32⟩
  | .hbm, ⟨56, _⟩ => ⟨S1x64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S1x64x64, .f32⟩
  | .hbm, ⟨62, _⟩ => ⟨S64x64, .f32⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S1x64x64, .f32⟩
  | .hbm, ⟨72, _⟩ => ⟨S64x64, .f32⟩
  | .hbm, ⟨73, _⟩ => ⟨S256x64, .f32⟩
  | .hbm, ⟨74, _⟩ => ⟨S256, .f32⟩
  | .hbm, ⟨75, _⟩ => ⟨S256x1, .f32⟩
  | .hbm, ⟨76, _⟩ => ⟨S4x64x1, .f32⟩
  | .hbm, ⟨77, _⟩ => ⟨S1x64x1, .f32⟩
  | .hbm, ⟨78, _⟩ => ⟨S64x1, .f32⟩
  | .hbm, ⟨79, _⟩ => ⟨S_, .f32⟩
  | .hbm, ⟨80, _⟩ => ⟨S64x1, .f32⟩
  | .hbm, ⟨81, _⟩ => ⟨S64x1, .f32⟩
  | .hbm, ⟨82, _⟩ => ⟨S1x64x1, .f32⟩
  | .hbm, ⟨83, _⟩ => ⟨S64x1, .f32⟩
  | .hbm, ⟨84, _⟩ => ⟨S_, .f32⟩
  | .hbm, ⟨85, _⟩ => ⟨S64x1, .f32⟩
  | .hbm, ⟨86, _⟩ => ⟨S64x1, .f32⟩
  | .hbm, ⟨87, _⟩ => ⟨S1x64x1, .f32⟩
  | .hbm, ⟨88, _⟩ => ⟨S64x1, .f32⟩
  | .hbm, ⟨89, _⟩ => ⟨S_, .f32⟩
  | .hbm, ⟨90, _⟩ => ⟨S64x1, .f32⟩
  | .hbm, ⟨91, _⟩ => ⟨S64x1, .f32⟩
  | .hbm, ⟨92, _⟩ => ⟨S1x64x1, .f32⟩
  | .hbm, ⟨93, _⟩ => ⟨S64x1, .f32⟩
  | .hbm, ⟨94, _⟩ => ⟨S256x1, .f32⟩
  | .hbm, ⟨95, _⟩ => ⟨S512x64x512, .f32⟩
  | .hbm, ⟨96, _⟩ => ⟨S512x64x512, .f32⟩
  | .hbm, ⟨97, _⟩ => ⟨S512x512x64, .f32⟩
  | .hbm, ⟨98, _⟩ => ⟨S512x512x64, .f32⟩
  | .local _ .vmem, ⟨0, _⟩ => ⟨S3x32x512, .f32⟩
  | .local _ .vmem, ⟨1, _⟩ => ⟨S3x32x512, .f32⟩
  | .local _ .vmem, ⟨2, _⟩ => ⟨S32x64x512, .f32⟩
  | .local _ .vmem, ⟨3, _⟩ => ⟨S32x64x512, .f32⟩
  | .local _ .vmem, ⟨4, _⟩ => ⟨S32x64x512, .f32⟩
  | .local _ .vmem, ⟨5, _⟩ => ⟨S32x64x512, .f32⟩
  | .local _ .vmem, ⟨6, _⟩ => ⟨S96x3, .f32⟩
  | .local _ .vmem, ⟨7, _⟩ => ⟨S96x1, .f32⟩
  | .local _ .vmem, ⟨8, _⟩ => ⟨S256x32, .f32⟩
  | .local _ .vmem, ⟨9, _⟩ => ⟨S256x64, .f32⟩
  | .local _ .vmem, ⟨10, _⟩ => ⟨S256x1, .f32⟩
  | .local _ .vmem, ⟨11, _⟩ => ⟨S32x64x512, .f32⟩
  | .local _ .vmem, ⟨12, _⟩ => ⟨S32x64x512, .f32⟩
  | .local _ .vmem, ⟨13, _⟩ => ⟨S32x64x512, .f32⟩
  | .local _ .vmem, ⟨14, _⟩ => ⟨S32x64x512, .f32⟩
  | _, _ => ⟨S512x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69_0 : Ref sig .tc := ⟨.hbm, 95, rfl⟩
abbrev main_v69_1 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x512x64_S512x64x512_0_2_1 : S512x512x64.Transposes [0, 2, 1] S512x64x512
  transposes_S512x512x2_S2x512x512_2_0_1 : S512x512x2.Transposes [2, 0, 1] S2x512x512
  bcast_S512x512_S1x512x512_1_2 : S512x512.BroadcastsInDim S1x512x512 (![1, 2] : Fin 2 → Fin S1x512x512.rank)
  concatenates_S2x512x512_S1x512x512_S3x512x512_d0 : Shape.Concatenates [S2x512x512, S1x512x512] S3x512x512 0
  bcast_S_S96x3 : S_.BroadcastsInDim S96x3 (![] : Fin 0 → Fin S96x3.rank)
  bcast_S_S1 : S_.BroadcastsInDim S1 (![] : Fin 0 → Fin S1.rank)
  concatenates_S1_S1_S2_d0 : Shape.Concatenates [S1, S1] S2 0
  bcast_S_S64 : S_.BroadcastsInDim S64 (![] : Fin 0 → Fin S64.rank)
  concatenates_S32_S64_S96_d0 : Shape.Concatenates [S32, S64] S96 0
  shapeCasts_S96_S96x1 : S96.ShapeCasts S96x1
  shapeCasts_S256x32_S4x64x32 : S256x32.ShapeCasts S4x64x32
  slices_S4x64x32_S1x64x32_0_0_0 : S4x64x32.Slices ![0, 0, 0] S1x64x32
  shapeCasts_S1x64x32_S64x32 : S1x64x32.ShapeCasts S64x32
  bcast_S_S64x32 : S_.BroadcastsInDim S64x32 (![] : Fin 0 → Fin S64x32.rank)
  slices_S4x64x32_S1x64x32_1_0_0 : S4x64x32.Slices ![1, 0, 0] S1x64x32
  slices_S4x64x32_S1x64x32_3_0_0 : S4x64x32.Slices ![3, 0, 0] S1x64x32
  slices_S4x64x32_S1x64x32_2_0_0 : S4x64x32.Slices ![2, 0, 0] S1x64x32
  concatenates_S64x32_S64x32_S64x32_S64x32_S256x32_d0 : Shape.Concatenates [S64x32, S64x32, S64x32, S64x32] S256x32 0
  shapeCasts_S256x64_S4x64x64 : S256x64.ShapeCasts S4x64x64
  slices_S4x64x64_S1x64x64_0_0_0 : S4x64x64.Slices ![0, 0, 0] S1x64x64
  shapeCasts_S1x64x64_S64x64 : S1x64x64.ShapeCasts S64x64
  bcast_S_S64x64 : S_.BroadcastsInDim S64x64 (![] : Fin 0 → Fin S64x64.rank)
  slices_S4x64x64_S1x64x64_1_0_0 : S4x64x64.Slices ![1, 0, 0] S1x64x64
  slices_S4x64x64_S1x64x64_3_0_0 : S4x64x64.Slices ![3, 0, 0] S1x64x64
  slices_S4x64x64_S1x64x64_2_0_0 : S4x64x64.Slices ![2, 0, 0] S1x64x64
  concatenates_S64x64_S64x64_S64x64_S64x64_S256x64_d0 : Shape.Concatenates [S64x64, S64x64, S64x64, S64x64] S256x64 0
  bcast_S256_S256x1_0 : S256.BroadcastsInDim S256x1 (![0] : Fin 1 → Fin S256x1.rank)
  shapeCasts_S256x1_S4x64x1 : S256x1.ShapeCasts S4x64x1
  slices_S4x64x1_S1x64x1_0_0_0 : S4x64x1.Slices ![0, 0, 0] S1x64x1
  shapeCasts_S1x64x1_S64x1 : S1x64x1.ShapeCasts S64x1
  bcast_S_S64x1 : S_.BroadcastsInDim S64x1 (![] : Fin 0 → Fin S64x1.rank)
  slices_S4x64x1_S1x64x1_1_0_0 : S4x64x1.Slices ![1, 0, 0] S1x64x1
  slices_S4x64x1_S1x64x1_3_0_0 : S4x64x1.Slices ![3, 0, 0] S1x64x1
  slices_S4x64x1_S1x64x1_2_0_0 : S4x64x1.Slices ![2, 0, 0] S1x64x1
  concatenates_S64x1_S64x1_S64x1_S64x1_S256x1_d0 : Shape.Concatenates [S64x1, S64x1, S64x1, S64x1] S256x1 0
  inb_S96x3_S96x3_0_0 : ∀ a, (![0, 0] : Fin 2 → Nat) a + S96x3.size a ≤ S96x3.size a
  h_S96x3 : 0 < S96x3.numel
  shapeCasts_S96x3_S96x3 : S96x3.ShapeCasts S96x3
  inb_S96x1_S96x1_0_0 : ∀ a, (![0, 0] : Fin 2 → Nat) a + S96x1.size a ≤ S96x1.size a
  h_S96x1 : 0 < S96x1.numel
  shapeCasts_S96x1_S96x1 : S96x1.ShapeCasts S96x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S32x64x512_S1x64x512_0_0_0 : ∀ a, (![0, 0, 0] : Fin 3 → Nat) a + S1x64x512.size a ≤ S32x64x512.size a
  h_S1x64x512 : 0 < S1x64x512.numel
  shapeCasts_S1x64x512_S64x512 : S1x64x512.ShapeCasts S64x512
  inb_S3x32x512_S3x1x512_0_0_0 : ∀ a, (![0, 0, 0] : Fin 3 → Nat) a + S3x1x512.size a ≤ S3x32x512.size a
  h_S3x1x512 : 0 < S3x1x512.numel
  shapeCasts_S3x1x512_S3x512 : S3x1x512.ShapeCasts S3x512
  broadcasts_S96x1_S96x512 : S96x1.Broadcasts S96x512
  slices_S96x512_o0_0_S32x512 : S96x512.Slices ![0, 0] S32x512
  slices_S96x512_o32_0_S64x512 : S96x512.Slices ![32, 0] S64x512
  broadcasts_S256x1_S256x512 : S256x1.Broadcasts S256x512
  slices_S256x512_o0_0_S192x512 : S256x512.Slices ![0, 0] S192x512
  slices_S192x512_o0_0_S64x512 : S192x512.Slices ![0, 0] S64x512
  slices_S192x512_o64_0_S64x512 : S192x512.Slices ![64, 0] S64x512
  slices_S192x512_o128_0_S64x512 : S192x512.Slices ![128, 0] S64x512
  slices_S256x512_o192_0_S64x512 : S256x512.Slices ![192, 0] S64x512
  shapeCasts_S64x512_S1x64x512 : S64x512.ShapeCasts S1x64x512
  inb_S32x64x512_S1x64x512_1_0_0 : ∀ a, (![1, 0, 0] : Fin 3 → Nat) a + S1x64x512.size a ≤ S32x64x512.size a
  inb_S3x32x512_S3x1x512_0_1_0 : ∀ a, (![0, 1, 0] : Fin 3 → Nat) a + S3x1x512.size a ≤ S3x32x512.size a
  inb_S32x64x512_S1x64x512_2_0_0 : ∀ a, (![2, 0, 0] : Fin 3 → Nat) a + S1x64x512.size a ≤ S32x64x512.size a
  inb_S3x32x512_S3x1x512_0_2_0 : ∀ a, (![0, 2, 0] : Fin 3 → Nat) a + S3x1x512.size a ≤ S3x32x512.size a
  inb_S32x64x512_S1x64x512_3_0_0 : ∀ a, (![3, 0, 0] : Fin 3 → Nat) a + S1x64x512.size a ≤ S32x64x512.size a
  inb_S3x32x512_S3x1x512_0_3_0 : ∀ a, (![0, 3, 0] : Fin 3 → Nat) a + S3x1x512.size a ≤ S3x32x512.size a
  inb_S32x64x512_S1x64x512_4_0_0 : ∀ a, (![4, 0, 0] : Fin 3 → Nat) a + S1x64x512.size a ≤ S32x64x512.size a
  inb_S3x32x512_S3x1x512_0_4_0 : ∀ a, (![0, 4, 0] : Fin 3 → Nat) a + S3x1x512.size a ≤ S3x32x512.size a
  inb_S32x64x512_S1x64x512_5_0_0 : ∀ a, (![5, 0, 0] : Fin 3 → Nat) a + S1x64x512.size a ≤ S32x64x512.size a
  inb_S3x32x512_S3x1x512_0_5_0 : ∀ a, (![0, 5, 0] : Fin 3 → Nat) a + S3x1x512.size a ≤ S3x32x512.size a
  inb_S32x64x512_S1x64x512_6_0_0 : ∀ a, (![6, 0, 0] : Fin 3 → Nat) a + S1x64x512.size a ≤ S32x64x512.size a
  inb_S3x32x512_S3x1x512_0_6_0 : ∀ a, (![0, 6, 0] : Fin 3 → Nat) a + S3x1x512.size a ≤ S3x32x512.size a
  inb_S32x64x512_S1x64x512_7_0_0 : ∀ a, (![7, 0, 0] : Fin 3 → Nat) a + S1x64x512.size a ≤ S32x64x512.size a
  inb_S3x32x512_S3x1x512_0_7_0 : ∀ a, (![0, 7, 0] : Fin 3 → Nat) a + S3x1x512.size a ≤ S3x32x512.size a
  inb_S32x64x512_S1x64x512_8_0_0 : ∀ a, (![8, 0, 0] : Fin 3 → Nat) a + S1x64x512.size a ≤ S32x64x512.size a
  inb_S3x32x512_S3x1x512_0_8_0 : ∀ a, (![0, 8, 0] : Fin 3 → Nat) a + S3x1x512.size a ≤ S3x32x512.size a
  inb_S32x64x512_S1x64x512_9_0_0 : ∀ a, (![9, 0, 0] : Fin 3 → Nat) a + S1x64x512.size a ≤ S32x64x512.size a
  inb_S3x32x512_S3x1x512_0_9_0 : ∀ a, (![0, 9, 0] : Fin 3 → Nat) a + S3x1x512.size a ≤ S3x32x512.size a
  inb_S32x64x512_S1x64x512_10_0_0 : ∀ a, (![10, 0, 0] : Fin 3 → Nat) a + S1x64x512.size a ≤ S32x64x512.size a
  inb_S3x32x512_S3x1x512_0_10_0 : ∀ a, (![0, 10, 0] : Fin 3 → Nat) a + S3x1x512.size a ≤ S3x32x512.size a
  inb_S32x64x512_S1x64x512_11_0_0 : ∀ a, (![11, 0, 0] : Fin 3 → Nat) a + S1x64x512.size a ≤ S32x64x512.size a
  inb_S3x32x512_S3x1x512_0_11_0 : ∀ a, (![0, 11, 0] : Fin 3 → Nat) a + S3x1x512.size a ≤ S3x32x512.size a
  inb_S32x64x512_S1x64x512_12_0_0 : ∀ a, (![12, 0, 0] : Fin 3 → Nat) a + S1x64x512.size a ≤ S32x64x512.size a
  inb_S3x32x512_S3x1x512_0_12_0 : ∀ a, (![0, 12, 0] : Fin 3 → Nat) a + S3x1x512.size a ≤ S3x32x512.size a
  inb_S32x64x512_S1x64x512_13_0_0 : ∀ a, (![13, 0, 0] : Fin 3 → Nat) a + S1x64x512.size a ≤ S32x64x512.size a
  inb_S3x32x512_S3x1x512_0_13_0 : ∀ a, (![0, 13, 0] : Fin 3 → Nat) a + S3x1x512.size a ≤ S3x32x512.size a
  inb_S32x64x512_S1x64x512_14_0_0 : ∀ a, (![14, 0, 0] : Fin 3 → Nat) a + S1x64x512.size a ≤ S32x64x512.size a
  inb_S3x32x512_S3x1x512_0_14_0 : ∀ a, (![0, 14, 0] : Fin 3 → Nat) a + S3x1x512.size a ≤ S3x32x512.size a
  inb_S32x64x512_S1x64x512_15_0_0 : ∀ a, (![15, 0, 0] : Fin 3 → Nat) a + S1x64x512.size a ≤ S32x64x512.size a
  inb_S3x32x512_S3x1x512_0_15_0 : ∀ a, (![0, 15, 0] : Fin 3 → Nat) a + S3x1x512.size a ≤ S3x32x512.size a
  inb_S32x64x512_S1x64x512_16_0_0 : ∀ a, (![16, 0, 0] : Fin 3 → Nat) a + S1x64x512.size a ≤ S32x64x512.size a
  inb_S3x32x512_S3x1x512_0_16_0 : ∀ a, (![0, 16, 0] : Fin 3 → Nat) a + S3x1x512.size a ≤ S3x32x512.size a
  inb_S32x64x512_S1x64x512_17_0_0 : ∀ a, (![17, 0, 0] : Fin 3 → Nat) a + S1x64x512.size a ≤ S32x64x512.size a
  inb_S3x32x512_S3x1x512_0_17_0 : ∀ a, (![0, 17, 0] : Fin 3 → Nat) a + S3x1x512.size a ≤ S3x32x512.size a
  inb_S32x64x512_S1x64x512_18_0_0 : ∀ a, (![18, 0, 0] : Fin 3 → Nat) a + S1x64x512.size a ≤ S32x64x512.size a
  inb_S3x32x512_S3x1x512_0_18_0 : ∀ a, (![0, 18, 0] : Fin 3 → Nat) a + S3x1x512.size a ≤ S3x32x512.size a
  inb_S32x64x512_S1x64x512_19_0_0 : ∀ a, (![19, 0, 0] : Fin 3 → Nat) a + S1x64x512.size a ≤ S32x64x512.size a
  inb_S3x32x512_S3x1x512_0_19_0 : ∀ a, (![0, 19, 0] : Fin 3 → Nat) a + S3x1x512.size a ≤ S3x32x512.size a
  inb_S32x64x512_S1x64x512_20_0_0 : ∀ a, (![20, 0, 0] : Fin 3 → Nat) a + S1x64x512.size a ≤ S32x64x512.size a
  inb_S3x32x512_S3x1x512_0_20_0 : ∀ a, (![0, 20, 0] : Fin 3 → Nat) a + S3x1x512.size a ≤ S3x32x512.size a
  inb_S32x64x512_S1x64x512_21_0_0 : ∀ a, (![21, 0, 0] : Fin 3 → Nat) a + S1x64x512.size a ≤ S32x64x512.size a
  inb_S3x32x512_S3x1x512_0_21_0 : ∀ a, (![0, 21, 0] : Fin 3 → Nat) a + S3x1x512.size a ≤ S3x32x512.size a
  inb_S32x64x512_S1x64x512_22_0_0 : ∀ a, (![22, 0, 0] : Fin 3 → Nat) a + S1x64x512.size a ≤ S32x64x512.size a
  inb_S3x32x512_S3x1x512_0_22_0 : ∀ a, (![0, 22, 0] : Fin 3 → Nat) a + S3x1x512.size a ≤ S3x32x512.size a
  inb_S32x64x512_S1x64x512_23_0_0 : ∀ a, (![23, 0, 0] : Fin 3 → Nat) a + S1x64x512.size a ≤ S32x64x512.size a
  inb_S3x32x512_S3x1x512_0_23_0 : ∀ a, (![0, 23, 0] : Fin 3 → Nat) a + S3x1x512.size a ≤ S3x32x512.size a
  inb_S32x64x512_S1x64x512_24_0_0 : ∀ a, (![24, 0, 0] : Fin 3 → Nat) a + S1x64x512.size a ≤ S32x64x512.size a
  inb_S3x32x512_S3x1x512_0_24_0 : ∀ a, (![0, 24, 0] : Fin 3 → Nat) a + S3x1x512.size a ≤ S3x32x512.size a
  inb_S32x64x512_S1x64x512_25_0_0 : ∀ a, (![25, 0, 0] : Fin 3 → Nat) a + S1x64x512.size a ≤ S32x64x512.size a
  inb_S3x32x512_S3x1x512_0_25_0 : ∀ a, (![0, 25, 0] : Fin 3 → Nat) a + S3x1x512.size a ≤ S3x32x512.size a
  inb_S32x64x512_S1x64x512_26_0_0 : ∀ a, (![26, 0, 0] : Fin 3 → Nat) a + S1x64x512.size a ≤ S32x64x512.size a
  inb_S3x32x512_S3x1x512_0_26_0 : ∀ a, (![0, 26, 0] : Fin 3 → Nat) a + S3x1x512.size a ≤ S3x32x512.size a
  inb_S32x64x512_S1x64x512_27_0_0 : ∀ a, (![27, 0, 0] : Fin 3 → Nat) a + S1x64x512.size a ≤ S32x64x512.size a
  inb_S3x32x512_S3x1x512_0_27_0 : ∀ a, (![0, 27, 0] : Fin 3 → Nat) a + S3x1x512.size a ≤ S3x32x512.size a
  inb_S32x64x512_S1x64x512_28_0_0 : ∀ a, (![28, 0, 0] : Fin 3 → Nat) a + S1x64x512.size a ≤ S32x64x512.size a
  inb_S3x32x512_S3x1x512_0_28_0 : ∀ a, (![0, 28, 0] : Fin 3 → Nat) a + S3x1x512.size a ≤ S3x32x512.size a
  inb_S32x64x512_S1x64x512_29_0_0 : ∀ a, (![29, 0, 0] : Fin 3 → Nat) a + S1x64x512.size a ≤ S32x64x512.size a
  inb_S3x32x512_S3x1x512_0_29_0 : ∀ a, (![0, 29, 0] : Fin 3 → Nat) a + S3x1x512.size a ≤ S3x32x512.size a
  inb_S32x64x512_S1x64x512_30_0_0 : ∀ a, (![30, 0, 0] : Fin 3 → Nat) a + S1x64x512.size a ≤ S32x64x512.size a
  inb_S3x32x512_S3x1x512_0_30_0 : ∀ a, (![0, 30, 0] : Fin 3 → Nat) a + S3x1x512.size a ≤ S3x32x512.size a
  inb_S32x64x512_S1x64x512_31_0_0 : ∀ a, (![31, 0, 0] : Fin 3 → Nat) a + S1x64x512.size a ≤ S32x64x512.size a
  inb_S3x32x512_S3x1x512_0_31_0 : ∀ a, (![0, 31, 0] : Fin 3 → Nat) a + S3x1x512.size a ≤ S3x32x512.size a
  transposes_S512x64x512_S512x512x64_0_2_1 : S512x64x512.Transposes [0, 2, 1] S512x512x64
  scatter_S96x3_S2_S32x2_01_n_01_0_wf : ScatterDims.WF S96x3 S2 S32x2 [0, 1] [] [0, 1] 0
  scatter_S96x3_S2_S64_0_1_01_0_wf : ScatterDims.WF S96x3 S2 S64 [0] [1] [0, 1] 0
  dot_S96x3_S3x512_S96x512_1_0_0_1_n_n_wf : DotDims.WF S96x3 S3x512 S96x512 [1] [0] [0] [1] [] []
  dot_S256x32_S32x512_S256x512_1_0_0_1_n_n_wf : DotDims.WF S256x32 S32x512 S256x512 [1] [0] [0] [1] [] []
  dot_S256x64_S64x512_S256x512_1_0_0_1_n_n_wf : DotDims.WF S256x64 S64x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32x512.size a ≤ S3x512x512.size a
  hwx0_0 : ∀ i : grid0.Coords, EltTy.bits .f32 = 32 ∨ (Rect.block (s := S3x512x512) S3x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x512.size a ≤ S512x64x512.size a
  hwx0_1 : ∀ i : grid0.Coords, EltTy.bits .f32 = 32 ∨ (Rect.block (s := S512x64x512) S32x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x64x512.size a ≤ S512x64x512.size a
  hwx0_2 : ∀ i : grid0.Coords, EltTy.bits .f32 = 32 ∨ (Rect.block (s := S512x64x512) S32x64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x3.size a ≤ S96x3.size a
  hwx0_3 : ∀ i : grid0.Coords, EltTy.bits .f32 = 32 ∨ (Rect.block (s := S96x3) S96x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x1.size a ≤ S96x1.size a
  hwx0_4 : ∀ i : grid0.Coords, EltTy.bits .f32 = 32 ∨ (Rect.block (s := S96x1) S96x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x64x512.size a ≤ S512x64x512.size a
  hwx0_8 : ∀ i : grid0.Coords, EltTy.bits .f32 = 32 ∨ (Rect.block (s := S512x64x512) S32x64x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x64x512.size a ≤ S512x64x512.size a
  hwx0_9 : ∀ i : grid0.Coords, EltTy.bits .f32 = 32 ∨ (Rect.block (s := S512x64x512) S32x64x512.size (cc0_transform_9 i) (hinb0_9 i)).WholeWords (EltTy.packing .f32)

variable [Facts₀]

def scatter_S96x3_S2_S32x2_01_n_01_0 : ScatterDims S96x3 S2 S32x2 where
  updateWindowDims := [0, 1]
  insertedWindowDims := []
  scatterDimsToOperandDims := [0, 1]
  indexVectorDim := 0
  wf := scatter_S96x3_S2_S32x2_01_n_01_0_wf
def scatter_S96x3_S2_S64_0_1_01_0 : ScatterDims S96x3 S2 S64 where
  updateWindowDims := [0]
  insertedWindowDims := [1]
  scatterDimsToOperandDims := [0, 1]
  indexVectorDim := 0
  wf := scatter_S96x3_S2_S64_0_1_01_0_wf
def dot_S96x3_S3x512_S96x512_1_0_0_1_n_n : DotDims S96x3 S3x512 S96x512 where
  lhsContracting := [1]
  rhsContracting := [0]
  lhsNonContracting := [0]
  rhsNonContracting := [1]
  lhsBatch := []
  rhsBatch := []
  wf := dot_S96x3_S3x512_S96x512_1_0_0_1_n_n_wf
def dot_S256x32_S32x512_S256x512_1_0_0_1_n_n : DotDims S256x32 S32x512 S256x512 where
  lhsContracting := [1]
  rhsContracting := [0]
  lhsNonContracting := [0]
  rhsNonContracting := [1]
  lhsBatch := []
  rhsBatch := []
  wf := dot_S256x32_S32x512_S256x512_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_v5) S3x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S96x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S96x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v68) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v69_0) S32x64x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v69_1) S32x64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256 : Shape := ⟨1, ![256]⟩
abbrev S256x64 : Shape := ⟨2, ![256, 64]⟩
abbrev S262144x2 : Shape := ⟨2, ![262144, 2]⟩
abbrev S262144x64 : Shape := ⟨2, ![262144, 64]⟩
abbrev S262144 : Shape := ⟨1, ![262144]⟩
abbrev S_ : Shape := ⟨0, ![]⟩
abbrev S262144x1 : Shape := ⟨2, ![262144, 1]⟩
abbrev S2x32 : Shape := ⟨2, ![2, 32]⟩
abbrev S262144x32 : Shape := ⟨2, ![262144, 32]⟩
abbrev S1x32 : Shape := ⟨2, ![1, 32]⟩
abbrev S32x256 : Shape := ⟨2, ![32, 256]⟩
abbrev S262144x256 : Shape := ⟨2, ![262144, 256]⟩
abbrev S1x256 : Shape := ⟨2, ![1, 256]⟩
abbrev S64x256 : Shape := ⟨2, ![64, 256]⟩

abbrev nBuf : Space → Nat
  | .hbm => 77
  | .vmem => 0
  | .smem => 0
  | _ => 0

abbrev bufTy : (tb : Table) → Fin (tcTables nBuf tb) → BufTy
  | .hbm, ⟨0, _⟩ => ⟨S512x512x2, .f32⟩
  | .hbm, ⟨1, _⟩ => ⟨S512x512x64, .f32⟩
  | .hbm, ⟨2, _⟩ => ⟨S512x512x64, .f32⟩
  | .hbm, ⟨3, _⟩ => ⟨S512x512, .i32⟩
  | .hbm, ⟨4, _⟩ => ⟨S32x2, .f32⟩
  | .hbm, ⟨5, _⟩ => ⟨S32, .f32⟩
  | .hbm, ⟨6, _⟩ => ⟨S256x32, .f32⟩
  | .hbm, ⟨7, _⟩ => ⟨S256, .f32⟩
  | .hbm, ⟨8, _⟩ => ⟨S256x64, .f32⟩
  | .hbm, ⟨9, _⟩ => ⟨S256, .f32⟩
  | .hbm, ⟨10, _⟩ => ⟨S262144x2, .f32⟩
  | .hbm, ⟨11, _⟩ => ⟨S262144x64, .f32⟩
  | .hbm, ⟨12, _⟩ => ⟨S262144x64, .f32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S262144x1, .i1⟩
  | .hbm, ⟨18, _⟩ => ⟨S2x32, .f32⟩
  | .hbm, ⟨19, _⟩ => ⟨S262144x32, .f32⟩
  | .hbm, ⟨20, _⟩ => ⟨S1x32, .f32⟩
  | .hbm, ⟨21, _⟩ => ⟨S262144x32, .f32⟩
  | .hbm, ⟨22, _⟩ => ⟨S262144x32, .f32⟩
  | .hbm, ⟨23, _⟩ => ⟨S_, .f32⟩
  | .hbm, ⟨24, _⟩ => ⟨S262144x32, .f32⟩
  | .hbm, ⟨25, _⟩ => ⟨S262144x32, .f32⟩
  | .hbm, ⟨26, _⟩ => ⟨S32x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S64x256, .f32⟩
  | .hbm, ⟨32, _⟩ => ⟨S262144x256, .f32⟩
  | .hbm, ⟨33, _⟩ => ⟨S262144x256, .f32⟩
  | .hbm, ⟨34, _⟩ => ⟨S1x256, .f32⟩
  | .hbm, ⟨35, _⟩ => ⟨S262144x256, .f32⟩
  | .hbm, ⟨36, _⟩ => ⟨S262144x256, .f32⟩
  | .hbm, ⟨37, _⟩ => ⟨S262144x64, .f32⟩
  | .hbm, ⟨38, _⟩ => ⟨S262144x64, .f32⟩
  | .hbm, ⟨39, _⟩ => ⟨S262144x64, .f32⟩
  | .hbm, ⟨40, _⟩ => ⟨S_, .f32⟩
  | .hbm, ⟨41, _⟩ => ⟨S262144x64, .f32⟩
  | .hbm, ⟨42, _⟩ => ⟨S262144x64, .f32⟩
  | .hbm, ⟨43, _⟩ => ⟨S_, .f32⟩
  | .hbm, ⟨44, _⟩ => ⟨S262144x64, .f32⟩
  | .hbm, ⟨45, _⟩ => ⟨S262144x64, .f32⟩
  | .hbm, ⟨46, _⟩ => ⟨S262144x64, .f32⟩
  | .hbm, ⟨47, _⟩ => ⟨S262144x64, .f32⟩
  | .hbm, ⟨48, _⟩ => ⟨S262144x64, .f32⟩
  | .hbm, ⟨49, _⟩ => ⟨S_, .f32⟩
  | .hbm, ⟨50, _⟩ => ⟨S262144x64, .f32⟩
  | .hbm, ⟨51, _⟩ => ⟨S262144x64, .f32⟩
  | .hbm, ⟨52, _⟩ => ⟨S_, .f32⟩
  | .hbm, ⟨53, _⟩ => ⟨S262144x64, .f32⟩
  | .hbm, ⟨54, _⟩ => ⟨S262144x64, .f32⟩
  | .hbm, ⟨55, _⟩ => ⟨S262144x64, .f32⟩
  | .hbm, ⟨56, _⟩ => ⟨S262144x64, .f32⟩
  | .hbm, ⟨57, _⟩ => ⟨S262144x64, .f32⟩
  | .hbm, ⟨58, _⟩ => ⟨S262144x64, .f32⟩
  | .hbm, ⟨59, _⟩ => ⟨S262144x64, .f32⟩
  | .hbm, ⟨60, _⟩ => ⟨S_, .f32⟩
  | .hbm, ⟨61, _⟩ => ⟨S262144x64, .f32⟩
  | .hbm, ⟨62, _⟩ => ⟨S262144x64, .f32⟩
  | .hbm, ⟨63, _⟩ => ⟨S_, .f32⟩
  | .hbm, ⟨64, _⟩ => ⟨S262144x64, .f32⟩
  | .hbm, ⟨65, _⟩ => ⟨S262144x64, .f32⟩
  | .hbm, ⟨66, _⟩ => ⟨S262144x64, .f32⟩
  | .hbm, ⟨67, _⟩ => ⟨S262144x64, .f32⟩
  | .hbm, ⟨68, _⟩ => ⟨S262144x64, .f32⟩
  | .hbm, ⟨69, _⟩ => ⟨S262144x64, .f32⟩
  | .hbm, ⟨70, _⟩ => ⟨S262144x64, .f32⟩
  | .hbm, ⟨71, _⟩ => ⟨S262144x64, .i1⟩
  | .hbm, ⟨72, _⟩ => ⟨S262144x64, .f32⟩
  | .hbm, ⟨73, _⟩ => ⟨S512x512x64, .f32⟩
  | .hbm, ⟨74, _⟩ => ⟨S262144x64, .i1⟩
  | .hbm, ⟨75, _⟩ => ⟨S262144x64, .f32⟩
  | .hbm, ⟨76, _⟩ => ⟨S512x512x64, .f32⟩
  | _, _ => ⟨S512x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_call2_v0 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  shapeCasts_S512x512x2_S262144x2 : S512x512x2.ShapeCasts S262144x2
  shapeCasts_S512x512x64_S262144x64 : S512x512x64.ShapeCasts S262144x64
  shapeCasts_S512x512_S262144 : S512x512.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  transposes_S32x2_S2x32_1_0 : S32x2.Transposes [1, 0] S2x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  transposes_S256x32_S32x256_1_0 : S256x32.Transposes [1, 0] S32x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  transposes_S256x64_S64x256_1_0 : S256x64.Transposes [1, 0] S64x256
  slices_S262144x256_S262144x64_0_0 : S262144x256.Slices ![0, 0] S262144x64
  bcast_S_S262144x64 : S_.BroadcastsInDim S262144x64 (![] : Fin 0 → Fin S262144x64.rank)
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S262144x1_S262144x64_0_1 : S262144x1.BroadcastsInDim S262144x64 (![0, 1] : Fin 2 → Fin S262144x64.rank)
  shapeCasts_S262144x64_S512x512x64 : S262144x64.ShapeCasts S512x512x64
  dot_S262144x2_S2x32_S262144x32_1_0_0_1_n_n_wf : DotDims.WF S262144x2 S2x32 S262144x32 [1] [0] [0] [1] [] []
  dot_S262144x32_S32x256_S262144x256_1_0_0_1_n_n_wf : DotDims.WF S262144x32 S32x256 S262144x256 [1] [0] [0] [1] [] []
  dot_S262144x64_S64x256_S262144x256_1_0_0_1_n_n_wf : DotDims.WF S262144x64 S64x256 S262144x256 [1] [0] [0] [1] [] []

variable [Facts₀]

def dot_S262144x2_S2x32_S262144x32_1_0_0_1_n_n : DotDims S262144x2 S2x32 S262144x32 where
  lhsContracting := [1]
  rhsContracting := [0]
  lhsNonContracting := [0]
  rhsNonContracting := [1]
  lhsBatch := []
  rhsBatch := []
  wf := dot_S262144x2_S2x32_S262144x32_1_0_0_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf

class Facts : Prop extends Facts₀ where

variable [Facts]
-- ==== Proof.AroundB.lean ====
/-
  The run of the kernel's program around its one launch, at any float instance.

  @main is 85 host operations that lay the operands out (the hidden and cell states with the relation
  axis last, the correlation channels and the neighbour flag stacked channel-major, the front matrix and the
  gate weights re-ordered and halved), the launch over 16 blocks of 32 relation rows, and two host
  transposes that put the relation axis back. This module states what the launch finds in each operand
  array (the host operations' result, `V`), that no host operation writes an argument array, what block of
  its array each window holds at a grid point, and how the frame claim — every execution terminates, nothing
  faults, the arguments end unchanged — follows from a run of the launch whose final state names every array.
-/
import proofs.«176749_g16716012716120_cont_week2b_1009_18_alg».proof.Proof.Gen.Kernel.Launch
import proofs.«176749_g16716012716120_cont_week2b_1009_18_alg».proof.Proof.Gen.Kernel.Skeleton
import proofs.«176749_g16716012716120_cont_week2b_1009_18_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the launch is entered: the memory as launched, after the host operations
    that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the two transposes after it: it reduces to
    the launch continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two transposes after the launch touch only the launch's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the launch's arrays (each writes its own result, which is no operand of the launch). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

/-- No host operation before the launch writes argument 0: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the launch writes argument 6: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the launch writes argument 7: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the launch writes argument 8: the launch finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the launch writes argument 9: the launch finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did and the block index has not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether that point fetched it or an
    earlier one did and the block index has not moved since. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether that point fetched it or an
    earlier one did and the block index has not moved since. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether that point fetched it or an
    earlier one did and the block index has not moved since. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether that point fetched it or an
    earlier one did and the block index has not moved since. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether that point fetched it or an
    earlier one did and the block index has not moved since. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether that point fetched it or an
    earlier one did and the block index has not moved since. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether that point fetched it or an
    earlier one did and the block index has not moved since. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch -/

/-- From a run whose final state names every array of the launch and leaves every bypassing buffer as the last
    host operations leave it, the frame claim's post: each argument array is no operand of the launch, so it is
    a bypassing buffer, written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

end Cert.Kernel.Around

end
-- ==== Proof.BodyRunB.lean ====
/-
  One run of the kernel body on its ten staging buffers, at any float instance.

  The body loads the five weight blocks once and then, for each of the 32 relation rows of the block, the
  row's three input channels and its hidden and cell states, computes the cell, and stores the new hidden and
  cell rows through the 32 disjoint row slabs of the two output buffers. What the two output buffers end with
  is a list of 32 stored pieces each; the lists are found by running the body, and stated together with the fact that, from the eight input buffers held whole at given contents and the two
  output buffers held at anything, the body runs to its return with the inputs as they were.
-/
import proofs.«176749_g16716012716120_cont_week2b_1009_18_alg».proof.Proof.AroundB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

-- one elaboration step of several thousand rule applications over 38 printed parts
set_option maxHeartbeats 0 in
/-- The pieces the body's stores leave in the two output buffers (last store first), with the body's run. -/
noncomputable def kernelRun (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) :
    Σ' (L8 : List (View.Piece (Elt F) S32x64x512 .f32)) (L9 : List (View.Piece (Elt F) S32x64x512 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec_parts!
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.Kernel.Around

end
-- ==== Proof.FrameRunB.lean ====
/-
  The launch's proof data and run, at any float instance.

  After the body at grid point `t` each input window's staging buffer still holds its block and each output
  window's holds what the body's 32 stores wrote: the stores tile the buffer (32 slabs of one relation row
  each), so what they leave does not depend on what the buffer held before. With that the body meets the
  launch's obligation at every point, the launch theorem for host operations before and after one launch
  applies, and the frame claim follows.
-/
import proofs.«176749_g16716012716120_cont_week2b_1009_18_alg».proof.Proof.BodyRunB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the output buffers -/

/-- One staging buffer of each output window, through which its contents are stated (the choice does not matter:
    the stores cover the buffer). -/
abbrev VO8 : View sig .tc .vmem S32x64x512 .f32 := (Memref.whole cc0_stg8_0 : Memref sig .tc .vmem S32x64x512 .f32).view
abbrev VO9 : View sig .tc .vmem S32x64x512 .f32 := (Memref.whole cc0_stg9_0 : Memref sig .tc .vmem S32x64x512 .f32).view

/-- Each window's current staging buffer at point `t`, as the launch passes it to the body, and its wholeness. -/
abbrev ms0 (t : Fin cfg0.N) : Memref sig .tc .vmem S3x32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S96x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S96x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x64x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x64x512 .f32 := win0_9.stage (cfg0.slots t 9)
abbrev hs9 (t : Fin cfg0.N) : (ms9 t).IsWhole := hstage0_9 ((cfg0.slots t 9).cast nbuf0_9)

/-- The 32 stores into each output buffer tile it: every index lies in one stored slab. -/
theorem cover8 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) (y : S32x64x512.Idx) :
    ∃ pc ∈ (kernelRun (F := F) c i arg1 harg1 arg2 harg2 arg3 harg3 arg4 harg4 arg5 harg5 arg6 harg6 arg7 harg7 arg8 harg8 arg9 harg9 arg10 harg10 x0 x1 x2 x3 x4 x5 x6 x7).1, y ∈ pc.1.set :=
  View.cover_of_tiledL (kernelRun (F := F) c i arg1 harg1 arg2 harg2 arg3 harg3 arg4 harg4 arg5 harg5 arg6 harg6 arg7 harg7 arg8 harg8 arg9 harg9 arg10 harg10 x0 x1 x2 x3 x4 x5 x6 x7).1 S1x64x512.size (by sl_kernel_rfl) y
theorem cover9 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) (y : S32x64x512.Idx) :
    ∃ pc ∈ (kernelRun (F := F) c i arg1 harg1 arg2 harg2 arg3 harg3 arg4 harg4 arg5 harg5 arg6 harg6 arg7 harg7 arg8 harg8 arg9 harg9 arg10 harg10 x0 x1 x2 x3 x4 x5 x6 x7).2.1, y ∈ pc.1.set :=
  View.cover_of_tiledL (kernelRun (F := F) c i arg1 harg1 arg2 harg2 arg3 harg3 arg4 harg4 arg5 harg5 arg6 harg6 arg7 harg7 arg8 harg8 arg9 harg9 arg10 harg10 x0 x1 x2 x3 x4 x5 x6 x7).2.1 S1x64x512.size (by sl_kernel_rfl) y

/-- What the body leaves in the new-hidden-state buffer, and in the new-cell-state buffer. -/
def out8 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) : Vec F S32x64x512 .f32 :=
  VO8.read (Elt F) (VO8.writes (Elt F) VO8.junk (kernelRun (F := F) c i arg1 harg1 arg2 harg2 arg3 harg3 arg4 harg4 arg5 harg5 arg6 harg6 arg7 harg7 arg8 harg8 arg9 harg9 arg10 harg10 x0 x1 x2 x3 x4 x5 x6 x7).1)
def out9 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) : Vec F S32x64x512 .f32 :=
  VO9.read (Elt F) (VO9.writes (Elt F) VO9.junk (kernelRun (F := F) c i arg1 harg1 arg2 harg2 arg3 harg3 arg4 harg4 arg5 harg5 arg6 harg6 arg7 harg7 arg8 harg8 arg9 harg9 arg10 harg10 x0 x1 x2 x3 x4 x5 x6 x7).2.1)

/-! ## The launch's proof data -/

/-- On core `c`: the arrays as the launch finds them; after the body at point `t` each input buffer at its block
    and each output buffer at what the stores wrote from the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t)
    | ⟨9, _⟩ => out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point: the inputs' buffers hold their blocks, the outputs' hold anything, so the run applies;
    what it leaves in the outputs is what the proof data says, because the stores cover them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  unfold out8 out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun (F := F) c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _)
  unfold owns; iexists _; isplitr
  swap; · iexact H9
  ipureintro; exact View.read_writes_of_cover _ _ _ _ _ (cover9 c _ _ _ _ _ _ _ _ _ _ _ _ _ _ _ _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and the final state has
    every array of the launch at what the proof data computes and every other buffer as the last host operations
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates, nothing faults, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Around

end
-- ==== Proof.AroundI.lean ====
/-
  The run of the kernel's program around its one launch, at any float instance.

  @main is 85 host operations that lay the operands out (the hidden and cell states with the relation
  axis last, the correlation channels and the neighbour flag stacked channel-major, the front matrix and the
  gate weights re-ordered and halved), the launch over 16 blocks of 32 relation rows, and two host
  transposes that put the relation axis back. This module states what the launch finds in each operand
  array (the host operations' result, `V`), that no host operation writes an argument array, what block of
  its array each window holds at a grid point, and how the frame claim — every execution terminates, nothing
  faults, the arguments end unchanged — follows from a run of the launch whose final state names every array.
-/
import proofs.«176749_g16716012716120_cont_week2b_1009_18_alg».proof.Proof.Gen.KernelIdeal.Launch
import proofs.«176749_g16716012716120_cont_week2b_1009_18_alg».proof.Proof.Gen.KernelIdeal.Skeleton
import proofs.«176749_g16716012716120_cont_week2b_1009_18_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the launch is entered: the memory as launched, after the host operations
    that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the launch, the launch, and the two transposes after it: it reduces to
    the launch continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two transposes after the launch touch only the launch's arrays and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the launch's arrays (each writes its own result, which is no operand of the launch). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

/-- No host operation before the launch writes argument 0: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the launch writes argument 1: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the launch writes argument 2: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the launch writes argument 3: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the launch writes argument 4: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the launch writes argument 5: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the launch writes argument 6: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the launch writes argument 7: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the launch writes argument 8: the launch finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the launch writes argument 9: the launch finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor do the two transposes after it: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did and the block index has not moved since. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether that point fetched it or an
    earlier one did and the block index has not moved since. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether that point fetched it or an
    earlier one did and the block index has not moved since. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether that point fetched it or an
    earlier one did and the block index has not moved since. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether that point fetched it or an
    earlier one did and the block index has not moved since. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether that point fetched it or an
    earlier one did and the block index has not moved since. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether that point fetched it or an
    earlier one did and the block index has not moved since. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether that point fetched it or an
    earlier one did and the block index has not moved since. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the launch -/

/-- From a run whose final state names every array of the launch and leaves every bypassing buffer as the last
    host operations leave it, the frame claim's post: each argument array is no operand of the launch, so it is
    a bypassing buffer, written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c)⟩) h

end Cert.KernelIdeal.Around

end
-- ==== Proof.BodyRunI.lean ====
/-
  One run of the kernel body on its ten staging buffers, at any float instance.

  The body loads the five weight blocks once and then, for each of the 32 relation rows of the block, the
  row's three input channels and its hidden and cell states, computes the cell, and stores the new hidden and
  cell rows through the 32 disjoint row slabs of the two output buffers. What the two output buffers end with
  is a list of 32 stored pieces each; the lists are found by running the body, and stated together with the fact that, from the eight input buffers held whole at given contents and the two
  output buffers held at anything, the body runs to its return with the inputs as they were.
-/
import proofs.«176749_g16716012716120_cont_week2b_1009_18_alg».proof.Proof.AroundI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

-- one elaboration step of several thousand rule applications over 38 printed parts
set_option maxHeartbeats 0 in
/-- The pieces the body's stores leave in the two output buffers (last store first), with the body's run. -/
noncomputable def kernelRun (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) :
    Σ' (L8 : List (View.Piece (Elt F) S32x64x512 .f32)) (L9 : List (View.Piece (Elt F) S32x64x512 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec_parts!
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; iexact H8
    iexists _; iexact H9

end Cert.KernelIdeal.Around

end
-- ==== Proof.FrameRunI.lean ====
/-
  The launch's proof data and run, at any float instance.

  After the body at grid point `t` each input window's staging buffer still holds its block and each output
  window's holds what the body's 32 stores wrote: the stores tile the buffer (32 slabs of one relation row
  each), so what they leave does not depend on what the buffer held before. With that the body meets the
  launch's obligation at every point, the launch theorem for host operations before and after one launch
  applies, and the frame claim follows.
-/
import proofs.«176749_g16716012716120_cont_week2b_1009_18_alg».proof.Proof.BodyRunI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the output buffers -/

/-- One staging buffer of each output window, through which its contents are stated (the choice does not matter:
    the stores cover the buffer). -/
abbrev VO8 : View sig .tc .vmem S32x64x512 .f32 := (Memref.whole cc0_stg8_0 : Memref sig .tc .vmem S32x64x512 .f32).view
abbrev VO9 : View sig .tc .vmem S32x64x512 .f32 := (Memref.whole cc0_stg9_0 : Memref sig .tc .vmem S32x64x512 .f32).view

/-- Each window's current staging buffer at point `t`, as the launch passes it to the body, and its wholeness. -/
abbrev ms0 (t : Fin cfg0.N) : Memref sig .tc .vmem S3x32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x64x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x64x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S96x3 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S96x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x64x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S32x64x512 .f32 := win0_9.stage (cfg0.slots t 9)
abbrev hs9 (t : Fin cfg0.N) : (ms9 t).IsWhole := hstage0_9 ((cfg0.slots t 9).cast nbuf0_9)

/-- The 32 stores into each output buffer tile it: every index lies in one stored slab. -/
theorem cover8 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) (y : S32x64x512.Idx) :
    ∃ pc ∈ (kernelRun (F := F) c i arg1 harg1 arg2 harg2 arg3 harg3 arg4 harg4 arg5 harg5 arg6 harg6 arg7 harg7 arg8 harg8 arg9 harg9 arg10 harg10 x0 x1 x2 x3 x4 x5 x6 x7).1, y ∈ pc.1.set :=
  View.cover_of_tiledL (kernelRun (F := F) c i arg1 harg1 arg2 harg2 arg3 harg3 arg4 harg4 arg5 harg5 arg6 harg6 arg7 harg7 arg8 harg8 arg9 harg9 arg10 harg10 x0 x1 x2 x3 x4 x5 x6 x7).1 S1x64x512.size (by sl_kernel_rfl) y
theorem cover9 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) (y : S32x64x512.Idx) :
    ∃ pc ∈ (kernelRun (F := F) c i arg1 harg1 arg2 harg2 arg3 harg3 arg4 harg4 arg5 harg5 arg6 harg6 arg7 harg7 arg8 harg8 arg9 harg9 arg10 harg10 x0 x1 x2 x3 x4 x5 x6 x7).2.1, y ∈ pc.1.set :=
  View.cover_of_tiledL (kernelRun (F := F) c i arg1 harg1 arg2 harg2 arg3 harg3 arg4 harg4 arg5 harg5 arg6 harg6 arg7 harg7 arg8 harg8 arg9 harg9 arg10 harg10 x0 x1 x2 x3 x4 x5 x6 x7).2.1 S1x64x512.size (by sl_kernel_rfl) y

/-- What the body leaves in the new-hidden-state buffer, and in the new-cell-state buffer. -/
def out8 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) : Vec F S32x64x512 .f32 :=
  VO8.read (Elt F) (VO8.writes (Elt F) VO8.junk (kernelRun (F := F) c i arg1 harg1 arg2 harg2 arg3 harg3 arg4 harg4 arg5 harg5 arg6 harg6 arg7 harg7 arg8 harg8 arg9 harg9 arg10 harg10 x0 x1 x2 x3 x4 x5 x6 x7).1)
def out9 (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole)
    (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) : Vec F S32x64x512 .f32 :=
  VO9.read (Elt F) (VO9.writes (Elt F) VO9.junk (kernelRun (F := F) c i arg1 harg1 arg2 harg2 arg3 harg3 arg4 harg4 arg5 harg5 arg6 harg6 arg7 harg7 arg8 harg8 arg9 harg9 arg10 harg10 x0 x1 x2 x3 x4 x5 x6 x7).2.1)

/-! ## The launch's proof data -/

/-- On core `c`: the arrays as the launch finds them; after the body at point `t` each input buffer at its block
    and each output buffer at what the stores wrote from the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t)
    | ⟨9, _⟩ => out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point: the inputs' buffers hold their blocks, the outputs' hold anything, so the run applies;
    what it leaves in the outputs is what the proof data says, because the stores cover them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  unfold out8 out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun (F := F) c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _)
  unfold owns; iexists _; isplitr
  swap; · iexact H9
  ipureintro; exact View.read_writes_of_cover _ _ _ _ _ (cover9 c _ _ _ _ _ _ _ _ _ _ _ _ _ _ _ _ _ _ _ _ _ _ _ _ _ _ _ _ _)

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and the final state has
    every array of the launch at what the proof data computes and every other buffer as the last host operations
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates, nothing faults, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Around

end
-- ==== Proof.WindowsAt.lean ====
/-
  What each window of the launch holds at a grid point.

  The launch runs over 16 points; point t works on relation rows 32 t … 32 t + 31. The auxiliary array [3, 512, 512]
  is cut along its middle axis and the two transposed states and the two results [512, 64, 512] along their first,
  block t at point t; the five weight arrays are whole at every point. So a block read at an index is its array read
  at the index with 32 t added on the blocked axis, a weight window's block is its array, and the blocks of an
  output window cover its array: index i lies in the block of point (i 0) / 32.
-/
import proofs.«176749_g16716012716120_cont_week2b_1009_18_alg».proof.Proof.FrameRunI
import Idealize.ShloMosaic.Lib.ValueIdx
import Idealize.ShloMosaic.Lib.Pipeline.Value

set_option maxRecDepth 16384

noncomputable section

namespace Cert.KernelIdeal.WindowsAt

open Cert.KernelIdeal Cert.KernelIdeal.Gen Cert.KernelIdeal.Around
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The index maps over the grid -/

/-- The five row-blocked windows (the auxiliary array on its middle axis; the two states and the two results on
    their first) sit at block `t` of the blocked axis and at block 0 of the others. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem idx_facts_out : ∀ t : Fin cfg0.N,
    win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- The five weight windows stay at block 0 of both axes. -/
theorem idx_facts_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The grid has 16 points. -/
theorem t_lt (t : Fin cfg0.N) : t.val < 16 := lt_of_lt_of_eq t.isLt N_0

/-! ## A row-blocked window's block of ANY contents of its array, at an index -/

/-- Window 0's block at point `t` of contents `X` of the `[3, 512, 512]` array: rows `32 t … 32 t + 31` of every channel. -/
theorem blk0_read (X : S3x512x512.Idx → Elt F .f32) (t : Fin cfg0.N) (j : Fin 3) (r : Fin 32) (q : Fin 512) :
    (((cfg0.win 0).blk t).view.read (Elt F) X : Vec F S3x32x512 .f32) (ix3 j r q)
      = X (ix3 j (⟨32 * t.val + r.val, by have := t_lt t; omega⟩ : Fin 512) q) := by
  obtain ⟨e0, e1, e2, _, _, _, _, _, _⟩ := idx_facts t
  rw [View.read_apply]
  show X _ = X _
  congr 1
  funext a
  apply Fin.ext
  match a with
  | ⟨0, _⟩ => show win0_0.index t 0 * 3 + 1 * j.val = j.val; rw [e0]; omega
  | ⟨1, _⟩ => show win0_0.index t 1 * 32 + 1 * r.val = 32 * t.val + r.val; rw [e1]; omega
  | ⟨2, _⟩ => show win0_0.index t 2 * 512 + 1 * q.val = q.val; rw [e2]; omega

/-- Window 1's block at point `t` of contents `X` of the `[512, 64, 512]` array: its rows `32 t … 32 t + 31`. -/
theorem blk1_read (X : S512x64x512.Idx → Elt F .f32) (t : Fin cfg0.N) (r : Fin 32) (k : Fin 64) (q : Fin 512) :
    (((cfg0.win 1).blk t).view.read (Elt F) X : Vec F S32x64x512 .f32) (ix3 r k q)
      = X (ix3 (⟨32 * t.val + r.val, by have := t_lt t; omega⟩ : Fin 512) k q) := by
  obtain ⟨_, _, _, e0, e1, e2, _, _, _⟩ := idx_facts t
  rw [View.read_apply]
  show X _ = X _
  congr 1
  funext a
  apply Fin.ext
  match a with
  | ⟨0, _⟩ => show win0_1.index t 0 * 32 + 1 * r.val = 32 * t.val + r.val; rw [e0]; omega
  | ⟨1, _⟩ => show win0_1.index t 1 * 64 + 1 * k.val = k.val; rw [e1]; omega
  | ⟨2, _⟩ => show win0_1.index t 2 * 512 + 1 * q.val = q.val; rw [e2]; omega

/-- Window 2's block, likewise. -/
theorem blk2_read (X : S512x64x512.Idx → Elt F .f32) (t : Fin cfg0.N) (r : Fin 32) (k : Fin 64) (q : Fin 512) :
    (((cfg0.win 2).blk t).view.read (Elt F) X : Vec F S32x64x512 .f32) (ix3 r k q)
      = X (ix3 (⟨32 * t.val + r.val, by have := t_lt t; omega⟩ : Fin 512) k q) := by
  obtain ⟨_, _, _, _, _, _, e0, e1, e2⟩ := idx_facts t
  rw [View.read_apply]
  show X _ = X _
  congr 1
  funext a
  apply Fin.ext
  match a with
  | ⟨0, _⟩ => show win0_2.index t 0 * 32 + 1 * r.val = 32 * t.val + r.val; rw [e0]; omega
  | ⟨1, _⟩ => show win0_2.index t 1 * 64 + 1 * k.val = k.val; rw [e1]; omega
  | ⟨2, _⟩ => show win0_2.index t 2 * 512 + 1 * q.val = q.val; rw [e2]; omega

/-- Output window 8's block, likewise. -/
theorem blk8_read (X : S512x64x512.Idx → Elt F .f32) (t : Fin cfg0.N) (r : Fin 32) (k : Fin 64) (q : Fin 512) :
    (((cfg0.win 8).blk t).view.read (Elt F) X : Vec F S32x64x512 .f32) (ix3 r k q)
      = X (ix3 (⟨32 * t.val + r.val, by have := t_lt t; omega⟩ : Fin 512) k q) := by
  obtain ⟨e0, e1, e2, _, _, _⟩ := idx_facts_out t
  rw [View.read_apply]
  show X _ = X _
  congr 1
  funext a
  apply Fin.ext
  match a with
  | ⟨0, _⟩ => show win0_8.index t 0 * 32 + 1 * r.val = 32 * t.val + r.val; rw [e0]; omega
  | ⟨1, _⟩ => show win0_8.index t 1 * 64 + 1 * k.val = k.val; rw [e1]; omega
  | ⟨2, _⟩ => show win0_8.index t 2 * 512 + 1 * q.val = q.val; rw [e2]; omega

/-- Output window 9's block, likewise. -/
theorem blk9_read (X : S512x64x512.Idx → Elt F .f32) (t : Fin cfg0.N) (r : Fin 32) (k : Fin 64) (q : Fin 512) :
    (((cfg0.win 9).blk t).view.read (Elt F) X : Vec F S32x64x512 .f32) (ix3 r k q)
      = X (ix3 (⟨32 * t.val + r.val, by have := t_lt t; omega⟩ : Fin 512) k q) := by
  obtain ⟨_, _, _, e0, e1, e2⟩ := idx_facts_out t
  rw [View.read_apply]
  show X _ = X _
  congr 1
  funext a
  apply Fin.ext
  match a with
  | ⟨0, _⟩ => show win0_9.index t 0 * 32 + 1 * r.val = 32 * t.val + r.val; rw [e0]; omega
  | ⟨1, _⟩ => show win0_9.index t 1 * 64 + 1 * k.val = k.val; rw [e1]; omega
  | ⟨2, _⟩ => show win0_9.index t 2 * 512 + 1 * q.val = q.val; rw [e2]; omega

/-! ## A weight window's block of any contents of its array: the whole array -/

theorem blk3_read (X : S96x3.Idx → Elt F .f32) (t : Fin cfg0.N) :
    (((cfg0.win 3).blk t).view.read (Elt F) X : Vec F S96x3 .f32) = X := by
  obtain ⟨e0, e1, _, _, _, _, _, _, _, _⟩ := idx_facts_whole t
  funext j
  rw [View.read_apply]
  show X _ = X j
  congr 1
  funext a
  apply Fin.ext
  match a with
  | ⟨0, _⟩ => show win0_3.index t 0 * 96 + 1 * (j 0).val = (j 0).val; rw [e0]; omega
  | ⟨1, _⟩ => show win0_3.index t 1 * 3 + 1 * (j 1).val = (j 1).val; rw [e1]; omega

theorem blk4_read (X : S96x1.Idx → Elt F .f32) (t : Fin cfg0.N) :
    (((cfg0.win 4).blk t).view.read (Elt F) X : Vec F S96x1 .f32) = X := by
  obtain ⟨_, _, e0, e1, _, _, _, _, _, _⟩ := idx_facts_whole t
  funext j
  rw [View.read_apply]
  show X _ = X j
  congr 1
  funext a
  apply Fin.ext
  match a with
  | ⟨0, _⟩ => show win0_4.index t 0 * 96 + 1 * (j 0).val = (j 0).val; rw [e0]; omega
  | ⟨1, _⟩ => show win0_4.index t 1 * 1 + 1 * (j 1).val = (j 1).val; rw [e1]; omega

theorem blk5_read (X : S256x32.Idx → Elt F .f32) (t : Fin cfg0.N) :
    (((cfg0.win 5).blk t).view.read (Elt F) X : Vec F S256x32 .f32) = X := by
  obtain ⟨_, _, _, _, e0, e1, _, _, _, _⟩ := idx_facts_whole t
  funext j
  rw [View.read_apply]
  show X _ = X j
  congr 1
  funext a
  apply Fin.ext
  match a with
  | ⟨0, _⟩ => show win0_5.index t 0 * 256 + 1 * (j 0).val = (j 0).val; rw [e0]; omega
  | ⟨1, _⟩ => show win0_5.index t 1 * 32 + 1 * (j 1).val = (j 1).val; rw [e1]; omega

theorem blk6_read (X : S256x64.Idx → Elt F .f32) (t : Fin cfg0.N) :
    (((cfg0.win 6).blk t).view.read (Elt F) X : Vec F S256x64 .f32) = X := by
  obtain ⟨_, _, _, _, _, _, e0, e1, _, _⟩ := idx_facts_whole t
  funext j
  rw [View.read_apply]
  show X _ = X j
  congr 1
  funext a
  apply Fin.ext
  match a with
  | ⟨0, _⟩ => show win0_6.index t 0 * 256 + 1 * (j 0).val = (j 0).val; rw [e0]; omega
  | ⟨1, _⟩ => show win0_6.index t 1 * 64 + 1 * (j 1).val = (j 1).val; rw [e1]; omega

theorem blk7_read (X : S256x1.Idx → Elt F .f32) (t : Fin cfg0.N) :
    (((cfg0.win 7).blk t).view.read (Elt F) X : Vec F S256x1 .f32) = X := by
  obtain ⟨_, _, _, _, _, _, _, _, e0, e1⟩ := idx_facts_whole t
  funext j
  rw [View.read_apply]
  show X _ = X j
  congr 1
  funext a
  apply Fin.ext
  match a with
  | ⟨0, _⟩ => show win0_7.index t 0 * 256 + 1 * (j 0).val = (j 0).val; rw [e0]; omega
  | ⟨1, _⟩ => show win0_7.index t 1 * 1 + 1 * (j 1).val = (j 1).val; rw [e1]; omega

/-! ## The blocks the launch reads, off the arrays as it finds them -/

theorem iblk0_apply (c : Dev nD) (t : Fin cfg0.N) (j : Fin 3) (r : Fin 32) (q : Fin 512) :
    (iblk m c 0 t : Vec F S3x32x512 .f32) (ix3 j r q)
      = (V m c main_v5 : S3x512x512.Idx → Elt F .f32) (ix3 j (⟨32 * t.val + r.val, by have := t_lt t; omega⟩ : Fin 512) q) :=
  blk0_read (V m c main_v5) t j r q
theorem iblk1_apply (c : Dev nD) (t : Fin cfg0.N) (r : Fin 32) (k : Fin 64) (q : Fin 512) :
    (iblk m c 1 t : Vec F S32x64x512 .f32) (ix3 r k q)
      = (V m c main_v0 : S512x64x512.Idx → Elt F .f32) (ix3 (⟨32 * t.val + r.val, by have := t_lt t; omega⟩ : Fin 512) k q) :=
  blk1_read (V m c main_v0) t r k q
theorem iblk2_apply (c : Dev nD) (t : Fin cfg0.N) (r : Fin 32) (k : Fin 64) (q : Fin 512) :
    (iblk m c 2 t : Vec F S32x64x512 .f32) (ix3 r k q)
      = (V m c main_v1 : S512x64x512.Idx → Elt F .f32) (ix3 (⟨32 * t.val + r.val, by have := t_lt t; omega⟩ : Fin 512) k q) :=
  blk2_read (V m c main_v1) t r k q
theorem iblk3_eq (c : Dev nD) (t : Fin cfg0.N) :
    (iblk m c 3 t : Vec F S96x3 .f32) = (V m c main_v15 : S96x3.Idx → Elt F .f32) := blk3_read (V m c main_v15) t
theorem iblk4_eq (c : Dev nD) (t : Fin cfg0.N) :
    (iblk m c 4 t : Vec F S96x1 .f32) = (V m c main_v18 : S96x1.Idx → Elt F .f32) := blk4_read (V m c main_v18) t
theorem iblk5_eq (c : Dev nD) (t : Fin cfg0.N) :
    (iblk m c 5 t : Vec F S256x32 .f32) = (V m c main_v34 : S256x32.Idx → Elt F .f32) := blk5_read (V m c main_v34) t
theorem iblk6_eq (c : Dev nD) (t : Fin cfg0.N) :
    (iblk m c 6 t : Vec F S256x64 .f32) = (V m c main_v50 : S256x64.Idx → Elt F .f32) := blk6_read (V m c main_v50) t
theorem iblk7_eq (c : Dev nD) (t : Fin cfg0.N) :
    (iblk m c 7 t : Vec F S256x1 .f32) = (V m c main_v68 : S256x1.Idx → Elt F .f32) := blk7_read (V m c main_v68) t

/-! ## The output windows' blocks cover their arrays -/

/-- An index of a result array is in point `t`'s block of window 8 iff each coordinate is in the block's range. -/
theorem mem_blk8 (t : Fin cfg0.N) (i : S512x64x512.Idx) :
    i ∈ ((cfg0.win 8).blk t).view.set ↔ ∀ a : Fin 3, win0_8.index t a * S32x64x512.size a ≤ (i a).val ∧ (i a).val < win0_8.index t a * S32x64x512.size a + S32x64x512.size a := by
  show i ∈ ((View.whole main_v69_0).slice (win0_8.rect t)).set ↔ _
  rw [View.set_slice_whole, Rect.mem_set_unit]
  exact Iff.rfl
theorem mem_blk9 (t : Fin cfg0.N) (i : S512x64x512.Idx) :
    i ∈ ((cfg0.win 9).blk t).view.set ↔ ∀ a : Fin 3, win0_9.index t a * S32x64x512.size a ≤ (i a).val ∧ (i a).val < win0_9.index t a * S32x64x512.size a + S32x64x512.size a := by
  show i ∈ ((View.whole main_v69_1).slice (win0_9.rect t)).set ↔ _
  rw [View.set_slice_whole, Rect.mem_set_unit]
  exact Iff.rfl

/-- Every index of the first result array is in the block of the point `(i 0) / 32`, which writes back. -/
theorem cover8_lit (i : S512x64x512.Idx) :
    ∃ t : Fin cfg0.N, (cfg0.win 8).flush t = true ∧ i ∈ ((cfg0.win 8).blk t).view.set := by
  have hi0 : (i 0).val < 512 := (i 0).isLt
  have hi1 : (i 1).val < 64 := (i 1).isLt
  have hi2 : (i 2).val < 512 := (i 2).isLt
  obtain ⟨t, ht⟩ : ∃ t : Fin cfg0.N, t.val = (i 0).val / 32 :=
    ⟨⟨(i 0).val / 32, lt_of_lt_of_eq (by omega : (i 0).val / 32 < 16) N_0.symm⟩, rfl⟩
  obtain ⟨e0, e1, e2, _, _, _⟩ := idx_facts_out t
  refine ⟨t, flush0_8 t, ?_⟩
  rw [mem_blk8]
  intro a
  match a with
  | ⟨0, _⟩ => show win0_8.index t 0 * 32 ≤ (i 0).val ∧ (i 0).val < win0_8.index t 0 * 32 + 32; rw [e0]; omega
  | ⟨1, _⟩ => show win0_8.index t 1 * 64 ≤ (i 1).val ∧ (i 1).val < win0_8.index t 1 * 64 + 64; rw [e1]; omega
  | ⟨2, _⟩ => show win0_8.index t 2 * 512 ≤ (i 2).val ∧ (i 2).val < win0_8.index t 2 * 512 + 512; rw [e2]; omega
theorem cover9_lit (i : S512x64x512.Idx) :
    ∃ t : Fin cfg0.N, (cfg0.win 9).flush t = true ∧ i ∈ ((cfg0.win 9).blk t).view.set := by
  have hi0 : (i 0).val < 512 := (i 0).isLt
  have hi1 : (i 1).val < 64 := (i 1).isLt
  have hi2 : (i 2).val < 512 := (i 2).isLt
  obtain ⟨t, ht⟩ : ∃ t : Fin cfg0.N, t.val = (i 0).val / 32 :=
    ⟨⟨(i 0).val / 32, lt_of_lt_of_eq (by omega : (i 0).val / 32 < 16) N_0.symm⟩, rfl⟩
  obtain ⟨_, _, _, e0, e1, e2⟩ := idx_facts_out t
  refine ⟨t, flush0_9 t, ?_⟩
  rw [mem_blk9]
  intro a
  match a with
  | ⟨0, _⟩ => show win0_9.index t 0 * 32 ≤ (i 0).val ∧ (i 0).val < win0_9.index t 0 * 32 + 32; rw [e0]; omega
  | ⟨1, _⟩ => show win0_9.index t 1 * 64 ≤ (i 1).val ∧ (i 1).val < win0_9.index t 1 * 64 + 64; rw [e1]; omega
  | ⟨2, _⟩ => show win0_9.index t 2 * 512 ≤ (i 2).val ∧ (i 2).val < win0_9.index t 2 * 512 + 512; rw [e2]; omega

/-- The same, typed as the whole-array post asks. -/
theorem cover8 (c : Dev nD) (i : ((cfg0.win 8).arr.view.loc (c.tc : Thread nD τ)).2.ty.Idx) :
    ∃ t : Fin cfg0.N, (cfg0.win 8).flush t = true ∧ i ∈ ((cfg0.win 8).blk t).view.set := cover8_lit i
theorem cover9 (c : Dev nD) (i : ((cfg0.win 9).arr.view.loc (c.tc : Thread nD τ)).2.ty.Idx) :
    ∃ t : Fin cfg0.N, (cfg0.win 9).flush t = true ∧ i ∈ ((cfg0.win 9).blk t).view.set := cover9_lit i

end Cert.KernelIdeal.WindowsAt

end
-- ==== Proof.LstmSpec.lean ====
/-
  One relation (p, q) of the encoder, as both programs compute it at the ideal values: the 2-wide
  correlation row, the 64-wide hidden and cell rows, the integer neighbour flag, and the shared weights.

  The reference embeds the correlation row (a 2-term product with W_emb plus b_emb, then the positive
  part), forms the 256 gate pre-activations ((emb·W_ihᵀ + b_ih) + h·W_hhᵀ) + b_hh in PyTorch's block order
  [i, f, g, o], applies 1/(1+exp(-x)) to the i, f, o blocks and tanh to the g block, and selects the new row
  where the flag is positive.

  The kernel works on rows stacked [i, f, o, g] with the i, f, o rows of W_ih, W_hh and b_ih + b_hh
  halved, takes ONE tanh of all 256 pre-activations, reads the logistic as 1/2 + 1/2·tanh, carries the flag
  as a float through a third input channel of a 96-row front product (rows 32… are the unit row on that
  channel, so their positive part is max(flag, 0)), and blends old and new rows as old + m·(new − old).
-/
import Idealize.ShloMosaic.PureOps.Ideal

noncomputable section

namespace Cert.LstmSpec

open Idealize.ShloMosaic

/-- The f32 words the two programs print: 0, 1 and 1/2. -/
abbrev zeroW : EReal := Ideal.ofBits .f32 0x00000000#32
abbrev oneW : EReal := Ideal.ofBits .f32 0x3F800000#32
abbrev halfW : EReal := Ideal.ofBits .f32 0x3F000000#32

section Row

variable (corr : Fin 2 → EReal) (ht ct : Fin 64 → EReal) (nei : BitVec 32)
  (Wemb : Fin 32 → Fin 2 → EReal) (bemb : Fin 32 → EReal)
  (Wih : Fin 256 → Fin 32 → EReal) (bih : Fin 256 → EReal)
  (Whh : Fin 256 → Fin 64 → EReal) (bhh : Fin 256 → EReal)

/-! ### The reference's row -/

/-- relu(corr · W_embᵀ + b_emb) at embedding coordinate `e`. -/
def refEmb (e : Fin 32) : EReal := max ((∑ j : Fin 2, corr j * Wemb e j) + bemb e) zeroW

/-- Gate pre-activation `r` (PyTorch order i, f, g, o), grouped as the reference adds it. -/
def refGates (r : Fin 256) : EReal :=
  (((∑ e : Fin 32, refEmb corr Wemb bemb e * Wih r e) + bih r) + ∑ k : Fin 64, ht k * Whh r k) + bhh r

/-- The logistic function as the reference spells it: 1 / (1 + exp (−x)). -/
def logistic (x : EReal) : EReal := Ideal.div oneW (oneW + Ideal.exp (-x))

/-- The block of gate `b` (0 = i, 1 = f, 2 = g, 3 = o in the reference) at hidden coordinate `h`. -/
def blk (b : Fin 4) (h : Fin 64) : Fin 256 := ⟨b.val * 64 + h.val, by omega⟩

/-- The reference's new cell row. -/
def refC (h : Fin 64) : EReal :=
  logistic (refGates corr ht Wemb bemb Wih bih Whh bhh (blk 1 h)) * ct h
    + logistic (refGates corr ht Wemb bemb Wih bih Whh bhh (blk 0 h))
      * Ideal.tanh (refGates corr ht Wemb bemb Wih bih Whh bhh (blk 2 h))

/-- The reference's new hidden row. -/
def refH (h : Fin 64) : EReal :=
  logistic (refGates corr ht Wemb bemb Wih bih Whh bhh (blk 3 h))
    * Ideal.tanh (refC corr ht ct Wemb bemb Wih bih Whh bhh h)

/-- The reference's outputs: the new rows where the flag is positive (signed), the old rows elsewhere. -/
def refHout (h : Fin 64) : EReal :=
  if 0 < nei.toInt then refH corr ht ct Wemb bemb Wih bih Whh bhh h else ht h
def refCout (h : Fin 64) : EReal :=
  if 0 < nei.toInt then refC corr ht ct Wemb bemb Wih bih Whh bhh h else ct h

/-! ### The kernel's row -/

/-- The three input channels of the front product: the two correlation entries, then the flag as a float. -/
def aux (j : Fin 3) : EReal :=
  if h : j.val < 2 then corr ⟨j.val, h⟩ else ((nei.toInt : ℝ) : EReal)

/-- The 96 × 3 front matrix: W_emb on the first 32 rows and two channels, the unit row on the flag's
    channel for the last 64 rows, zero elsewhere. -/
def wfront (e : Fin 96) (j : Fin 3) : EReal :=
  if he : e.val < 32 then (if hj : j.val < 2 then Wemb ⟨e.val, he⟩ ⟨j.val, hj⟩ else zeroW)
  else (if j.val = 2 then oneW else zeroW)

/-- The front bias: b_emb on the first 32 rows, zero below. -/
def bfront (e : Fin 96) : EReal := if he : e.val < 32 then bemb ⟨e.val, he⟩ else zeroW

/-- The positive part of the front product: rows 0…31 the embedding, rows 32…95 the blend factor. -/
def front (e : Fin 96) : EReal :=
  max ((∑ j : Fin 3, wfront Wemb e j * aux corr nei j) + bfront bemb e) zeroW

/-- The kernel's row `r` (order i, f, o, g) is the reference's row `src r` (order i, f, g, o). -/
def src (r : Fin 256) : Fin 256 :=
  if h1 : r.val < 128 then r else if h2 : r.val < 192 then ⟨r.val + 64, by omega⟩ else ⟨r.val - 64, by omega⟩

/-- The i, f, o rows (the first 192) are halved. -/
def scl (r : Fin 256) (x : EReal) : EReal := if r.val < 192 then halfW * x else x

/-- The kernel's gate pre-activation `r`. -/
def kGates (r : Fin 256) : EReal :=
  ((∑ e : Fin 32, scl r (Wih (src r) e) * front corr nei Wemb bemb ⟨e.val, by omega⟩)
      + ∑ k : Fin 64, scl r (Whh (src r) k) * ht k)
    + scl r (bih (src r) + bhh (src r))

/-- One tanh of every pre-activation. -/
def kT (r : Fin 256) : EReal := Ideal.tanh (kGates corr ht nei Wemb bemb Wih bih Whh bhh r)

/-- 1/2 + 1/2·tanh on the first 192 rows. -/
def kSig (r : Fin 256) : EReal := halfW + halfW * kT corr ht nei Wemb bemb Wih bih Whh bhh r

/-- The kernel's new cell and hidden rows. -/
def kC (h : Fin 64) : EReal :=
  kSig corr ht nei Wemb bemb Wih bih Whh bhh (blk 1 h) * ct h
    + kSig corr ht nei Wemb bemb Wih bih Whh bhh (blk 0 h) * kT corr ht nei Wemb bemb Wih bih Whh bhh (blk 3 h)
def kH (h : Fin 64) : EReal :=
  kSig corr ht nei Wemb bemb Wih bih Whh bhh (blk 2 h) * Ideal.tanh (kC corr ht ct nei Wemb bemb Wih bih Whh bhh h)

/-- The blend factor of hidden coordinate `h`: front row 32 + h. -/
def mfac (h : Fin 64) : EReal := front corr nei Wemb bemb ⟨32 + h.val, by omega⟩

/-- The kernel's outputs: old + m · (new − old). -/
def kHout (h : Fin 64) : EReal :=
  ht h + mfac corr nei Wemb bemb h * (kH corr ht ct nei Wemb bemb Wih bih Whh bhh h - ht h)
def kCout (h : Fin 64) : EReal :=
  ct h + mfac corr nei Wemb bemb h * (kC corr ht ct nei Wemb bemb Wih bih Whh bhh h - ct h)

end Row

end Cert.LstmSpec

end
-- ==== Proof.LibWholeScatter.lean ====
/-
  A scatter of ONE window that is the whole operand.

  When every update index lands on the operand index with the same coordinates (no scattered axis, the window
  axes the operand's axes in order, so every start is zero), the row-major fold of the scatter visits each operand
  element exactly once, with its own update: the result at i is the body applied to the operand's element and the
  update's element at i. With the body returning the update this is the update itself (the `.at[...].set` of a whole
  array), and with addition over a zero operand it is the update again (the `.at[...].add` into zeros).
-/
import Idealize.ShloMosaic.PureOps.ShapeOps
import Idealize.ShloMosaic.PureOps.Ideal

namespace Cert.Lib.WholeScatter

open Idealize.ShloMosaic

/-- A fold of single-position updates, at a position none of the steps names. -/
theorem foldl_miss {ι α β : Type} [DecidableEq ι] (g : β → ι) (f : α → α → α) (upd : β → α) (L : List β) (x : ι → α) (i : ι)
    (h : ∀ n ∈ L, g n ≠ i) :
    (L.foldl (fun r n => fun i' => if i' = g n then f (r (g n)) (upd n) else r i') x) i = x i := by
  induction L generalizing x with
  | nil => rfl
  | cons n L ih =>
    rw [List.foldl_cons, ih _ (fun k hk => h k (List.mem_cons_of_mem _ hk))]
    exact if_neg (fun e => h n (List.mem_cons_self) e.symm)

/-- A fold of single-position updates over distinct positions, at the position one step names. -/
theorem foldl_hit {ι α β : Type} [DecidableEq ι] (g : β → ι) (hg : Function.Injective g) (f : α → α → α) (upd : β → α)
    (L : List β) (hL : L.Nodup) (x : ι → α) (n₀ : β) (h₀ : n₀ ∈ L) :
    (L.foldl (fun r n => fun i' => if i' = g n then f (r (g n)) (upd n) else r i') x) (g n₀) = f (x (g n₀)) (upd n₀) := by
  induction L generalizing x with
  | nil => exact absurd h₀ List.not_mem_nil
  | cons n L ih =>
    rw [List.foldl_cons]
    rcases List.mem_cons.mp h₀ with rfl | hmem
    · rw [foldl_miss g f upd L _ (g n₀) (fun k hk e => (List.nodup_cons.mp hL).1 (hg e ▸ hk))]
      exact if_pos rfl
    · rw [ih (List.nodup_cons.mp hL).2 _ hmem]
      refine congrArg (fun z => f z (upd n₀)) (if_neg fun e => ?_)
      exact (List.nodup_cons.mp hL).1 (hg e ▸ hmem)

variable {s si : Shape} {w : Nat} {α : Type}

/-- A scatter all of whose update indices land on themselves applies the body element by element. -/
theorem scatter_apply (d : ScatterDims s si s) (f : α → α → α) (x : s.Idx → α) (idx : IVec si w) (upd : s.Idx → α)
    (hres : ∀ j : s.Idx, d.resultIdx? j idx = some j) (i : s.Idx) :
    Host.scatter d f x idx upd i = f (x i) (upd i) := by
  classical
  unfold Host.scatter
  simp only [hres]
  have := foldl_hit (fun n => s.rowMajor.symm n) s.rowMajor.symm.injective f (fun n => upd (s.rowMajor.symm n))
    (List.finRange s.numel) (List.nodup_finRange _) x (s.rowMajor i) (List.mem_finRange _)
  simpa using this

/-- For a rank-2 operand with no scattered axis and both axes window axes in order, every update index lands on
    itself. -/
theorem resultIdx_whole2 {a b : ℕ} (d : ScatterDims ⟨2, ![a, b]⟩ si ⟨2, ![a, b]⟩) (idx : IVec si w)
    (hw : d.updateWindowDims = [0, 1]) (hi : d.insertedWindowDims = []) (hs : d.scatterDimsToOperandDims = [])
    (j : (⟨2, ![a, b]⟩ : Shape).Idx) : d.resultIdx? j idx = some j := by
  have hstart : ∀ ax, d.start j idx ax = 0 := fun ax => by
    unfold ScatterDims.start
    rw [dif_neg (by rw [hs]; exact List.not_mem_nil)]
  have hkept : d.sKept = [0, 1] := by
    unfold ScatterDims.sKept Shape.kept
    rw [hi]; rfl
  have hwin : ∀ ax, d.window j ax = (j ax).val := fun ax => by
    unfold ScatterDims.window
    have hmem : ax ∈ d.sKept := by rw [hkept]; fin_cases ax <;> simp
    rw [dif_pos hmem]
    have key : ∀ (l₁ l₂ : List (Fin 2)) (h : l₂.idxOf ax < l₁.length), l₁ = [0, 1] → l₂ = [0, 1] → l₁[l₂.idxOf ax]'h = ax := by
      intro l₁ l₂ h e₁ e₂
      subst e₁; subst e₂
      fin_cases ax <;> rfl
    exact congrArg (fun z => (j z).val) (key _ _ _ hw hkept)
  unfold ScatterDims.resultIdx?
  rw [dif_pos (fun ax => by rw [hstart, hwin]; exact ⟨by omega, by have := (j ax).isLt; omega⟩)]
  refine congrArg some (funext fun ax => Fin.ext ?_)
  show (d.start j idx ax + d.window j ax).toNat = (j ax).val
  rw [hstart, hwin]; omega

end Cert.Lib.WholeScatter
-- ==== Proof.HostWindows.lean ====
/-
  The host side of the kernel: each of the eight arrays the one region is launched on, written as the composition of
  host operations that produces it from the argument arrays, and read at an index.

  The hidden and cell states are transposed [p, q, k] ↦ [p, k, q] on the way in and back on the way out. The auxiliary
  array stacks the two correlation channels (moved to the front) and the neighbour flag converted to a float. The front
  matrix is a zero matrix overwritten by two windows: W_emb on rows 0…31 and columns 0, 1, and a column of ones on rows
  32…95 of column 2. The front bias is b_emb followed by 64 zeros, as a column. The gate matrices and the gate bias are cut
  into four blocks of 64 rows, the blocks restacked in the order 0, 1, 3, 2 with blocks 0, 1, 3 multiplied by 1/2.
-/
import proofs.«176749_g16716012716120_cont_week2b_1009_18_alg».proof.KernelIdeal
import proofs.«176749_g16716012716120_cont_week2b_1009_18_alg».proof.Proof.LstmSpec
import Idealize.ShloMosaic.Lib.ValueIdx
import Idealize.ShloMosaic.Lib.Pipeline.Value
import Idealize.ShloMosaic.Lib.ValueLayout
import proofs.«176749_g16716012716120_cont_week2b_1009_18_alg».proof.Proof.LibWholeScatter

noncomputable section

namespace Cert.HostWindows

open Idealize.ShloMosaic Idealize.ShloMosaic.ValueIdx
open Cert.KernelIdeal Cert.KernelIdeal.Facts₀

variable [Facts₀]

/-! ## The state arrays: [p, q, k] ↦ [p, k, q], and back -/

/-- A state array with the hidden axis moved to the middle. -/
def stT (a : (⟨S512x512x64, .f32⟩ : BufTy).Contents (Elt Ideal)) : (⟨S512x64x512, .f32⟩ : BufTy).Contents (Elt Ideal) :=
  transpose S512x64x512 [0, 2, 1] a transposes_S512x512x64_S512x64x512_0_2_1

/-- Its element (p, k, q) is the argument's (p, q, k). -/
theorem stT_apply (a : (⟨S512x512x64, .f32⟩ : BufTy).Contents (Elt Ideal)) (p : Fin 512) (k : Fin 64) (q : Fin 512) :
    stT a (ix3 p k q) = a (ix3 p q k) := by
  unfold stT
  refine transpose_apply _ _ _ _ _ fun b => ?_
  match b with
  | ⟨0, _⟩ => rfl
  | ⟨1, _⟩ => rfl
  | ⟨2, _⟩ => rfl

/-- A result array with the hidden axis moved back to the end. -/
def outT (y : (⟨S512x64x512, .f32⟩ : BufTy).Contents (Elt Ideal)) : (⟨S512x512x64, .f32⟩ : BufTy).Contents (Elt Ideal) :=
  transpose S512x512x64 [0, 2, 1] y transposes_S512x64x512_S512x512x64_0_2_1

/-- Its element (p, q, k) is the region's (p, k, q). -/
theorem outT_apply (y : (⟨S512x64x512, .f32⟩ : BufTy).Contents (Elt Ideal)) (p q : Fin 512) (k : Fin 64) :
    outT y (ix3 p q k) = y (ix3 p k q) := by
  unfold outT
  refine transpose_apply _ _ _ _ _ fun b => ?_
  match b with
  | ⟨0, _⟩ => rfl
  | ⟨1, _⟩ => rfl
  | ⟨2, _⟩ => rfl

/-! ## The auxiliary array: two correlation channels and the flag as a float, channel-major -/

/-- The correlation array with its channel axis moved to the front, over the neighbour flags converted to floats. -/
def auxT (a0 : (⟨S512x512x2, .f32⟩ : BufTy).Contents (Elt Ideal)) (a3 : (⟨S512x512, .i32⟩ : BufTy).Contents (Elt Ideal)) :
    (⟨S3x512x512, .f32⟩ : BufTy).Contents (Elt Ideal) :=
  concatenate S3x512x512 0
    [⟨S2x512x512, transpose S2x512x512 [2, 0, 1] a0 transposes_S512x512x2_S2x512x512_2_0_1⟩,
     ⟨S1x512x512, broadcastInDim S1x512x512 ![1, 2] bcast_S512x512_S1x512x512_1_2 (sitofp (F := Ideal) .f32 a3)⟩]
    concatenates_S2x512x512_S1x512x512_S3x512x512_d0

/-- Channel j of relation (p, q): the relation's correlation entry j for j < 2, its flag read signed for j = 2. -/
theorem auxT_apply (a0 : (⟨S512x512x2, .f32⟩ : BufTy).Contents (Elt Ideal)) (a3 : (⟨S512x512, .i32⟩ : BufTy).Contents (Elt Ideal))
    (j : Fin 3) (p q : Fin 512) :
    auxT a0 a3 (ix3 j p q) = LstmSpec.aux (fun j' => a0 (ix3 p q j')) (a3 (ix2 p q)) j := by
  unfold auxT LstmSpec.aux
  by_cases hj : j.val < 2
  · rw [dif_pos hj]
    refine (concatenate_pair_apply_left (s₁ := S2x512x512) (s₂ := S1x512x512) (0 : Fin 3) _ _ _ (ix3 j p q) rfl (ix3 (⟨j.val, hj⟩ : Fin 2) p q) fun b => ?_).trans ?_
    · match b with
      | ⟨0, _⟩ => rfl
      | ⟨1, _⟩ => rfl
      | ⟨2, _⟩ => rfl
    · refine transpose_apply _ _ _ _ _ fun b => ?_
      match b with
      | ⟨0, _⟩ => rfl
      | ⟨1, _⟩ => rfl
      | ⟨2, _⟩ => rfl
  · rw [dif_neg hj]
    have hj2 : j.val = 2 := by have := j.isLt; omega
    refine (concatenate_pair_apply_right (s₁ := S2x512x512) (s₂ := S1x512x512) (0 : Fin 3) _ _ _ (ix3 j p q) rfl rfl (ix3 (0 : Fin 1) p q) (fun b hb => ?_) ?_).trans ?_
    · match b with
      | ⟨0, _⟩ => exact absurd rfl hb
      | ⟨1, _⟩ => rfl
      | ⟨2, _⟩ => rfl
    · show 0 + 2 = j.val
      omega
    · refine (broadcastInDim_apply _ _ _ _ (ix2 p q) fun a => ?_).trans rfl
      match a with
      | ⟨0, _⟩ => rfl
      | ⟨1, _⟩ => rfl

/-! ## The front bias: b_emb over 64 zeros, as a column -/

/-- The 96 biases of the front product as a [96, 1] array. -/
def bfrontT (a5 : (⟨S32, .f32⟩ : BufTy).Contents (Elt Ideal)) : (⟨S96x1, .f32⟩ : BufTy).Contents (Elt Ideal) :=
  shapeCast S96x1
    (concatenate S96 0
      [⟨S32, a5⟩, ⟨S64, broadcastInDim S64 ![] bcast_S_S64 (constant (F := Ideal) S_ .f32 0x00000000#32)⟩]
      concatenates_S32_S64_S96_d0)
    shapeCasts_S96_S96x1

/-- Row e: b_emb's entry e for e < 32, zero below. -/
theorem bfrontT_apply (a5 : (⟨S32, .f32⟩ : BufTy).Contents (Elt Ideal)) (e : Fin 96) :
    bfrontT a5 (ix2 e (0 : Fin 1)) = LstmSpec.bfront (fun e' => a5 (ix1 e')) e := by
  unfold bfrontT LstmSpec.bfront
  refine (shapeCast_apply _ _ (ix2 e (0 : Fin 1)) (ix1 e) ?_).trans ?_
  · rw [Shape.rowMajor_val_one, Shape.rowMajor_val_two]
    show e.val = e.val * 1 + 0
    omega
  · by_cases he : e.val < 32
    · rw [dif_pos he]
      refine concatenate_pair_apply_left (s₁ := S32) (s₂ := S64) (0 : Fin 1) _ _ _ (ix1 e) rfl (ix1 (⟨e.val, he⟩ : Fin 32)) fun b => ?_
      match b with
      | ⟨0, _⟩ => rfl
    · rw [dif_neg he]
      have h64 : e.val - 32 < 64 := by have := e.isLt; omega
      refine (concatenate_pair_apply_right (s₁ := S32) (s₂ := S64) (0 : Fin 1) _ _ _ (ix1 e) rfl rfl
        (ix1 (⟨e.val - 32, h64⟩ : Fin 64)) (fun b hb => ?_) ?_).trans ?_
      · match b with
        | ⟨0, _⟩ => exact absurd rfl hb
      · show e.val - 32 + 32 = e.val
        omega
      · exact (broadcastInDim_apply _ _ _ _ ix0 fun a => a.elim0).trans rfl

/-! ## The gate arrays: four blocks of 64 rows, restacked in the order 0, 1, 3, 2, the first three halved -/

section Blocks
variable {n : Nat}

/-- Block c (64 rows) of a [256, n] array, cut out through the [4, 64, n] view: its row h is the array's row 64 c + h. -/
theorem block_apply {α : Type} (x : (⟨2, ![256, n]⟩ : Shape).Idx → α) (c : Nat) (hc : c < 4)
    (h1 : (⟨2, ![256, n]⟩ : Shape).ShapeCasts ⟨3, ![4, 64, n]⟩)
    (h2 : (⟨3, ![4, 64, n]⟩ : Shape).Slices ![c, 0, 0] ⟨3, ![1, 64, n]⟩)
    (h3 : (⟨3, ![1, 64, n]⟩ : Shape).ShapeCasts ⟨2, ![64, n]⟩) (h : Fin 64) (e : Fin n)
    (r : Fin 256) (hr : r.val = c * 64 + h.val) :
    shapeCast ⟨2, ![64, n]⟩ (extractStridedSlice ⟨3, ![1, 64, n]⟩ ![c, 0, 0] (shapeCast ⟨3, ![4, 64, n]⟩ x h1) h2) h3 (ix2 h e)
      = x (ix2 r e) := by
  refine (shapeCast_apply _ _ (ix2 h e) (ix3 (0 : Fin 1) h e) ?_).trans ?_
  · rw [Shape.rowMajor_val_three, Shape.rowMajor_val_two]
    show (0 * 64 + h.val) * n + e.val = h.val * n + e.val
    rw [Nat.zero_mul, Nat.zero_add]
  refine (extractStridedSlice_apply _ _ _ (ix3 (0 : Fin 1) h e) (ix3 (⟨c, hc⟩ : Fin 4) h e) fun a => ?_).trans ?_
  · match a with
    | ⟨0, _⟩ => rfl
    | ⟨1, _⟩ => exact (Nat.zero_add _).symm
    | ⟨2, _⟩ => exact (Nat.zero_add _).symm
  refine shapeCast_apply _ _ (ix3 (⟨c, hc⟩ : Fin 4) h e) (ix2 r e) ?_
  rw [Shape.rowMajor_val_three, Shape.rowMajor_val_two]
  show r.val * n + e.val = (c * 64 + h.val) * n + e.val
  rw [hr]

/-- Four [64, n] pieces stacked along the rows: row 0 · 64 + h is piece 0's row h. -/
theorem stack4_0 {α : Type} (x0 x1 x2 x3 : (⟨2, ![64, n]⟩ : Shape).Idx → α)
    (hcat : Shape.Concatenates [(⟨2, ![64, n]⟩ : Shape), ⟨2, ![64, n]⟩, ⟨2, ![64, n]⟩, ⟨2, ![64, n]⟩] ⟨2, ![256, n]⟩ 0)
    (r : Fin 256) (e : Fin n) (h : Fin 64) (hr : r.val = 0 * 64 + h.val) :
    concatenate ⟨2, ![256, n]⟩ 0 [⟨⟨2, ![64, n]⟩, x0⟩, ⟨⟨2, ![64, n]⟩, x1⟩, ⟨⟨2, ![64, n]⟩, x2⟩, ⟨⟨2, ![64, n]⟩, x3⟩] hcat (ix2 r e) = x0 (ix2 h e) := by
  refine concatenate_apply_piece (t := ⟨2, ![256, n]⟩) (0 : Fin 2) [⟨⟨2, ![64, n]⟩, x0⟩, ⟨⟨2, ![64, n]⟩, x1⟩, ⟨⟨2, ![64, n]⟩, x2⟩, ⟨⟨2, ![64, n]⟩, x3⟩] hcat (ix2 r e) 0 (by simp) ⟨2, ![64, n]⟩ x0 rfl rfl
    (0 * 64) rfl (ix2 h e) (fun b hb' => ?_) ?_
  · match b with
    | ⟨0, _⟩ => exact absurd rfl hb'
    | ⟨1, _⟩ => rfl
  · show 0 * 64 + h.val = r.val
    omega

/-- Four [64, n] pieces stacked along the rows: row 1 · 64 + h is piece 1's row h. -/
theorem stack4_1 {α : Type} (x0 x1 x2 x3 : (⟨2, ![64, n]⟩ : Shape).Idx → α)
    (hcat : Shape.Concatenates [(⟨2, ![64, n]⟩ : Shape), ⟨2, ![64, n]⟩, ⟨2, ![64, n]⟩, ⟨2, ![64, n]⟩] ⟨2, ![256, n]⟩ 0)
    (r : Fin 256) (e : Fin n) (h : Fin 64) (hr : r.val = 1 * 64 + h.val) :
    concatenate ⟨2, ![256, n]⟩ 0 [⟨⟨2, ![64, n]⟩, x0⟩, ⟨⟨2, ![64, n]⟩, x1⟩, ⟨⟨2, ![64, n]⟩, x2⟩, ⟨⟨2, ![64, n]⟩, x3⟩] hcat (ix2 r e) = x1 (ix2 h e) := by
  refine concatenate_apply_piece (t := ⟨2, ![256, n]⟩) (0 : Fin 2) [⟨⟨2, ![64, n]⟩, x0⟩, ⟨⟨2, ![64, n]⟩, x1⟩, ⟨⟨2, ![64, n]⟩, x2⟩, ⟨⟨2, ![64, n]⟩, x3⟩] hcat (ix2 r e) 1 (by simp) ⟨2, ![64, n]⟩ x1 rfl rfl
    (1 * 64) rfl (ix2 h e) (fun b hb' => ?_) ?_
  · match b with
    | ⟨0, _⟩ => exact absurd rfl hb'
    | ⟨1, _⟩ => rfl
  · show 1 * 64 + h.val = r.val
    omega

/-- Four [64, n] pieces stacked along the rows: row 2 · 64 + h is piece 2's row h. -/
theorem stack4_2 {α : Type} (x0 x1 x2 x3 : (⟨2, ![64, n]⟩ : Shape).Idx → α)
    (hcat : Shape.Concatenates [(⟨2, ![64, n]⟩ : Shape), ⟨2, ![64, n]⟩, ⟨2, ![64, n]⟩, ⟨2, ![64, n]⟩] ⟨2, ![256, n]⟩ 0)
    (r : Fin 256) (e : Fin n) (h : Fin 64) (hr : r.val = 2 * 64 + h.val) :
    concatenate ⟨2, ![256, n]⟩ 0 [⟨⟨2, ![64, n]⟩, x0⟩, ⟨⟨2, ![64, n]⟩, x1⟩, ⟨⟨2, ![64, n]⟩, x2⟩, ⟨⟨2, ![64, n]⟩, x3⟩] hcat (ix2 r e) = x2 (ix2 h e) := by
  refine concatenate_apply_piece (t := ⟨2, ![256, n]⟩) (0 : Fin 2) [⟨⟨2, ![64, n]⟩, x0⟩, ⟨⟨2, ![64, n]⟩, x1⟩, ⟨⟨2, ![64, n]⟩, x2⟩, ⟨⟨2, ![64, n]⟩, x3⟩] hcat (ix2 r e) 2 (by simp) ⟨2, ![64, n]⟩ x2 rfl rfl
    (2 * 64) rfl (ix2 h e) (fun b hb' => ?_) ?_
  · match b with
    | ⟨0, _⟩ => exact absurd rfl hb'
    | ⟨1, _⟩ => rfl
  · show 2 * 64 + h.val = r.val
    omega

/-- Four [64, n] pieces stacked along the rows: row 3 · 64 + h is piece 3's row h. -/
theorem stack4_3 {α : Type} (x0 x1 x2 x3 : (⟨2, ![64, n]⟩ : Shape).Idx → α)
    (hcat : Shape.Concatenates [(⟨2, ![64, n]⟩ : Shape), ⟨2, ![64, n]⟩, ⟨2, ![64, n]⟩, ⟨2, ![64, n]⟩] ⟨2, ![256, n]⟩ 0)
    (r : Fin 256) (e : Fin n) (h : Fin 64) (hr : r.val = 3 * 64 + h.val) :
    concatenate ⟨2, ![256, n]⟩ 0 [⟨⟨2, ![64, n]⟩, x0⟩, ⟨⟨2, ![64, n]⟩, x1⟩, ⟨⟨2, ![64, n]⟩, x2⟩, ⟨⟨2, ![64, n]⟩, x3⟩] hcat (ix2 r e) = x3 (ix2 h e) := by
  refine concatenate_apply_piece (t := ⟨2, ![256, n]⟩) (0 : Fin 2) [⟨⟨2, ![64, n]⟩, x0⟩, ⟨⟨2, ![64, n]⟩, x1⟩, ⟨⟨2, ![64, n]⟩, x2⟩, ⟨⟨2, ![64, n]⟩, x3⟩] hcat (ix2 r e) 3 (by simp) ⟨2, ![64, n]⟩ x3 rfl rfl
    (3 * 64) rfl (ix2 h e) (fun b hb' => ?_) ?_
  · match b with
    | ⟨0, _⟩ => exact absurd rfl hb'
    | ⟨1, _⟩ => rfl
  · show 3 * 64 + h.val = r.val
    omega

/-- The four blocks restacked: rows 0…191 are the source's rows 0…127 and 192…255 times 1/2, rows 192…255 its rows
    128…191. -/
theorem restack_apply (x : FVec Ideal ⟨2, ![256, n]⟩ .f32)
    (hcat : Shape.Concatenates [(⟨2, ![64, n]⟩ : Shape), ⟨2, ![64, n]⟩, ⟨2, ![64, n]⟩, ⟨2, ![64, n]⟩] ⟨2, ![256, n]⟩ 0)
    (h1 : (⟨2, ![256, n]⟩ : Shape).ShapeCasts ⟨3, ![4, 64, n]⟩)
    (h20 : (⟨3, ![4, 64, n]⟩ : Shape).Slices ![0, 0, 0] ⟨3, ![1, 64, n]⟩)
    (h21 : (⟨3, ![4, 64, n]⟩ : Shape).Slices ![1, 0, 0] ⟨3, ![1, 64, n]⟩)
    (h23 : (⟨3, ![4, 64, n]⟩ : Shape).Slices ![3, 0, 0] ⟨3, ![1, 64, n]⟩)
    (h22 : (⟨3, ![4, 64, n]⟩ : Shape).Slices ![2, 0, 0] ⟨3, ![1, 64, n]⟩)
    (h3 : (⟨3, ![1, 64, n]⟩ : Shape).ShapeCasts ⟨2, ![64, n]⟩)
    (hb : (⟨0, ![]⟩ : Shape).BroadcastsInDim ⟨2, ![64, n]⟩ (![] : Fin 0 → Fin 2))
    (r : Fin 256) (e : Fin n) :
    concatenate ⟨2, ![256, n]⟩ 0
      [⟨⟨2, ![64, n]⟩, mulf (broadcastInDim ⟨2, ![64, n]⟩ ![] hb (constant (F := Ideal) ⟨0, ![]⟩ .f32 0x3F000000#32))
          (shapeCast ⟨2, ![64, n]⟩ (extractStridedSlice ⟨3, ![1, 64, n]⟩ ![0, 0, 0] (shapeCast ⟨3, ![4, 64, n]⟩ x h1) h20) h3)⟩,
       ⟨⟨2, ![64, n]⟩, mulf (broadcastInDim ⟨2, ![64, n]⟩ ![] hb (constant (F := Ideal) ⟨0, ![]⟩ .f32 0x3F000000#32))
          (shapeCast ⟨2, ![64, n]⟩ (extractStridedSlice ⟨3, ![1, 64, n]⟩ ![1, 0, 0] (shapeCast ⟨3, ![4, 64, n]⟩ x h1) h21) h3)⟩,
       ⟨⟨2, ![64, n]⟩, mulf (broadcastInDim ⟨2, ![64, n]⟩ ![] hb (constant (F := Ideal) ⟨0, ![]⟩ .f32 0x3F000000#32))
          (shapeCast ⟨2, ![64, n]⟩ (extractStridedSlice ⟨3, ![1, 64, n]⟩ ![3, 0, 0] (shapeCast ⟨3, ![4, 64, n]⟩ x h1) h23) h3)⟩,
       ⟨⟨2, ![64, n]⟩,
          shapeCast ⟨2, ![64, n]⟩ (extractStridedSlice ⟨3, ![1, 64, n]⟩ ![2, 0, 0] (shapeCast ⟨3, ![4, 64, n]⟩ x h1) h22) h3⟩]
      hcat (ix2 r e)
      = LstmSpec.scl r (x (ix2 (LstmSpec.src r) e)) := by
  have hhalf : ∀ i : (⟨2, ![64, n]⟩ : Shape).Idx,
      broadcastInDim ⟨2, ![64, n]⟩ ![] hb (constant (F := Ideal) ⟨0, ![]⟩ .f32 0x3F000000#32) i = LstmSpec.halfW :=
    fun i => (broadcastInDim_apply _ _ _ i ix0 fun a => a.elim0).trans rfl
  have hrlt := r.isLt
  unfold LstmSpec.scl
  rcases (by omega : r.val < 64 ∨ (64 ≤ r.val ∧ r.val < 128) ∨ (128 ≤ r.val ∧ r.val < 192) ∨ 192 ≤ r.val) with hc | hc | hc | hc
  · -- rows 0…63: block 0 of the source, halved
    have hh : r.val - 0 < 64 := by omega
    refine (stack4_0 _ _ _ _ hcat r e ⟨r.val - 0, hh⟩ (by show r.val = 0 * 64 + (r.val - 0); omega)).trans ?_
    rw [if_pos (by omega)]
    refine congrArg₂ (· * ·) (hhalf _) ?_
    refine block_apply x 0 (by decide) h1 h20 h3 _ e (LstmSpec.src r) ?_
    unfold LstmSpec.src
    rw [dif_pos (by omega)]
    show r.val = 0 * 64 + (r.val - 0)
    omega
  · -- rows 64…127: block 1 of the source, halved
    have hh : r.val - 64 < 64 := by omega
    refine (stack4_1 _ _ _ _ hcat r e ⟨r.val - 64, hh⟩ (by show r.val = 1 * 64 + (r.val - 64); omega)).trans ?_
    rw [if_pos (by omega)]
    refine congrArg₂ (· * ·) (hhalf _) ?_
    refine block_apply x 1 (by decide) h1 h21 h3 _ e (LstmSpec.src r) ?_
    unfold LstmSpec.src
    rw [dif_pos (by omega)]
    show r.val = 1 * 64 + (r.val - 64)
    omega
  · -- rows 128…191: block 3 of the source, halved
    have hh : r.val - 128 < 64 := by omega
    refine (stack4_2 _ _ _ _ hcat r e ⟨r.val - 128, hh⟩ (by show r.val = 2 * 64 + (r.val - 128); omega)).trans ?_
    rw [if_pos (by omega)]
    refine congrArg₂ (· * ·) (hhalf _) ?_
    refine block_apply x 3 (by decide) h1 h23 h3 _ e (LstmSpec.src r) ?_
    unfold LstmSpec.src
    rw [dif_neg (by omega), dif_pos (by omega)]
    show r.val + 64 = 3 * 64 + (r.val - 128)
    omega
  · -- rows 192…255: block 2 of the source, as it is
    have hh : r.val - 192 < 64 := by omega
    refine (stack4_3 _ _ _ _ hcat r e ⟨r.val - 192, hh⟩ (by show r.val = 3 * 64 + (r.val - 192); omega)).trans ?_
    rw [if_neg (by omega)]
    refine block_apply x 2 (by decide) h1 h22 h3 _ e (LstmSpec.src r) ?_
    unfold LstmSpec.src
    rw [dif_neg (by omega), dif_neg (by omega)]
    show r.val - 64 = 2 * 64 + (r.val - 192)
    omega

end Blocks

/-- W_ih restacked. -/
def wihT (a6 : (⟨S256x32, .f32⟩ : BufTy).Contents (Elt Ideal)) : (⟨S256x32, .f32⟩ : BufTy).Contents (Elt Ideal) :=
  concatenate S256x32 0
    [⟨S64x32, mulf (broadcastInDim S64x32 ![] bcast_S_S64x32 (constant (F := Ideal) S_ .f32 0x3F000000#32))
        (shapeCast S64x32 (extractStridedSlice S1x64x32 ![0, 0, 0] (shapeCast S4x64x32 a6 shapeCasts_S256x32_S4x64x32) slices_S4x64x32_S1x64x32_0_0_0) shapeCasts_S1x64x32_S64x32)⟩,
     ⟨S64x32, mulf (broadcastInDim S64x32 ![] bcast_S_S64x32 (constant (F := Ideal) S_ .f32 0x3F000000#32))
        (shapeCast S64x32 (extractStridedSlice S1x64x32 ![1, 0, 0] (shapeCast S4x64x32 a6 shapeCasts_S256x32_S4x64x32) slices_S4x64x32_S1x64x32_1_0_0) shapeCasts_S1x64x32_S64x32)⟩,
     ⟨S64x32, mulf (broadcastInDim S64x32 ![] bcast_S_S64x32 (constant (F := Ideal) S_ .f32 0x3F000000#32))
        (shapeCast S64x32 (extractStridedSlice S1x64x32 ![3, 0, 0] (shapeCast S4x64x32 a6 shapeCasts_S256x32_S4x64x32) slices_S4x64x32_S1x64x32_3_0_0) shapeCasts_S1x64x32_S64x32)⟩,
     ⟨S64x32,
        shapeCast S64x32 (extractStridedSlice S1x64x32 ![2, 0, 0] (shapeCast S4x64x32 a6 shapeCasts_S256x32_S4x64x32) slices_S4x64x32_S1x64x32_2_0_0) shapeCasts_S1x64x32_S64x32⟩]
    concatenates_S64x32_S64x32_S64x32_S64x32_S256x32_d0

/-- Its row r is W_ih's row src r, halved on the first 192 rows. -/
theorem wihT_apply (a6 : (⟨S256x32, .f32⟩ : BufTy).Contents (Elt Ideal)) (r : Fin 256) (e : Fin 32) :
    wihT a6 (ix2 r e) = LstmSpec.scl r (a6 (ix2 (LstmSpec.src r) e)) :=
  restack_apply (n := 32) a6 _ _ _ _ _ _ _ _ r e

/-- W_hh restacked. -/
def whhT (a8 : (⟨S256x64, .f32⟩ : BufTy).Contents (Elt Ideal)) : (⟨S256x64, .f32⟩ : BufTy).Contents (Elt Ideal) :=
  concatenate S256x64 0
    [⟨S64x64, mulf (broadcastInDim S64x64 ![] bcast_S_S64x64 (constant (F := Ideal) S_ .f32 0x3F000000#32))
        (shapeCast S64x64 (extractStridedSlice S1x64x64 ![0, 0, 0] (shapeCast S4x64x64 a8 shapeCasts_S256x64_S4x64x64) slices_S4x64x64_S1x64x64_0_0_0) shapeCasts_S1x64x64_S64x64)⟩,
     ⟨S64x64, mulf (broadcastInDim S64x64 ![] bcast_S_S64x64 (constant (F := Ideal) S_ .f32 0x3F000000#32))
        (shapeCast S64x64 (extractStridedSlice S1x64x64 ![1, 0, 0] (shapeCast S4x64x64 a8 shapeCasts_S256x64_S4x64x64) slices_S4x64x64_S1x64x64_1_0_0) shapeCasts_S1x64x64_S64x64)⟩,
     ⟨S64x64, mulf (broadcastInDim S64x64 ![] bcast_S_S64x64 (constant (F := Ideal) S_ .f32 0x3F000000#32))
        (shapeCast S64x64 (extractStridedSlice S1x64x64 ![3, 0, 0] (shapeCast S4x64x64 a8 shapeCasts_S256x64_S4x64x64) slices_S4x64x64_S1x64x64_3_0_0) shapeCasts_S1x64x64_S64x64)⟩,
     ⟨S64x64,
        shapeCast S64x64 (extractStridedSlice S1x64x64 ![2, 0, 0] (shapeCast S4x64x64 a8 shapeCasts_S256x64_S4x64x64) slices_S4x64x64_S1x64x64_2_0_0) shapeCasts_S1x64x64_S64x64⟩]
    concatenates_S64x64_S64x64_S64x64_S64x64_S256x64_d0

/-- Its row r is W_hh's row src r, halved on the first 192 rows. -/
theorem whhT_apply (a8 : (⟨S256x64, .f32⟩ : BufTy).Contents (Elt Ideal)) (r : Fin 256) (k : Fin 64) :
    whhT a8 (ix2 r k) = LstmSpec.scl r (a8 (ix2 (LstmSpec.src r) k)) :=
  restack_apply (n := 64) a8 _ _ _ _ _ _ _ _ r k

/-- The two gate biases added, as a column. -/
def bsum (a7 a9 : (⟨S256, .f32⟩ : BufTy).Contents (Elt Ideal)) : (⟨S256x1, .f32⟩ : BufTy).Contents (Elt Ideal) :=
  broadcastInDim S256x1 ![0] bcast_S256_S256x1_0 (addf (F := Ideal) (s := S256) (φ := .f32) a7 a9)

/-- Its row r is the sum of the two biases' entries r. -/
theorem bsum_apply (a7 a9 : (⟨S256, .f32⟩ : BufTy).Contents (Elt Ideal)) (r : Fin 256) :
    bsum a7 a9 (ix2 r (0 : Fin 1)) = a7 (ix1 r) + a9 (ix1 r) := by
  unfold bsum
  refine (broadcastInDim_apply _ _ _ _ (ix1 r) fun a => ?_).trans rfl
  match a with
  | ⟨0, _⟩ => rfl

/-- b_ih + b_hh restacked. -/
def bT (a7 a9 : (⟨S256, .f32⟩ : BufTy).Contents (Elt Ideal)) : (⟨S256x1, .f32⟩ : BufTy).Contents (Elt Ideal) :=
  concatenate S256x1 0
    [⟨S64x1, mulf (broadcastInDim S64x1 ![] bcast_S_S64x1 (constant (F := Ideal) S_ .f32 0x3F000000#32))
        (shapeCast S64x1 (extractStridedSlice S1x64x1 ![0, 0, 0] (shapeCast S4x64x1 (bsum a7 a9) shapeCasts_S256x1_S4x64x1) slices_S4x64x1_S1x64x1_0_0_0) shapeCasts_S1x64x1_S64x1)⟩,
     ⟨S64x1, mulf (broadcastInDim S64x1 ![] bcast_S_S64x1 (constant (F := Ideal) S_ .f32 0x3F000000#32))
        (shapeCast S64x1 (extractStridedSlice S1x64x1 ![1, 0, 0] (shapeCast S4x64x1 (bsum a7 a9) shapeCasts_S256x1_S4x64x1) slices_S4x64x1_S1x64x1_1_0_0) shapeCasts_S1x64x1_S64x1)⟩,
     ⟨S64x1, mulf (broadcastInDim S64x1 ![] bcast_S_S64x1 (constant (F := Ideal) S_ .f32 0x3F000000#32))
        (shapeCast S64x1 (extractStridedSlice S1x64x1 ![3, 0, 0] (shapeCast S4x64x1 (bsum a7 a9) shapeCasts_S256x1_S4x64x1) slices_S4x64x1_S1x64x1_3_0_0) shapeCasts_S1x64x1_S64x1)⟩,
     ⟨S64x1,
        shapeCast S64x1 (extractStridedSlice S1x64x1 ![2, 0, 0] (shapeCast S4x64x1 (bsum a7 a9) shapeCasts_S256x1_S4x64x1) slices_S4x64x1_S1x64x1_2_0_0) shapeCasts_S1x64x1_S64x1⟩]
    concatenates_S64x1_S64x1_S64x1_S64x1_S256x1_d0

/-- Its row r is the summed bias at src r, halved on the first 192 rows. -/
theorem bT_apply (a7 a9 : (⟨S256, .f32⟩ : BufTy).Contents (Elt Ideal)) (r : Fin 256) :
    bT a7 a9 (ix2 r (0 : Fin 1)) = LstmSpec.scl r (a7 (ix1 (LstmSpec.src r)) + a9 (ix1 (LstmSpec.src r))) := by
  refine (restack_apply (n := 1) (bsum a7 a9) _ _ _ _ _ _ _ _ r (0 : Fin 1)).trans ?_
  rw [bsum_apply]

/-! ## The front matrix: a zero matrix overwritten by two windows -/

section Window
variable {s si u : Shape} {w : Nat} {α : Type}

/-- An update index lands on the operand index whose coordinates are start plus window coordinate. -/
theorem resultIdx_eq_some (d : ScatterDims s si u) (j : u.Idx) (idx : IVec si w) (i : s.Idx)
    (h : ∀ a, d.start j idx a + (d.window j a : Int) = ((i a).val : Int)) : d.resultIdx? j idx = some i := by
  have hin : ∀ a, 0 ≤ d.start j idx a + (d.window j a : Int) ∧ d.start j idx a + (d.window j a : Int) < (s.size a : Int) :=
    fun a => by
      rw [h a]
      exact ⟨Int.natCast_nonneg _, Int.ofNat_lt.2 (i a).isLt⟩
  unfold ScatterDims.resultIdx?
  rw [dif_pos hin]
  refine congrArg some (funext fun a => Fin.ext ?_)
  show (d.start j idx a + (d.window j a : Int)).toNat = (i a).val
  rw [h a]
  exact Int.toNat_natCast _

/-- An overwriting scatter whose update indices all land inside the operand, at pairwise distinct positions g j:
    at the position update index j lands on, the update's element j. -/
theorem scatter_set_hit (d : ScatterDims s si u) (x : s.Idx → α) (idx : IVec si w) (upd : u.Idx → α)
    (g : u.Idx → s.Idx) (hg : Function.Injective g) (hres : ∀ j, d.resultIdx? j idx = some (g j)) (j : u.Idx) :
    Host.scatter d (fun _ b => b) x idx upd (g j) = upd j := by
  unfold Host.scatter
  simp only [hres]
  have key := Cert.Lib.WholeScatter.foldl_hit (fun n => g (u.rowMajor.symm n)) (hg.comp u.rowMajor.symm.injective)
    (fun _ b => b) (fun n => upd (u.rowMajor.symm n)) (List.finRange u.numel) (List.nodup_finRange _) x (u.rowMajor j)
    (List.mem_finRange _)
  simpa using key

/-- The same scatter at a position no update index lands on: the operand's element. -/
theorem scatter_set_miss (d : ScatterDims s si u) (x : s.Idx → α) (idx : IVec si w) (upd : u.Idx → α)
    (g : u.Idx → s.Idx) (hres : ∀ j, d.resultIdx? j idx = some (g j)) (i : s.Idx) (hi : ∀ j, g j ≠ i) :
    Host.scatter d (fun _ b => b) x idx upd i = x i := by
  unfold Host.scatter
  simp only [hres]
  exact Cert.Lib.WholeScatter.foldl_miss (fun n => g (u.rowMajor.symm n)) (fun _ b => b) (fun n => upd (u.rowMajor.symm n))
    (List.finRange u.numel) x i (fun n _ => hi _)

end Window

/-- The index vector [0, 0]: where the first window starts. -/
def idx00 : (⟨S2, .i32⟩ : BufTy).Contents (Elt Ideal) :=
  concatenate S2 0
    [⟨S1, broadcastInDim S1 ![] bcast_S_S1 (constantI S_ 32 0#32)⟩, ⟨S1, broadcastInDim S1 ![] bcast_S_S1 (constantI S_ 32 0#32)⟩]
    concatenates_S1_S1_S2_d0

/-- The index vector [32, 2]: where the second window starts. -/
def idx322 : (⟨S2, .i32⟩ : BufTy).Contents (Elt Ideal) :=
  concatenate S2 0
    [⟨S1, broadcastInDim S1 ![] bcast_S_S1 (constantI S_ 32 32#32)⟩, ⟨S1, broadcastInDim S1 ![] bcast_S_S1 (constantI S_ 32 2#32)⟩]
    concatenates_S1_S1_S2_d0

/-- A two-word index vector built from two splat words reads the first word at 0 and the second at 1. -/
theorem idxPair_apply (b0 b1 : BitVec 32) (c : Fin 2) :
    concatenate S2 0
      [⟨S1, broadcastInDim S1 ![] bcast_S_S1 (constantI S_ 32 b0)⟩, ⟨S1, broadcastInDim S1 ![] bcast_S_S1 (constantI S_ 32 b1)⟩]
      concatenates_S1_S1_S2_d0 (ix1 c) = if c.val = 0 then b0 else b1 := by
  by_cases hc : c.val = 0
  · rw [if_pos hc]
    refine (concatenate_pair_apply_left (s₁ := S1) (s₂ := S1) (0 : Fin 1) _ _ _ (ix1 c) rfl (ix1 (0 : Fin 1)) fun b => ?_).trans ?_
    · match b with
      | ⟨0, _⟩ => exact hc.symm
    · exact (broadcastInDim_apply _ _ _ _ ix0 fun a => a.elim0).trans rfl
  · rw [if_neg hc]
    have h1 : c.val = 1 := by have := c.isLt; omega
    refine (concatenate_pair_apply_right (s₁ := S1) (s₂ := S1) (0 : Fin 1) _ _ _ (ix1 c) rfl rfl (ix1 (0 : Fin 1))
      (fun b hb => ?_) ?_).trans ?_
    · match b with
      | ⟨0, _⟩ => exact absurd rfl hb
    · show 0 + 1 = c.val
      omega
    · exact (broadcastInDim_apply _ _ _ _ ix0 fun a => a.elim0).trans rfl

/-- Every word of the first index vector is 0. -/
theorem idx00_apply (k : S2.Idx) : idx00 k = 0#32 :=
  (congrArg idx00 (eq_ix1 k)).trans ((idxPair_apply 0#32 0#32 (k 0)).trans (by split <;> rfl))

/-- The second index vector's words are 32 and 2. -/
theorem idx322_apply (k : S2.Idx) : idx322 k = if (k 0).val = 0 then 32#32 else 2#32 :=
  (congrArg idx322 (eq_ix1 k)).trans (idxPair_apply 32#32 2#32 (k 0))

/-- Where update index (e, j) of the first window lands: the same coordinates. -/
def land1 (j : S32x2.Idx) : S96x3.Idx :=
  ix2 (⟨(j 0).val, by have := idx2_lt0 j; omega⟩ : Fin 96) (⟨(j 1).val, by have := idx2_lt1 j; omega⟩ : Fin 3)

/-- Where update index h of the second window lands: row 32 + h of column 2. -/
def land2 (j : S64.Idx) : S96x3.Idx :=
  ix2 (⟨32 + (j 0).val, by have := (j 0).isLt; simp at this; omega⟩ : Fin 96) (2 : Fin 3)

theorem land1_inj : Function.Injective land1 := fun j j' h => by
  have h0 := congrArg (fun i : S96x3.Idx => (i 0).val) h
  have h1 := congrArg (fun i : S96x3.Idx => (i 1).val) h
  funext a
  match a with
  | ⟨0, _⟩ => exact Fin.ext h0
  | ⟨1, _⟩ => exact Fin.ext h1

theorem land2_inj : Function.Injective land2 := fun j j' h => by
  have h0 : 32 + (j 0).val = 32 + (j' 0).val := congrArg (fun i : S96x3.Idx => (i 0).val) h
  funext a
  match a with
  | ⟨0, _⟩ => exact Fin.ext (Nat.add_left_cancel h0)

/-- The first window starts at (0, 0) and both its axes are window axes. -/
theorem result1 (j : S32x2.Idx) : scatter_S96x3_S2_S32x2_01_n_01_0.resultIdx? j idx00 = some (land1 j) := by
  refine resultIdx_eq_some _ j idx00 (land1 j) fun a => ?_
  have hstart : scatter_S96x3_S2_S32x2_01_n_01_0.start j idx00 a = 0 := by
    unfold ScatterDims.start
    split
    · rw [idx00_apply]
      rfl
    · rfl
  rw [hstart]
  match a with
  | ⟨0, _⟩ => exact (Int.zero_add _)
  | ⟨1, _⟩ => exact (Int.zero_add _)

/-- The second window starts at (32, 2); its one axis runs down the rows, the column axis is inserted. -/
theorem result2 (j : S64.Idx) : scatter_S96x3_S2_S64_0_1_01_0.resultIdx? j idx322 = some (land2 j) := by
  refine resultIdx_eq_some _ j idx322 (land2 j) fun a => ?_
  match a with
  | ⟨0, _⟩ =>
    have hstart : scatter_S96x3_S2_S64_0_1_01_0.start j idx322 (0 : Fin 2) = 32 := by
      unfold ScatterDims.start
      rw [dif_pos (by show (0 : Fin 2) ∈ [(0 : Fin 2), 1]; decide), idx322_apply]
      rfl
    show scatter_S96x3_S2_S64_0_1_01_0.start j idx322 (0 : Fin 2) + ((scatter_S96x3_S2_S64_0_1_01_0.window j (0 : Fin 2) : Nat) : Int)
      = ((32 + (j 0).val : Nat) : Int)
    rw [hstart]
    have hwin : scatter_S96x3_S2_S64_0_1_01_0.window j (0 : Fin 2) = (j 0).val := rfl
    rw [hwin]
    push_cast
    rfl
  | ⟨1, _⟩ =>
    have hstart : scatter_S96x3_S2_S64_0_1_01_0.start j idx322 (1 : Fin 2) = 2 := by
      unfold ScatterDims.start
      rw [dif_pos (by show (1 : Fin 2) ∈ [(0 : Fin 2), 1]; decide), idx322_apply]
      rfl
    show scatter_S96x3_S2_S64_0_1_01_0.start j idx322 (1 : Fin 2) + ((scatter_S96x3_S2_S64_0_1_01_0.window j (1 : Fin 2) : Nat) : Int)
      = ((2 : Nat) : Int)
    rw [hstart]
    have hwin : scatter_S96x3_S2_S64_0_1_01_0.window j (1 : Fin 2) = 0 := rfl
    rw [hwin]
    rfl

/-- The zero matrix the windows are written into. -/
def zero96x3 : (⟨S96x3, .f32⟩ : BufTy).Contents (Elt Ideal) :=
  broadcastInDim S96x3 ![] bcast_S_S96x3 (constant (F := Ideal) S_ .f32 0x00000000#32)

/-- The zero matrix with W_emb written at rows 0…31, columns 0 and 1. -/
def wfront1 (a4 : (⟨S32x2, .f32⟩ : BufTy).Contents (Elt Ideal)) : (⟨S96x3, .f32⟩ : BufTy).Contents (Elt Ideal) :=
  Host.scatter scatter_S96x3_S2_S32x2_01_n_01_0 (fun _ b => b) zero96x3 idx00 a4

/-- The front matrix: a column of ones written over that at rows 32…95 of column 2. -/
def wfrontT (a4 : (⟨S32x2, .f32⟩ : BufTy).Contents (Elt Ideal)) : (⟨S96x3, .f32⟩ : BufTy).Contents (Elt Ideal) :=
  Host.scatter scatter_S96x3_S2_S64_0_1_01_0 (fun _ b => b) (wfront1 a4) idx322
    (broadcastInDim S64 ![] bcast_S_S64 (constant (F := Ideal) S_ .f32 0x3F800000#32))

/-- After the first window: W_emb on rows 0…31 and columns 0, 1; zero elsewhere. -/
theorem wfront1_apply (a4 : (⟨S32x2, .f32⟩ : BufTy).Contents (Elt Ideal)) (e : Fin 96) (j : Fin 3) :
    wfront1 a4 (ix2 e j)
      = if h : e.val < 32 ∧ j.val < 2 then a4 (ix2 (⟨e.val, h.1⟩ : Fin 32) (⟨j.val, h.2⟩ : Fin 2)) else LstmSpec.zeroW := by
  unfold wfront1
  by_cases h : e.val < 32 ∧ j.val < 2
  · rw [dif_pos h]
    have hl : land1 (ix2 (⟨e.val, h.1⟩ : Fin 32) (⟨j.val, h.2⟩ : Fin 2)) = ix2 e j := by
      funext a
      match a with
      | ⟨0, _⟩ => rfl
      | ⟨1, _⟩ => rfl
    rw [← hl]
    exact scatter_set_hit _ _ _ _ land1 land1_inj result1 _
  · rw [dif_neg h]
    refine (scatter_set_miss _ _ _ _ land1 result1 (ix2 e j) fun j' hj' => h ?_).trans ?_
    · have h0 : (j' 0).val = e.val := congrArg (fun i : S96x3.Idx => (i 0).val) hj'
      have h1 : (j' 1).val = j.val := congrArg (fun i : S96x3.Idx => (i 1).val) hj'
      have := idx2_lt0 j'
      have := idx2_lt1 j'
      omega
    · exact (broadcastInDim_apply _ _ _ _ ix0 fun a => a.elim0).trans rfl

/-- The front matrix: W_emb on rows 0…31 and columns 0, 1; one on rows 32…95 of column 2; zero elsewhere. -/
theorem wfrontT_apply (a4 : (⟨S32x2, .f32⟩ : BufTy).Contents (Elt Ideal)) (e : Fin 96) (j : Fin 3) :
    wfrontT a4 (ix2 e j) = LstmSpec.wfront (fun e' j' => a4 (ix2 e' j')) e j := by
  unfold wfrontT LstmSpec.wfront
  have hjlt := j.isLt
  have helt := e.isLt
  by_cases he : e.val < 32
  · rw [dif_pos he]
    refine (scatter_set_miss _ _ _ _ land2 result2 (ix2 e j) fun j' hj' => ?_).trans ?_
    · have h0 : 32 + (j' 0).val = e.val := congrArg (fun i : S96x3.Idx => (i 0).val) hj'
      omega
    · rw [wfront1_apply]
      by_cases hj : j.val < 2
      · rw [dif_pos ⟨he, hj⟩, dif_pos hj]
      · rw [dif_neg (fun h => hj h.2), dif_neg hj]
  · rw [dif_neg he]
    by_cases hj : j.val = 2
    · rw [if_pos hj]
      have h64 : e.val - 32 < 64 := by omega
      have hl : land2 (ix1 (⟨e.val - 32, h64⟩ : Fin 64)) = ix2 e j := by
        funext a
        match a with
        | ⟨0, _⟩ => exact Fin.ext (by show 32 + (e.val - 32) = e.val; omega)
        | ⟨1, _⟩ => exact Fin.ext hj.symm
      rw [← hl]
      refine (scatter_set_hit _ _ _ _ land2 land2_inj result2 _).trans ?_
      exact (broadcastInDim_apply _ _ _ _ ix0 fun a => a.elim0).trans rfl
    · rw [if_neg hj]
      refine (scatter_set_miss _ _ _ _ land2 result2 (ix2 e j) fun j' hj' => hj ?_).trans ?_
      · exact (congrArg (fun i : S96x3.Idx => (i 1).val) hj').symm
      · rw [wfront1_apply, dif_neg (fun h => he h.1)]

end Cert.HostWindows

end
-- ==== Proof.OperandsAt.lean ====
/-
  What the launch finds in each of its eight operand arrays, as a function of the argument arrays.

  The 85 host operations before the launch write each buffer once. Read at an operand's buffer, their fold is the
  composition of the few operations that produce it: the two states transposed, the auxiliary array stacked from the
  correlation array and the flags, the front matrix scattered into a zero matrix, the front bias concatenated and made
  a column, the two gate matrices and the summed gate bias cut into four blocks and restacked. Every other operation
  writes a different buffer and is read through.
-/
import proofs.«176749_g16716012716120_cont_week2b_1009_18_alg».proof.Proof.AroundI
import proofs.«176749_g16716012716120_cont_week2b_1009_18_alg».proof.Proof.HostWindows

set_option maxRecDepth 16384

noncomputable section

namespace Cert.KernelIdeal.WindowsAt

open Cert.KernelIdeal Cert.KernelIdeal.Gen Cert.KernelIdeal.Around
open Idealize.ShloMosaic Idealize.ShloMosaic.TcCoe
open Idealize.SL.Sem

variable (m : (ℓ : Loc nD τ sig) → Buf (Elt Ideal) ℓ)

set_option maxHeartbeats 4000000 in
/-- The launch finds the hidden state transposed. -/
theorem V_v0 (c : Dev nD) :
    (V m c main_v0 : S512x64x512.Idx → EReal) = HostWindows.stT (m ((c : Thread nD τ).loc main_arg1)) := by
  unfold HostWindows.stT
  dsimp only [V, V0]
  simp only [hostOps0, List.flatten_cons, List.flatten_nil, List.append_nil, List.cons_append, List.nil_append]
  after_results_simp <;> rfl

set_option maxHeartbeats 4000000 in
/-- The launch finds the cell state transposed. -/
theorem V_v1 (c : Dev nD) :
    (V m c main_v1 : S512x64x512.Idx → EReal) = HostWindows.stT (m ((c : Thread nD τ).loc main_arg2)) := by
  unfold HostWindows.stT
  dsimp only [V, V0]
  simp only [hostOps0, List.flatten_cons, List.flatten_nil, List.append_nil, List.cons_append, List.nil_append]
  after_results_simp <;> rfl

set_option maxHeartbeats 4000000 in
/-- The launch finds the auxiliary array stacked from the correlation array and the flags. -/
theorem V_v5 (c : Dev nD) :
    (V m c main_v5 : S3x512x512.Idx → EReal) = HostWindows.auxT (m ((c : Thread nD τ).loc main_arg0)) (m ((c : Thread nD τ).loc main_arg3)) := by
  unfold HostWindows.auxT
  dsimp only [V, V0]
  simp only [hostOps0, List.flatten_cons, List.flatten_nil, List.append_nil, List.cons_append, List.nil_append]
  after_results_simp <;> rfl

set_option maxHeartbeats 4000000 in
/-- The launch finds the front matrix: the zero matrix with the embedding weights and the column of ones written in. -/
theorem V_v15 (c : Dev nD) :
    (V m c main_v15 : S96x3.Idx → EReal) = HostWindows.wfrontT (m ((c : Thread nD τ).loc main_arg4)) := by
  unfold HostWindows.wfrontT HostWindows.wfront1 HostWindows.zero96x3 HostWindows.idx00 HostWindows.idx322
  dsimp only [V, V0]
  simp only [hostOps0, List.flatten_cons, List.flatten_nil, List.append_nil, List.cons_append, List.nil_append]
  after_results_simp <;> rfl

set_option maxHeartbeats 4000000 in
/-- The launch finds the front bias as a column. -/
theorem V_v18 (c : Dev nD) :
    (V m c main_v18 : S96x1.Idx → EReal) = HostWindows.bfrontT (m ((c : Thread nD τ).loc main_arg5)) := by
  unfold HostWindows.bfrontT
  dsimp only [V, V0]
  simp only [hostOps0, List.flatten_cons, List.flatten_nil, List.append_nil, List.cons_append, List.nil_append]
  after_results_simp <;> rfl

set_option maxHeartbeats 4000000 in
/-- The launch finds the input-to-hidden matrix restacked. -/
theorem V_v34 (c : Dev nD) :
    (V m c main_v34 : S256x32.Idx → EReal) = HostWindows.wihT (m ((c : Thread nD τ).loc main_arg6)) := by
  unfold HostWindows.wihT
  dsimp only [V, V0]
  simp only [hostOps0, List.flatten_cons, List.flatten_nil, List.append_nil, List.cons_append, List.nil_append]
  after_results_simp <;> rfl

set_option maxHeartbeats 4000000 in
/-- The launch finds the hidden-to-hidden matrix restacked. -/
theorem V_v50 (c : Dev nD) :
    (V m c main_v50 : S256x64.Idx → EReal) = HostWindows.whhT (m ((c : Thread nD τ).loc main_arg8)) := by
  unfold HostWindows.whhT
  dsimp only [V, V0]
  simp only [hostOps0, List.flatten_cons, List.flatten_nil, List.append_nil, List.cons_append, List.nil_append]
  after_results_simp <;> rfl

set_option maxHeartbeats 4000000 in
/-- The launch finds the summed gate bias restacked, as a column. -/
theorem V_v68 (c : Dev nD) :
    (V m c main_v68 : S256x1.Idx → EReal) = HostWindows.bT (m ((c : Thread nD τ).loc main_arg7)) (m ((c : Thread nD τ).loc main_arg9)) := by
  unfold HostWindows.bT HostWindows.bsum
  dsimp only [V, V0]
  simp only [hostOps0, List.flatten_cons, List.flatten_nil, List.append_nil, List.cons_append, List.nil_append]
  after_results_simp <;> rfl

end Cert.KernelIdeal.WindowsAt

end
-- ==== Proof.CellDef.lean ====
/-
  The kernel's cell on one relation row, as one pure function of the values its body loads.

  For row k of a block the body loads the row's three input channels [3,1,512], its hidden and cell states
  [1,64,512] (the 512 relations of the row along the last axis), and uses the five weight blocks loaded once.
  The front product [96,3]·[3,512] plus the front bias, cut at zero, gives the 32 embedding rows and the 64
  blend rows; the gate product [256,32]·[32,512] + [256,64]·[64,512] plus the gate bias goes through one tanh;
  the first 192 rows become 1/2 + 1/2·tanh; the new cell row is f·c + i·g, the new hidden row o·tanh(new cell),
  and each output is old + blend·(new − old). The operations are those of the printed body, in its order.
-/
import proofs.«176749_g16716012716120_cont_week2b_1009_18_alg».proof.Proof.Gen.KernelIdeal

noncomputable section

namespace Cert.KernelIdeal.CellRow

open Cert.KernelIdeal Cert.KernelIdeal.Facts₀
open Idealize.ShloMosaic

variable {F : FTy → Type} [FloatOps F]

/-- The blend rows [64,512] of the front product (rows 32…95). -/
def frontAll (v1 : FVec F S96x3 .f32) (v3 : FVec F S96x1 .f32) (v14 : Vec F S3x1x512 .f32) : FVec F S96x512 .f32 :=
  have v15 : FVec F S3x512 .f32 := shapeCast S3x512 v14 shapeCasts_S3x1x512_S3x512
  have cst : FVec F S96x512 .f32 := constant S96x512 .f32 0x00000000#32
  have v16 : FVec F S96x512 .f32 := matmul dot_S96x3_S3x512_S96x512_1_0_0_1_n_n none v1 v15 cst
  have v17 : FVec F S96x512 .f32 := broadcastTo S96x512 v3 broadcasts_S96x1_S96x512
  have v18 : FVec F S96x512 .f32 := addf v16 v17
  have cst_18 : F .f32 := Scalar.ofBits .f32 0x00000000#32
  have v19 : FVec F S96x512 .f32 := broadcast S96x512 cst_18
  maximumf v18 v19

/-- The one tanh of all 256 gate rows. -/
def gateTanh (v5 : FVec F S256x32 .f32) (v7 : FVec F S256x64 .f32) (v9 : FVec F S256x1 .f32)
    (v11 : FVec F S64x512 .f32) (v20 : FVec F S96x512 .f32) : FVec F S256x512 .f32 :=
  have v21 : FVec F S32x512 .f32 := extractStridedSlice S32x512 ![0, 0] v20 slices_S96x512_o0_0_S32x512
  have cst_19 : FVec F S256x512 .f32 := constant S256x512 .f32 0x00000000#32
  have v23 : FVec F S256x512 .f32 := matmul dot_S256x32_S32x512_S256x512_1_0_0_1_n_n none v5 v21 cst_19
  have cst_20 : FVec F S256x512 .f32 := constant S256x512 .f32 0x00000000#32
  have v24 : FVec F S256x512 .f32 := matmul dot_S256x64_S64x512_S256x512_1_0_0_1_n_n none v7 v11 cst_20
  have v25 : FVec F S256x512 .f32 := addf v23 v24
  have v26 : FVec F S256x512 .f32 := broadcastTo S256x512 v9 broadcasts_S256x1_S256x512
  have v27 : FVec F S256x512 .f32 := addf v25 v26
  tanh v27

/-- 1/2 + 1/2·tanh on the first 192 gate rows. -/
def gateSig (v28 : FVec F S256x512 .f32) : FVec F S192x512 .f32 :=
  have v29 : FVec F S192x512 .f32 := extractStridedSlice S192x512 ![0, 0] v28 slices_S256x512_o0_0_S192x512
  have cst_21 : F .f32 := Scalar.ofBits .f32 0x3F000000#32
  have v30 : FVec F S192x512 .f32 := broadcast S192x512 cst_21
  have v31 : FVec F S192x512 .f32 := mulf v30 v29
  have cst_22 : F .f32 := Scalar.ofBits .f32 0x3F000000#32
  have v32 : FVec F S192x512 .f32 := broadcast S192x512 cst_22
  addf v32 v31

/-- The new cell row [64,512]: f·c + i·g. -/
def newC (v13 : FVec F S64x512 .f32) (v28 : FVec F S256x512 .f32) (v33 : FVec F S192x512 .f32) : FVec F S64x512 .f32 :=
  have v34 : FVec F S64x512 .f32 := extractStridedSlice S64x512 ![0, 0] v33 slices_S192x512_o0_0_S64x512
  have v35 : FVec F S64x512 .f32 := extractStridedSlice S64x512 ![64, 0] v33 slices_S192x512_o64_0_S64x512
  have v37 : FVec F S64x512 .f32 := extractStridedSlice S64x512 ![192, 0] v28 slices_S256x512_o192_0_S64x512
  have v38 : FVec F S64x512 .f32 := mulf v35 v13
  have v39 : FVec F S64x512 .f32 := mulf v34 v37
  addf v38 v39

/-- The stored new hidden row [1,64,512] of one relation row. -/
def cellH (v1 : FVec F S96x3 .f32) (v3 : FVec F S96x1 .f32) (v5 : FVec F S256x32 .f32) (v7 : FVec F S256x64 .f32)
    (v9 : FVec F S256x1 .f32) (v10 v12 : Vec F S1x64x512 .f32) (v14 : Vec F S3x1x512 .f32) : FVec F S1x64x512 .f32 :=
  have v11 : FVec F S64x512 .f32 := shapeCast S64x512 v10 shapeCasts_S1x64x512_S64x512
  have v13 : FVec F S64x512 .f32 := shapeCast S64x512 v12 shapeCasts_S1x64x512_S64x512
  have v20 : FVec F S96x512 .f32 := frontAll v1 v3 v14
  have v22 : FVec F S64x512 .f32 := extractStridedSlice S64x512 ![32, 0] v20 slices_S96x512_o32_0_S64x512
  have v28 : FVec F S256x512 .f32 := gateTanh v5 v7 v9 v11 v20
  have v33 : FVec F S192x512 .f32 := gateSig v28
  have v36 : FVec F S64x512 .f32 := extractStridedSlice S64x512 ![128, 0] v33 slices_S192x512_o128_0_S64x512
  have v40 : FVec F S64x512 .f32 := newC v13 v28 v33
  have v41 : FVec F S64x512 .f32 := tanh v40
  have v42 : FVec F S64x512 .f32 := mulf v36 v41
  have v43 : FVec F S64x512 .f32 := subf v42 v11
  have v44 : FVec F S64x512 .f32 := mulf v22 v43
  have v45 : FVec F S64x512 .f32 := addf v11 v44
  shapeCast S1x64x512 v45 shapeCasts_S64x512_S1x64x512

/-- The stored new cell row [1,64,512] of one relation row. -/
def cellC (v1 : FVec F S96x3 .f32) (v3 : FVec F S96x1 .f32) (v5 : FVec F S256x32 .f32) (v7 : FVec F S256x64 .f32)
    (v9 : FVec F S256x1 .f32) (v10 v12 : Vec F S1x64x512 .f32) (v14 : Vec F S3x1x512 .f32) : FVec F S1x64x512 .f32 :=
  have v11 : FVec F S64x512 .f32 := shapeCast S64x512 v10 shapeCasts_S1x64x512_S64x512
  have v13 : FVec F S64x512 .f32 := shapeCast S64x512 v12 shapeCasts_S1x64x512_S64x512
  have v20 : FVec F S96x512 .f32 := frontAll v1 v3 v14
  have v22 : FVec F S64x512 .f32 := extractStridedSlice S64x512 ![32, 0] v20 slices_S96x512_o32_0_S64x512
  have v28 : FVec F S256x512 .f32 := gateTanh v5 v7 v9 v11 v20
  have v33 : FVec F S192x512 .f32 := gateSig v28
  have v40 : FVec F S64x512 .f32 := newC v13 v28 v33
  have v49 : FVec F S64x512 .f32 := subf v40 v13
  have v50 : FVec F S64x512 .f32 := mulf v22 v49
  have v51 : FVec F S64x512 .f32 := addf v13 v50
  shapeCast S1x64x512 v51 shapeCasts_S64x512_S1x64x512

end Cert.KernelIdeal.CellRow

end
-- ==== Proof.Pieces.lean ====
/-
  What the kernel body's stores are, row by row.

  The body's 64 stores were found by running it; here each is identified: the piece stored for relation row
  `k` of the block (a [1,64,512] slab at row `k` of the [32,64,512] output buffer) is the cell function of the
  five weight blocks and of row `k`'s loads — its three input channels, its hidden state and its cell state.
-/
import proofs.«176749_g16716012716120_cont_week2b_1009_18_alg».proof.Proof.FrameRunI
import proofs.«176749_g16716012716120_cont_week2b_1009_18_alg».proof.Proof.CellDef

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.Sem

variable {F : FTy → Type} [FloatOps F]

/-- Row slab `k` of a [32,64,512] block, and the row's three channels in the [3,32,512] block. -/
abbrev rowS (k : Fin 32) : Rect S32x64x512 :=
  Rect.unit (s := S32x64x512) ![k.val, 0, 0] S1x64x512.size (fun a => by
    have := k.isLt; fin_cases a <;> simp [S32x64x512, S1x64x512, Shape.size] <;> omega)
abbrev rowA (k : Fin 32) : Rect S3x32x512 :=
  Rect.unit (s := S3x32x512) ![0, k.val, 0] S3x1x512.size (fun a => by
    have := k.isLt; fin_cases a <;> simp [S3x32x512, S3x1x512, Shape.size] <;> omega)

/-- The five weight blocks as the body holds them after loading each whole. -/
abbrev ldW3 (x3 : Vec F S96x3 .f32) : FVec F S96x3 .f32 := shapeCast S96x3 (View.ld x3 (Rect.unit (s := S96x3) ![0, 0] S96x3.size Facts₀.inb_S96x3_S96x3_0_0)) Facts₀.shapeCasts_S96x3_S96x3
abbrev ldW4 (x4 : Vec F S96x1 .f32) : FVec F S96x1 .f32 := shapeCast S96x1 (View.ld x4 (Rect.unit (s := S96x1) ![0, 0] S96x1.size Facts₀.inb_S96x1_S96x1_0_0)) Facts₀.shapeCasts_S96x1_S96x1
abbrev ldW5 (x5 : Vec F S256x32 .f32) : FVec F S256x32 .f32 := shapeCast S256x32 (View.ld x5 (Rect.unit (s := S256x32) ![0, 0] S256x32.size Facts₀.inb_S256x32_S256x32_0_0)) Facts₀.shapeCasts_S256x32_S256x32
abbrev ldW6 (x6 : Vec F S256x64 .f32) : FVec F S256x64 .f32 := shapeCast S256x64 (View.ld x6 (Rect.unit (s := S256x64) ![0, 0] S256x64.size Facts₀.inb_S256x64_S256x64_0_0)) Facts₀.shapeCasts_S256x64_S256x64
abbrev ldW7 (x7 : Vec F S256x1 .f32) : FVec F S256x1 .f32 := shapeCast S256x1 (View.ld x7 (Rect.unit (s := S256x1) ![0, 0] S256x1.size Facts₀.inb_S256x1_S256x1_0_0)) Facts₀.shapeCasts_S256x1_S256x1

/-- The piece the body stores for row `k` into the new-hidden buffer, and into the new-cell buffer. -/
def pc8 (x0 : Vec F S3x32x512 .f32) (x1 x2 : Vec F S32x64x512 .f32) (x3 : Vec F S96x3 .f32) (x4 : Vec F S96x1 .f32)
    (x5 : Vec F S256x32 .f32) (x6 : Vec F S256x64 .f32) (x7 : Vec F S256x1 .f32) (k : Fin 32) : View.Piece (Elt F) S32x64x512 .f32 :=
  ⟨rowS k, CellRow.cellH (ldW3 x3) (ldW4 x4) (ldW5 x5) (ldW6 x6) (ldW7 x7) (View.ld x1 (rowS k)) (View.ld x2 (rowS k)) (View.ld x0 (rowA k))⟩
def pc9 (x0 : Vec F S3x32x512 .f32) (x1 x2 : Vec F S32x64x512 .f32) (x3 : Vec F S96x3 .f32) (x4 : Vec F S96x1 .f32)
    (x5 : Vec F S256x32 .f32) (x6 : Vec F S256x64 .f32) (x7 : Vec F S256x1 .f32) (k : Fin 32) : View.Piece (Elt F) S32x64x512 .f32 :=
  ⟨rowS k, CellRow.cellC (ldW3 x3) (ldW4 x4) (ldW5 x5) (ldW6 x6) (ldW7 x7) (View.ld x1 (rowS k)) (View.ld x2 (rowS k)) (View.ld x0 (rowA k))⟩

/-! ## The stored pieces are the cell of each row -/

set_option maxHeartbeats 4000000 in
/-- The 32 pieces stored into the new-hidden buffer, last row first: row `k`'s piece is the cell's hidden output on
    row `k`'s loads. (The body's arithmetic, unfolded, is the cell function's, operation for operation.) -/
theorem L8_eq (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole) (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) :
    (kernelRun (F := F) c i arg1 harg1 arg2 harg2 arg3 harg3 arg4 harg4 arg5 harg5 arg6 harg6 arg7 harg7 arg8 harg8 arg9 harg9 arg10 harg10 x0 x1 x2 x3 x4 x5 x6 x7).1 = [pc8 x0 x1 x2 x3 x4 x5 x6 x7 31, pc8 x0 x1 x2 x3 x4 x5 x6 x7 30, pc8 x0 x1 x2 x3 x4 x5 x6 x7 29, pc8 x0 x1 x2 x3 x4 x5 x6 x7 28, pc8 x0 x1 x2 x3 x4 x5 x6 x7 27, pc8 x0 x1 x2 x3 x4 x5 x6 x7 26, pc8 x0 x1 x2 x3 x4 x5 x6 x7 25, pc8 x0 x1 x2 x3 x4 x5 x6 x7 24, pc8 x0 x1 x2 x3 x4 x5 x6 x7 23, pc8 x0 x1 x2 x3 x4 x5 x6 x7 22, pc8 x0 x1 x2 x3 x4 x5 x6 x7 21, pc8 x0 x1 x2 x3 x4 x5 x6 x7 20, pc8 x0 x1 x2 x3 x4 x5 x6 x7 19, pc8 x0 x1 x2 x3 x4 x5 x6 x7 18, pc8 x0 x1 x2 x3 x4 x5 x6 x7 17, pc8 x0 x1 x2 x3 x4 x5 x6 x7 16, pc8 x0 x1 x2 x3 x4 x5 x6 x7 15, pc8 x0 x1 x2 x3 x4 x5 x6 x7 14, pc8 x0 x1 x2 x3 x4 x5 x6 x7 13, pc8 x0 x1 x2 x3 x4 x5 x6 x7 12, pc8 x0 x1 x2 x3 x4 x5 x6 x7 11, pc8 x0 x1 x2 x3 x4 x5 x6 x7 10, pc8 x0 x1 x2 x3 x4 x5 x6 x7 9, pc8 x0 x1 x2 x3 x4 x5 x6 x7 8, pc8 x0 x1 x2 x3 x4 x5 x6 x7 7, pc8 x0 x1 x2 x3 x4 x5 x6 x7 6, pc8 x0 x1 x2 x3 x4 x5 x6 x7 5, pc8 x0 x1 x2 x3 x4 x5 x6 x7 4, pc8 x0 x1 x2 x3 x4 x5 x6 x7 3, pc8 x0 x1 x2 x3 x4 x5 x6 x7 2, pc8 x0 x1 x2 x3 x4 x5 x6 x7 1, pc8 x0 x1 x2 x3 x4 x5 x6 x7 0] := by
  unfold kernelRun
  dsimp only
  unfold kernelRun.sl.H8_32
  sl_unfold_words
  simp only [View.readAt_eq_ld, Memref.IsWhole.read_unread]
  unfold pc8
  sl_kernel_rfl

set_option maxHeartbeats 4000000 in
/-- The same for the new-cell buffer. -/
theorem L9_eq (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole) (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32) :
    (kernelRun (F := F) c i arg1 harg1 arg2 harg2 arg3 harg3 arg4 harg4 arg5 harg5 arg6 harg6 arg7 harg7 arg8 harg8 arg9 harg9 arg10 harg10 x0 x1 x2 x3 x4 x5 x6 x7).2.1 = [pc9 x0 x1 x2 x3 x4 x5 x6 x7 31, pc9 x0 x1 x2 x3 x4 x5 x6 x7 30, pc9 x0 x1 x2 x3 x4 x5 x6 x7 29, pc9 x0 x1 x2 x3 x4 x5 x6 x7 28, pc9 x0 x1 x2 x3 x4 x5 x6 x7 27, pc9 x0 x1 x2 x3 x4 x5 x6 x7 26, pc9 x0 x1 x2 x3 x4 x5 x6 x7 25, pc9 x0 x1 x2 x3 x4 x5 x6 x7 24, pc9 x0 x1 x2 x3 x4 x5 x6 x7 23, pc9 x0 x1 x2 x3 x4 x5 x6 x7 22, pc9 x0 x1 x2 x3 x4 x5 x6 x7 21, pc9 x0 x1 x2 x3 x4 x5 x6 x7 20, pc9 x0 x1 x2 x3 x4 x5 x6 x7 19, pc9 x0 x1 x2 x3 x4 x5 x6 x7 18, pc9 x0 x1 x2 x3 x4 x5 x6 x7 17, pc9 x0 x1 x2 x3 x4 x5 x6 x7 16, pc9 x0 x1 x2 x3 x4 x5 x6 x7 15, pc9 x0 x1 x2 x3 x4 x5 x6 x7 14, pc9 x0 x1 x2 x3 x4 x5 x6 x7 13, pc9 x0 x1 x2 x3 x4 x5 x6 x7 12, pc9 x0 x1 x2 x3 x4 x5 x6 x7 11, pc9 x0 x1 x2 x3 x4 x5 x6 x7 10, pc9 x0 x1 x2 x3 x4 x5 x6 x7 9, pc9 x0 x1 x2 x3 x4 x5 x6 x7 8, pc9 x0 x1 x2 x3 x4 x5 x6 x7 7, pc9 x0 x1 x2 x3 x4 x5 x6 x7 6, pc9 x0 x1 x2 x3 x4 x5 x6 x7 5, pc9 x0 x1 x2 x3 x4 x5 x6 x7 4, pc9 x0 x1 x2 x3 x4 x5 x6 x7 3, pc9 x0 x1 x2 x3 x4 x5 x6 x7 2, pc9 x0 x1 x2 x3 x4 x5 x6 x7 1, pc9 x0 x1 x2 x3 x4 x5 x6 x7 0] := by
  unfold kernelRun
  dsimp only
  unfold kernelRun.sl.H9_32
  sl_unfold_words
  simp only [View.readAt_eq_ld, Memref.IsWhole.read_unread]
  unfold pc9
  sl_kernel_rfl

end Cert.KernelIdeal.Around

end
-- ==== Proof.OutRead.lean ====
/-
  What the body leaves in the two output buffers, read at an index.

  A buffer filled by a list of stored pieces reads, at an index that some piece covers, the payload of the first
  covering piece. The 32 pieces of each output buffer are the row slabs, pairwise disjoint, so entry (k, h, q) of
  the new-hidden buffer is the cell's hidden output of row k at (h, q), and likewise for the new-cell buffer. A load
  through row k's slab reads the block at row k.
-/
import proofs.«176749_g16716012716120_cont_week2b_1009_18_alg».proof.Proof.Pieces
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem

variable {F : FTy → Type} [FloatOps F]

/-- If every piece of `L` that covers `y` carries the value `v` there, and some piece covers `y`, the pieces'
    canonical reading at `y` is `v`. -/
theorem canon_of_forall {s : Shape} {e : EltTy} (L : List (View.Piece (Elt F) s e)) (y : s.Idx) (v : Elt F e)
    (hall : ∀ p ∈ L, ∀ x, p.1.emb x = y → p.2 x = v) (hcov : ∃ p ∈ L, y ∈ p.1.set) : View.canon L y = v := by
  induction L with
  | nil => obtain ⟨p, hp, _⟩ := hcov; cases hp
  | cons p L ih =>
    obtain ⟨r, w⟩ := p
    by_cases hy : y ∈ r.set
    · obtain ⟨x, rfl⟩ := r.exists_idx_of_mem hy
      show View.canon (⟨r, w⟩ :: L) (r.emb x) = v
      rw [View.canon_cons_emb]
      exact hall ⟨r, w⟩ List.mem_cons_self x rfl
    · rw [View.canon_cons_of_not_mem ⟨r, w⟩ L hy]
      refine ih (fun q hq => hall q (List.mem_cons_of_mem _ hq)) ?_
      obtain ⟨q, hq, hyq⟩ := hcov
      rcases List.mem_cons.mp hq with rfl | hq'
      · exact absurd hyq hy
      · exact ⟨q, hq', hyq⟩

/-- An index of row slab `k'` that lands on (k, h, q) is (0, h, q), and `k' = k`. -/
theorem rowS_emb_eq {k' k : Fin 32} {h : Fin 64} {q : Fin 512} (x : (rowS k').shape.Idx)
    (hx : (rowS k').emb x = ix3 k h q) : k' = k ∧ x = ix3 (0 : Fin 1) h q := by
  have h0 : k'.val + 1 * (x 0 : Nat) = k.val := congrArg (fun i : S32x64x512.Idx => (i 0 : Nat)) hx
  have h1 : 0 + 1 * (x 1 : Nat) = h.val := congrArg (fun i : S32x64x512.Idx => (i 1 : Nat)) hx
  have h2 : 0 + 1 * (x 2 : Nat) = q.val := congrArg (fun i : S32x64x512.Idx => (i 2 : Nat)) hx
  have hx0 : (x 0 : Nat) < 1 := (x 0).isLt
  refine ⟨Fin.ext (by omega), funext fun a => Fin.ext ?_⟩
  match a with
  | ⟨0, _⟩ => show (x 0 : Nat) = 0; omega
  | ⟨1, _⟩ => show (x 1 : Nat) = h.val; omega
  | ⟨2, _⟩ => show (x 2 : Nat) = q.val; omega

/-- A load through row `k`'s slab reads the block at row `k`; through row `k`'s channel slab, the channels at row `k`. -/
theorem ld_rowS (x : Vec F S32x64x512 .f32) (k : Fin 32) (h : Fin 64) (q : Fin 512) :
    View.ld x (rowS k) (ix3 (0 : Fin 1) h q) = x (ix3 k h q) := by
  show x ((rowS k).idx (ix3 (0 : Fin 1) h q)) = x (ix3 k h q)
  congr 1
  funext a
  apply Fin.ext
  match a with
  | ⟨0, _⟩ => show k.val + 1 * 0 = k.val; omega
  | ⟨1, _⟩ => show 0 + 1 * h.val = h.val; omega
  | ⟨2, _⟩ => show 0 + 1 * q.val = q.val; omega
theorem ld_rowA (x : Vec F S3x32x512 .f32) (k : Fin 32) (j : Fin 3) (q : Fin 512) :
    View.ld x (rowA k) (ix3 j (0 : Fin 1) q) = x (ix3 j k q) := by
  show x ((rowA k).idx (ix3 j (0 : Fin 1) q)) = x (ix3 j k q)
  congr 1
  funext a
  apply Fin.ext
  match a with
  | ⟨0, _⟩ => show 0 + 1 * j.val = j.val; omega
  | ⟨1, _⟩ => show k.val + 1 * 0 = k.val; omega
  | ⟨2, _⟩ => show 0 + 1 * q.val = q.val; omega

section
variable (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole) (x0 : Vec F S3x32x512 .f32) (x1 : Vec F S32x64x512 .f32) (x2 : Vec F S32x64x512 .f32) (x3 : Vec F S96x3 .f32) (x4 : Vec F S96x1 .f32) (x5 : Vec F S256x32 .f32) (x6 : Vec F S256x64 .f32) (x7 : Vec F S256x1 .f32)

/-- Entry (k, h, q) of what the body leaves in the new-hidden buffer: the cell's hidden output of row `k`. -/
theorem out8_apply (k : Fin 32) (h : Fin 64) (q : Fin 512) :
    out8 (F := F) c i arg1 harg1 arg2 harg2 arg3 harg3 arg4 harg4 arg5 harg5 arg6 harg6 arg7 harg7 arg8 harg8 arg9 harg9 arg10 harg10 x0 x1 x2 x3 x4 x5 x6 x7 (ix3 k h q)
      = CellRow.cellH (ldW3 x3) (ldW4 x4) (ldW5 x5) (ldW6 x6) (ldW7 x7) (View.ld x1 (rowS k)) (View.ld x2 (rowS k)) (View.ld x0 (rowA k)) (ix3 (0 : Fin 1) h q) := by
  unfold out8
  rw [View.read_writes_eq_canon _ _ _ (cover8 c i arg1 harg1 arg2 harg2 arg3 harg3 arg4 harg4 arg5 harg5 arg6 harg6 arg7 harg7 arg8 harg8 arg9 harg9 arg10 harg10 x0 x1 x2 x3 x4 x5 x6 x7)]
  refine canon_of_forall _ _ _ ?_ (cover8 c i arg1 harg1 arg2 harg2 arg3 harg3 arg4 harg4 arg5 harg5 arg6 harg6 arg7 harg7 arg8 harg8 arg9 harg9 arg10 harg10 x0 x1 x2 x3 x4 x5 x6 x7 _)
  rw [L8_eq]
  intro p hp x hx
  simp only [List.mem_cons, List.mem_nil_iff, or_false] at hp
  obtain ⟨k', rfl⟩ : ∃ k' : Fin 32, p = pc8 x0 x1 x2 x3 x4 x5 x6 x7 k' := by
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, rfl⟩
  obtain ⟨rfl, rfl⟩ := rowS_emb_eq x hx
  rfl

/-- The same for the new-cell buffer. -/
theorem out9_apply (k : Fin 32) (h : Fin 64) (q : Fin 512) :
    out9 (F := F) c i arg1 harg1 arg2 harg2 arg3 harg3 arg4 harg4 arg5 harg5 arg6 harg6 arg7 harg7 arg8 harg8 arg9 harg9 arg10 harg10 x0 x1 x2 x3 x4 x5 x6 x7 (ix3 k h q)
      = CellRow.cellC (ldW3 x3) (ldW4 x4) (ldW5 x5) (ldW6 x6) (ldW7 x7) (View.ld x1 (rowS k)) (View.ld x2 (rowS k)) (View.ld x0 (rowA k)) (ix3 (0 : Fin 1) h q) := by
  unfold out9
  rw [View.read_writes_eq_canon _ _ _ (cover9 c i arg1 harg1 arg2 harg2 arg3 harg3 arg4 harg4 arg5 harg5 arg6 harg6 arg7 harg7 arg8 harg8 arg9 harg9 arg10 harg10 x0 x1 x2 x3 x4 x5 x6 x7)]
  refine canon_of_forall _ _ _ ?_ (cover9 c i arg1 harg1 arg2 harg2 arg3 harg3 arg4 harg4 arg5 harg5 arg6 harg6 arg7 harg7 arg8 harg8 arg9 harg9 arg10 harg10 x0 x1 x2 x3 x4 x5 x6 x7 _)
  rw [L9_eq]
  intro p hp x hx
  simp only [List.mem_cons, List.mem_nil_iff, or_false] at hp
  obtain ⟨k', rfl⟩ : ∃ k' : Fin 32, p = pc9 x0 x1 x2 x3 x4 x5 x6 x7 k' := by
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, rfl⟩
  obtain ⟨rfl, rfl⟩ := rowS_emb_eq x hx
  rfl

end

end Cert.KernelIdeal.Around

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.CellRead.lean ====
/-
  The kernel's cell on one relation row, read one relation at a time.

  The cell's two stored rows [1,64,512] carry the 512 relations of a row along the last axis, and every
  operation of the cell acts on each relation's column by itself: the three products contract over the
  rows of their right operand at a fixed column, the two bias columns are broadcast along the columns, the
  slices cut rows, and the rest is pointwise. So at column q the stored rows are the rows rowHout / rowCout
  below, computed from the operand matrices and the relation's own column of the three input channels, of
  the hidden state and of the cell state. The specification's kernel rows are the same functions at its own
  operand matrices.
-/
import proofs.«176749_g16716012716120_cont_week2b_1009_18_alg».proof.Proof.CellDef
import proofs.«176749_g16716012716120_cont_week2b_1009_18_alg».proof.Proof.LstmSpec
import proofs.«176749_g16716012716120_cont_week2b_1009_18_alg».proof.Proof.LibPlainDot
import proofs.«176749_g16716012716120_cont_week2b_1009_18_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.CellRead

open Idealize.ShloMosaic Idealize.ShloMosaic.ValueIdx
open Cert.KernelIdeal Cert.KernelIdeal.Facts₀
open Cert.LstmSpec (zeroW oneW halfW blk)

/-! ### One relation's rows from arbitrary operand matrices -/

section Row

variable (wf : Fin 96 → Fin 3 → EReal) (bf : Fin 96 → EReal) (ax : Fin 3 → EReal)
  (wih : Fin 256 → Fin 32 → EReal) (whh : Fin 256 → Fin 64 → EReal) (bk : Fin 256 → EReal)
  (ht ct : Fin 64 → EReal)

/-- The positive part of the 96-row front product plus the front bias. -/
def rowFront (e : Fin 96) : EReal := max ((∑ j : Fin 3, wf e j * ax j) + bf e) zeroW

/-- The 256 gate pre-activations: the first 32 front rows through `wih`, the hidden row through `whh`,
    plus the gate bias. -/
def rowGates (r : Fin 256) : EReal :=
  ((∑ e : Fin 32, wih r e * rowFront wf bf ax ⟨e.val, by omega⟩) + ∑ k : Fin 64, whh r k * ht k) + bk r

/-- One tanh of every pre-activation. -/
def rowT (r : Fin 256) : EReal := Ideal.tanh (rowGates wf bf ax wih whh bk ht r)

/-- 1/2 + 1/2·tanh. -/
def rowSig (r : Fin 256) : EReal := halfW + halfW * rowT wf bf ax wih whh bk ht r

/-- The new cell row. -/
def rowC (h : Fin 64) : EReal :=
  rowSig wf bf ax wih whh bk ht (blk 1 h) * ct h
    + rowSig wf bf ax wih whh bk ht (blk 0 h) * rowT wf bf ax wih whh bk ht (blk 3 h)

/-- The new hidden row. -/
def rowH (h : Fin 64) : EReal :=
  rowSig wf bf ax wih whh bk ht (blk 2 h) * Ideal.tanh (rowC wf bf ax wih whh bk ht ct h)

/-- The stored hidden row: old + blend · (new − old), the blend factor being front row 32 + h. -/
def rowHout (h : Fin 64) : EReal :=
  ht h + rowFront wf bf ax ⟨32 + h.val, by omega⟩ * (rowH wf bf ax wih whh bk ht ct h - ht h)

/-- The stored cell row. -/
def rowCout (h : Fin 64) : EReal :=
  ct h + rowFront wf bf ax ⟨32 + h.val, by omega⟩ * (rowC wf bf ax wih whh bk ht ct h - ct h)

end Row

/-- The specification's kernel rows are these rows at its own operand matrices. -/
theorem kHout_eq_row (corr : Fin 2 → EReal) (ht ct : Fin 64 → EReal) (nei : BitVec 32)
    (Wemb : Fin 32 → Fin 2 → EReal) (bemb : Fin 32 → EReal)
    (Wih : Fin 256 → Fin 32 → EReal) (bih : Fin 256 → EReal)
    (Whh : Fin 256 → Fin 64 → EReal) (bhh : Fin 256 → EReal) (h : Fin 64) :
    LstmSpec.kHout corr ht ct nei Wemb bemb Wih bih Whh bhh h
      = rowHout (LstmSpec.wfront Wemb) (LstmSpec.bfront bemb) (LstmSpec.aux corr nei)
          (fun r e => LstmSpec.scl r (Wih (LstmSpec.src r) e))
          (fun r k => LstmSpec.scl r (Whh (LstmSpec.src r) k))
          (fun r => LstmSpec.scl r (bih (LstmSpec.src r) + bhh (LstmSpec.src r))) ht ct h := rfl

theorem kCout_eq_row (corr : Fin 2 → EReal) (ht ct : Fin 64 → EReal) (nei : BitVec 32)
    (Wemb : Fin 32 → Fin 2 → EReal) (bemb : Fin 32 → EReal)
    (Wih : Fin 256 → Fin 32 → EReal) (bih : Fin 256 → EReal)
    (Whh : Fin 256 → Fin 64 → EReal) (bhh : Fin 256 → EReal) (h : Fin 64) :
    LstmSpec.kCout corr ht ct nei Wemb bemb Wih bih Whh bhh h
      = rowCout (LstmSpec.wfront Wemb) (LstmSpec.bfront bemb) (LstmSpec.aux corr nei)
          (fun r e => LstmSpec.scl r (Wih (LstmSpec.src r) e))
          (fun r k => LstmSpec.scl r (Whh (LstmSpec.src r) k))
          (fun r => LstmSpec.scl r (bih (LstmSpec.src r) + bhh (LstmSpec.src r))) ht ct h := rfl

/-! ### The non-pointwise steps, each read at an index -/

/-- The block of gate `b` at hidden coordinate `h`, by its row number. -/
theorem blk0_mk (h : Fin 64) : blk 0 h = ⟨h.val, by omega⟩ := Fin.ext (by simp [blk])
theorem blk1_mk (h : Fin 64) : blk 1 h = ⟨64 + h.val, by omega⟩ := Fin.ext (by simp [blk])
theorem blk2_mk (h : Fin 64) : blk 2 h = ⟨128 + h.val, by omega⟩ := Fin.ext (by simp [blk])
theorem blk3_mk (h : Fin 64) : blk 3 h = ⟨192 + h.val, by omega⟩ := Fin.ext (by simp [blk])

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem dot_front_eq : dot_S96x3_S3x512_S96x512_1_0_0_1_n_n = DotDims.plain 96 3 512 := rfl
theorem dot_ih_eq : dot_S256x32_S32x512_S256x512_1_0_0_1_n_n = DotDims.plain 256 32 512 := rfl
theorem dot_hh_eq : dot_S256x64_S64x512_S256x512_1_0_0_1_n_n = DotDims.plain 256 64 512 := rfl

/-- The front product [96,3]·[3,512] into a zero accumulator, at (e, q). -/
theorem front_dot_apply (l : FVec Ideal S96x3 .f32) (x : FVec Ideal S3x512 .f32) (e : Fin 96) (q : Fin 512) :
    FloatOps.matmul dot_S96x3_S3x512_S96x512_1_0_0_1_n_n none l x
        (constant (F := Ideal) S96x512 .f32 0x00000000#32) (ix2 e q)
      = ∑ j : Fin 3, l (ix2 e j) * x (ix2 j q) := by
  rw [dot_front_eq]
  exact Cert.Lib.PlainDot.matmul_zero_apply 96 3 512 none l x (ix2 e q)

/-- The gate product [256,32]·[32,512] into a zero accumulator, at (r, q). -/
theorem ih_dot_apply (l : FVec Ideal S256x32 .f32) (x : FVec Ideal S32x512 .f32) (r : Fin 256) (q : Fin 512) :
    FloatOps.matmul dot_S256x32_S32x512_S256x512_1_0_0_1_n_n none l x
        (constant (F := Ideal) S256x512 .f32 0x00000000#32) (ix2 r q)
      = ∑ e : Fin 32, l (ix2 r e) * x (ix2 e q) := by
  rw [dot_ih_eq]
  exact Cert.Lib.PlainDot.matmul_zero_apply 256 32 512 none l x (ix2 r q)

/-- The gate product [256,64]·[64,512] into a zero accumulator, at (r, q). -/
theorem hh_dot_apply (l : FVec Ideal S256x64 .f32) (x : FVec Ideal S64x512 .f32) (r : Fin 256) (q : Fin 512) :
    FloatOps.matmul dot_S256x64_S64x512_S256x512_1_0_0_1_n_n none l x
        (constant (F := Ideal) S256x512 .f32 0x00000000#32) (ix2 r q)
      = ∑ k : Fin 64, l (ix2 r k) * x (ix2 k q) := by
  rw [dot_hh_eq]
  exact Cert.Lib.PlainDot.matmul_zero_apply 256 64 512 none l x (ix2 r q)

/-! ### The cell's parts at (row, q) -/

section Parts

variable (v1 : FVec Ideal S96x3 .f32) (v3 : FVec Ideal S96x1 .f32) (v5 : FVec Ideal S256x32 .f32)
  (v7 : FVec Ideal S256x64 .f32) (v9 : FVec Ideal S256x1 .f32) (v14 : Vec Ideal S3x1x512 .f32)
  (v11 v13 : FVec Ideal S64x512 .f32) (q : Fin 512)

/-- The front rows at relation `q`: row `e` of the front matrix against the relation's three channels,
    plus the front bias, cut at zero. -/
theorem frontAll_apply (e : Fin 96) :
    CellRow.frontAll (F := Ideal) v1 v3 v14 (ix2 e q)
      = rowFront (fun e j => v1 (ix2 e j)) (fun e => v3 (ix2 e (0 : Fin 1)))
          (fun j => v14 (ix3 j (0 : Fin 1) q)) e := by
  unfold CellRow.frontAll rowFront
  show max (FloatOps.matmul dot_S96x3_S3x512_S96x512_1_0_0_1_n_n none v1
        (shapeCast S3x512 v14 shapeCasts_S3x1x512_S3x512)
        (constant (F := Ideal) S96x512 .f32 0x00000000#32) (ix2 e q)
      + broadcastTo S96x512 v3 broadcasts_S96x1_S96x512 (ix2 e q)) zeroW = _
  rw [front_dot_apply, Cert.Lib.ColBroadcast.broadcastTo_a1_ab_apply]
  simp only [shapeCast_a1b_ab_apply]

/-- The one tanh at (r, q): the gate pre-activation of row `r` from the front rows and the hidden row. -/
theorem gateTanh_apply (r : Fin 256) :
    CellRow.gateTanh (F := Ideal) v5 v7 v9 v11 (CellRow.frontAll (F := Ideal) v1 v3 v14) (ix2 r q)
      = rowT (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v11 (ix2 k q)) r := by
  unfold CellRow.gateTanh rowT rowGates
  show Ideal.tanh ((FloatOps.matmul dot_S256x32_S32x512_S256x512_1_0_0_1_n_n none v5
        (extractStridedSlice S32x512 ![0, 0] (CellRow.frontAll (F := Ideal) v1 v3 v14)
          slices_S96x512_o0_0_S32x512)
        (constant (F := Ideal) S256x512 .f32 0x00000000#32) (ix2 r q)
      + FloatOps.matmul dot_S256x64_S64x512_S256x512_1_0_0_1_n_n none v7 v11
        (constant (F := Ideal) S256x512 .f32 0x00000000#32) (ix2 r q))
      + broadcastTo S256x512 v9 broadcasts_S256x1_S256x512 (ix2 r q)) = _
  rw [ih_dot_apply, hh_dot_apply, Cert.Lib.ColBroadcast.broadcastTo_a1_ab_apply]
  have hs : ∀ e : Fin 32, extractStridedSlice S32x512 ![0, 0] (CellRow.frontAll (F := Ideal) v1 v3 v14)
      slices_S96x512_o0_0_S32x512 (ix2 e q)
      = rowFront (fun e j => v1 (ix2 e j)) (fun e => v3 (ix2 e (0 : Fin 1)))
          (fun j => v14 (ix3 j (0 : Fin 1) q)) ⟨e.val, by omega⟩ := fun e =>
    (slice2_axis0_apply 0 _ slices_S96x512_o0_0_S32x512 e q ⟨e.val, by omega⟩ (Nat.zero_add _).symm).trans
      (frontAll_apply v1 v3 v14 q _)
  simp only [hs]

/-- 1/2 + 1/2·(the tanh rows), on the first 192 rows. -/
theorem gateSig_apply (v28 : FVec Ideal S256x512 .f32) (r : Fin 192) :
    CellRow.gateSig (F := Ideal) v28 (ix2 r q) = halfW + halfW * v28 (ix2 ⟨r.val, by omega⟩ q) := by
  unfold CellRow.gateSig
  show halfW + halfW * extractStridedSlice S192x512 ![0, 0] v28 slices_S256x512_o0_0_S192x512 (ix2 r q) = _
  rw [slice2_axis0_apply 0 v28 slices_S256x512_o0_0_S192x512 r q ⟨r.val, by omega⟩ (Nat.zero_add _).symm]

/-- The new cell row at (h, q): rows 64 + h and h of the logistic rows, row 192 + h of the tanh rows. -/
theorem newC_apply (v28 : FVec Ideal S256x512 .f32) (v33 : FVec Ideal S192x512 .f32) (h : Fin 64) :
    CellRow.newC (F := Ideal) v13 v28 v33 (ix2 h q)
      = v33 (ix2 ⟨64 + h.val, by omega⟩ q) * v13 (ix2 h q)
        + v33 (ix2 ⟨h.val, by omega⟩ q) * v28 (ix2 ⟨192 + h.val, by omega⟩ q) := by
  unfold CellRow.newC
  show extractStridedSlice S64x512 ![64, 0] v33 slices_S192x512_o64_0_S64x512 (ix2 h q) * v13 (ix2 h q)
      + extractStridedSlice S64x512 ![0, 0] v33 slices_S192x512_o0_0_S64x512 (ix2 h q)
        * extractStridedSlice S64x512 ![192, 0] v28 slices_S256x512_o192_0_S64x512 (ix2 h q) = _
  rw [slice2_axis0_apply 64 v33 slices_S192x512_o64_0_S64x512 h q ⟨64 + h.val, by omega⟩ rfl,
    slice2_axis0_apply 0 v33 slices_S192x512_o0_0_S64x512 h q ⟨h.val, by omega⟩ (Nat.zero_add _).symm,
    slice2_axis0_apply 192 v28 slices_S256x512_o192_0_S64x512 h q ⟨192 + h.val, by omega⟩ rfl]

end Parts

/-! ### The two stored rows -/

section Store

variable {F : FTy → Type} [FloatOps F]

/-- The new hidden rows [64,512] before the closing cast, from the hidden and cell states as [64,512]. -/
def hBody (v1 : FVec F S96x3 .f32) (v3 : FVec F S96x1 .f32) (v5 : FVec F S256x32 .f32)
    (v7 : FVec F S256x64 .f32) (v9 : FVec F S256x1 .f32) (v11 v13 : FVec F S64x512 .f32)
    (v14 : Vec F S3x1x512 .f32) : FVec F S64x512 .f32 :=
  have v20 : FVec F S96x512 .f32 := CellRow.frontAll v1 v3 v14
  have v22 : FVec F S64x512 .f32 := extractStridedSlice S64x512 ![32, 0] v20 slices_S96x512_o32_0_S64x512
  have v28 : FVec F S256x512 .f32 := CellRow.gateTanh v5 v7 v9 v11 v20
  have v33 : FVec F S192x512 .f32 := CellRow.gateSig v28
  have v36 : FVec F S64x512 .f32 := extractStridedSlice S64x512 ![128, 0] v33 slices_S192x512_o128_0_S64x512
  have v40 : FVec F S64x512 .f32 := CellRow.newC v13 v28 v33
  have v41 : FVec F S64x512 .f32 := Idealize.ShloMosaic.tanh v40
  have v42 : FVec F S64x512 .f32 := mulf v36 v41
  have v43 : FVec F S64x512 .f32 := subf v42 v11
  have v44 : FVec F S64x512 .f32 := mulf v22 v43
  addf v11 v44

/-- The new cell rows [64,512] before the closing cast. -/
def cBody (v1 : FVec F S96x3 .f32) (v3 : FVec F S96x1 .f32) (v5 : FVec F S256x32 .f32)
    (v7 : FVec F S256x64 .f32) (v9 : FVec F S256x1 .f32) (v11 v13 : FVec F S64x512 .f32)
    (v14 : Vec F S3x1x512 .f32) : FVec F S64x512 .f32 :=
  have v20 : FVec F S96x512 .f32 := CellRow.frontAll v1 v3 v14
  have v22 : FVec F S64x512 .f32 := extractStridedSlice S64x512 ![32, 0] v20 slices_S96x512_o32_0_S64x512
  have v28 : FVec F S256x512 .f32 := CellRow.gateTanh v5 v7 v9 v11 v20
  have v33 : FVec F S192x512 .f32 := CellRow.gateSig v28
  have v40 : FVec F S64x512 .f32 := CellRow.newC v13 v28 v33
  have v49 : FVec F S64x512 .f32 := subf v40 v13
  have v50 : FVec F S64x512 .f32 := mulf v22 v49
  addf v13 v50

theorem cellH_eq_cast (v1 : FVec F S96x3 .f32) (v3 : FVec F S96x1 .f32) (v5 : FVec F S256x32 .f32)
    (v7 : FVec F S256x64 .f32) (v9 : FVec F S256x1 .f32) (v10 v12 : Vec F S1x64x512 .f32)
    (v14 : Vec F S3x1x512 .f32) :
    CellRow.cellH v1 v3 v5 v7 v9 v10 v12 v14
      = shapeCast S1x64x512 (hBody v1 v3 v5 v7 v9 (shapeCast S64x512 v10 shapeCasts_S1x64x512_S64x512)
          (shapeCast S64x512 v12 shapeCasts_S1x64x512_S64x512) v14) shapeCasts_S64x512_S1x64x512 := rfl

theorem cellC_eq_cast (v1 : FVec F S96x3 .f32) (v3 : FVec F S96x1 .f32) (v5 : FVec F S256x32 .f32)
    (v7 : FVec F S256x64 .f32) (v9 : FVec F S256x1 .f32) (v10 v12 : Vec F S1x64x512 .f32)
    (v14 : Vec F S3x1x512 .f32) :
    CellRow.cellC v1 v3 v5 v7 v9 v10 v12 v14
      = shapeCast S1x64x512 (cBody v1 v3 v5 v7 v9 (shapeCast S64x512 v10 shapeCasts_S1x64x512_S64x512)
          (shapeCast S64x512 v12 shapeCasts_S1x64x512_S64x512) v14) shapeCasts_S64x512_S1x64x512 := rfl

end Store

section Rows

variable (v1 : FVec Ideal S96x3 .f32) (v3 : FVec Ideal S96x1 .f32) (v5 : FVec Ideal S256x32 .f32)
  (v7 : FVec Ideal S256x64 .f32) (v9 : FVec Ideal S256x1 .f32) (v14 : Vec Ideal S3x1x512 .f32)
  (v11 v13 : FVec Ideal S64x512 .f32) (q : Fin 512)

/-- The new cell row at (h, q), from the states as [64,512]. -/
theorem newC_row (h : Fin 64) :
    CellRow.newC (F := Ideal) v13
        (CellRow.gateTanh (F := Ideal) v5 v7 v9 v11 (CellRow.frontAll (F := Ideal) v1 v3 v14))
        (CellRow.gateSig (F := Ideal)
          (CellRow.gateTanh (F := Ideal) v5 v7 v9 v11 (CellRow.frontAll (F := Ideal) v1 v3 v14))) (ix2 h q)
      = rowC (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v11 (ix2 k q)) (fun k => v13 (ix2 k q)) h := by
  rw [newC_apply, gateSig_apply, gateSig_apply, gateTanh_apply, gateTanh_apply, gateTanh_apply]
  unfold rowC rowSig
  rw [blk0_mk, blk1_mk, blk3_mk]

/-- The new hidden rows at (h, q), from the states as [64,512]. -/
theorem hBody_apply (h : Fin 64) :
    hBody (F := Ideal) v1 v3 v5 v7 v9 v11 v13 v14 (ix2 h q)
      = rowHout (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v11 (ix2 k q)) (fun k => v13 (ix2 k q)) h := by
  unfold hBody rowHout rowH
  show v11 (ix2 h q)
      + extractStridedSlice S64x512 ![32, 0] (CellRow.frontAll (F := Ideal) v1 v3 v14)
          slices_S96x512_o32_0_S64x512 (ix2 h q)
        * (extractStridedSlice S64x512 ![128, 0]
              (CellRow.gateSig (F := Ideal)
                (CellRow.gateTanh (F := Ideal) v5 v7 v9 v11 (CellRow.frontAll (F := Ideal) v1 v3 v14)))
              slices_S192x512_o128_0_S64x512 (ix2 h q)
            * Ideal.tanh (CellRow.newC (F := Ideal) v13
                (CellRow.gateTanh (F := Ideal) v5 v7 v9 v11 (CellRow.frontAll (F := Ideal) v1 v3 v14))
                (CellRow.gateSig (F := Ideal)
                  (CellRow.gateTanh (F := Ideal) v5 v7 v9 v11 (CellRow.frontAll (F := Ideal) v1 v3 v14)))
                (ix2 h q))
          - v11 (ix2 h q)) = _
  rw [slice2_axis0_apply 32 _ slices_S96x512_o32_0_S64x512 h q ⟨32 + h.val, by omega⟩ rfl,
    slice2_axis0_apply 128 _ slices_S192x512_o128_0_S64x512 h q ⟨128 + h.val, by omega⟩ rfl,
    frontAll_apply, gateSig_apply, gateTanh_apply, newC_row]
  unfold rowSig
  rw [blk2_mk]

/-- The new cell rows at (h, q), from the states as [64,512]. -/
theorem cBody_apply (h : Fin 64) :
    cBody (F := Ideal) v1 v3 v5 v7 v9 v11 v13 v14 (ix2 h q)
      = rowCout (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v11 (ix2 k q)) (fun k => v13 (ix2 k q)) h := by
  unfold cBody rowCout
  show v13 (ix2 h q)
      + extractStridedSlice S64x512 ![32, 0] (CellRow.frontAll (F := Ideal) v1 v3 v14)
          slices_S96x512_o32_0_S64x512 (ix2 h q)
        * (CellRow.newC (F := Ideal) v13
              (CellRow.gateTanh (F := Ideal) v5 v7 v9 v11 (CellRow.frontAll (F := Ideal) v1 v3 v14))
              (CellRow.gateSig (F := Ideal)
                (CellRow.gateTanh (F := Ideal) v5 v7 v9 v11 (CellRow.frontAll (F := Ideal) v1 v3 v14)))
              (ix2 h q)
          - v13 (ix2 h q)) = _
  rw [slice2_axis0_apply 32 _ slices_S96x512_o32_0_S64x512 h q ⟨32 + h.val, by omega⟩ rfl,
    frontAll_apply, newC_row]

end Rows

/-! ### The stored rows of one relation -/

/-- The stored hidden row of relation `q` of the row, at hidden coordinate `h`. -/
theorem cellH_apply (v1 : FVec Ideal S96x3 .f32) (v3 : FVec Ideal S96x1 .f32) (v5 : FVec Ideal S256x32 .f32)
    (v7 : FVec Ideal S256x64 .f32) (v9 : FVec Ideal S256x1 .f32) (v10 v12 : Vec Ideal S1x64x512 .f32)
    (v14 : Vec Ideal S3x1x512 .f32) (h : Fin 64) (q : Fin 512) :
    CellRow.cellH (F := Ideal) v1 v3 v5 v7 v9 v10 v12 v14 (ix3 (0 : Fin 1) h q)
      = rowHout (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v10 (ix3 (0 : Fin 1) k q)) (fun k => v12 (ix3 (0 : Fin 1) k q)) h := by
  rw [cellH_eq_cast, shapeCast_ab_1ab_apply, hBody_apply]
  simp only [shapeCast_1ab_ab_apply]

/-- The stored cell row of relation `q` of the row, at hidden coordinate `h`. -/
theorem cellC_apply (v1 : FVec Ideal S96x3 .f32) (v3 : FVec Ideal S96x1 .f32) (v5 : FVec Ideal S256x32 .f32)
    (v7 : FVec Ideal S256x64 .f32) (v9 : FVec Ideal S256x1 .f32) (v10 v12 : Vec Ideal S1x64x512 .f32)
    (v14 : Vec Ideal S3x1x512 .f32) (h : Fin 64) (q : Fin 512) :
    CellRow.cellC (F := Ideal) v1 v3 v5 v7 v9 v10 v12 v14 (ix3 (0 : Fin 1) h q)
      = rowCout (fun e j => v1 (ix2 e j)) (fun e => v3 (ix2 e (0 : Fin 1)))
          (fun j => v14 (ix3 j (0 : Fin 1) q))
          (fun r e => v5 (ix2 r e)) (fun r k => v7 (ix2 r k)) (fun r => v9 (ix2 r (0 : Fin 1)))
          (fun k => v10 (ix3 (0 : Fin 1) k q)) (fun k => v12 (ix3 (0 : Fin 1) k q)) h := by
  rw [cellC_eq_cast, shapeCast_ab_1ab_apply, cBody_apply]
  simp only [shapeCast_1ab_ab_apply]

end Cert.CellRead

end
-- ==== Proof.BlockRow.lean ====
/-
  What the body leaves in the two output buffers, one relation at a time.

  The body holds each of the five weight blocks whole, so what it holds is the block's contents. A load
  through row k's slab reads the block at row k. Hence the cell of row k, read at relation q of the row,
  is relation (k, q)'s pair of rows computed from the weight blocks and from the three input blocks' entries
  at (·, k, q) and (k, ·, q); and entry (k, h, q) of each output buffer is that relation's stored row at h.
-/
import proofs.«176749_g16716012716120_cont_week2b_1009_18_alg».proof.Proof.OutRead
import proofs.«176749_g16716012716120_cont_week2b_1009_18_alg».proof.Proof.CellRead

set_option maxRecDepth 16384

noncomputable section

namespace Cert.BlockRow

open Cert.KernelIdeal Cert.KernelIdeal.Gen Cert.KernelIdeal.Around
open Idealize.ShloMosaic Idealize.ShloMosaic.TcCoe Idealize.ShloMosaic.ValueIdx
open Idealize.SL Idealize.SL.Sem

/-! ### The weight blocks as the body holds them -/

section Weights

variable {F : FTy → Type} [FloatOps F]

/-- The zero offsets of a whole-block load, as the constant function. -/
theorem off2_zero : (![0, 0] : Fin 2 → Nat) = fun _ => 0 := by
  funext a; fin_cases a <;> rfl

/-- Each weight block is loaded whole and cast to its own shape: the body holds the block's contents. -/
theorem ldW3_eq (x3 : Vec F S96x3 .f32) : ldW3 x3 = x3 := by
  show shapeCast S96x3 (View.ld x3 (Rect.unit (s := S96x3) ![0, 0] S96x3.size Facts₀.inb_S96x3_S96x3_0_0))
    Facts₀.shapeCasts_S96x3_S96x3 = x3
  exact (shapeCast_self _ _).trans (View.ld_unit_zero off2_zero _ _)

theorem ldW4_eq (x4 : Vec F S96x1 .f32) : ldW4 x4 = x4 := by
  show shapeCast S96x1 (View.ld x4 (Rect.unit (s := S96x1) ![0, 0] S96x1.size Facts₀.inb_S96x1_S96x1_0_0))
    Facts₀.shapeCasts_S96x1_S96x1 = x4
  exact (shapeCast_self _ _).trans (View.ld_unit_zero off2_zero _ _)

theorem ldW5_eq (x5 : Vec F S256x32 .f32) : ldW5 x5 = x5 := by
  show shapeCast S256x32 (View.ld x5 (Rect.unit (s := S256x32) ![0, 0] S256x32.size Facts₀.inb_S256x32_S256x32_0_0))
    Facts₀.shapeCasts_S256x32_S256x32 = x5
  exact (shapeCast_self _ _).trans (View.ld_unit_zero off2_zero _ _)

theorem ldW6_eq (x6 : Vec F S256x64 .f32) : ldW6 x6 = x6 := by
  show shapeCast S256x64 (View.ld x6 (Rect.unit (s := S256x64) ![0, 0] S256x64.size Facts₀.inb_S256x64_S256x64_0_0))
    Facts₀.shapeCasts_S256x64_S256x64 = x6
  exact (shapeCast_self _ _).trans (View.ld_unit_zero off2_zero _ _)

theorem ldW7_eq (x7 : Vec F S256x1 .f32) : ldW7 x7 = x7 := by
  show shapeCast S256x1 (View.ld x7 (Rect.unit (s := S256x1) ![0, 0] S256x1.size Facts₀.inb_S256x1_S256x1_0_0))
    Facts₀.shapeCasts_S256x1_S256x1 = x7
  exact (shapeCast_self _ _).trans (View.ld_unit_zero off2_zero _ _)

end Weights
/-! ### The cell of row `k` of a block, one relation at a time -/

section Block

variable (x0 : Vec Ideal S3x32x512 .f32) (x1 x2 : Vec Ideal S32x64x512 .f32) (x3 : Vec Ideal S96x3 .f32)
  (x4 : Vec Ideal S96x1 .f32) (x5 : Vec Ideal S256x32 .f32) (x6 : Vec Ideal S256x64 .f32)
  (x7 : Vec Ideal S256x1 .f32) (k : Fin 32) (h : Fin 64) (q : Fin 512)

/-- The hidden output of the cell on row `k`'s loads, at relation `q`: the relation's row from the weight
    blocks and from the block's entries at (·, k, q) and (k, ·, q). -/
theorem cellH_rowS :
    CellRow.cellH (F := Ideal) (ldW3 x3) (ldW4 x4) (ldW5 x5) (ldW6 x6) (ldW7 x7)
        (View.ld x1 (rowS k)) (View.ld x2 (rowS k)) (View.ld x0 (rowA k)) (ix3 (0 : Fin 1) h q)
      = CellRead.rowHout (fun e j => x3 (ix2 e j)) (fun e => x4 (ix2 e (0 : Fin 1)))
          (fun j => x0 (ix3 j k q)) (fun r e => x5 (ix2 r e)) (fun r k' => x6 (ix2 r k'))
          (fun r => x7 (ix2 r (0 : Fin 1))) (fun k' => x1 (ix3 k k' q)) (fun k' => x2 (ix3 k k' q)) h := by
  have e0 : (fun j : Fin 3 => View.ld x0 (rowA k) (ix3 j (0 : Fin 1) q)) = fun j => x0 (ix3 j k q) :=
    funext fun j => ld_rowA x0 k j q
  have e1 : (fun k' : Fin 64 => View.ld x1 (rowS k) (ix3 (0 : Fin 1) k' q)) = fun k' => x1 (ix3 k k' q) :=
    funext fun k' => ld_rowS x1 k k' q
  have e2 : (fun k' : Fin 64 => View.ld x2 (rowS k) (ix3 (0 : Fin 1) k' q)) = fun k' => x2 (ix3 k k' q) :=
    funext fun k' => ld_rowS x2 k k' q
  rw [ldW3_eq, ldW4_eq, ldW5_eq, ldW6_eq, ldW7_eq, CellRead.cellH_apply, e0, e1, e2]

/-- The cell output of the cell on row `k`'s loads, at relation `q`. -/
theorem cellC_rowS :
    CellRow.cellC (F := Ideal) (ldW3 x3) (ldW4 x4) (ldW5 x5) (ldW6 x6) (ldW7 x7)
        (View.ld x1 (rowS k)) (View.ld x2 (rowS k)) (View.ld x0 (rowA k)) (ix3 (0 : Fin 1) h q)
      = CellRead.rowCout (fun e j => x3 (ix2 e j)) (fun e => x4 (ix2 e (0 : Fin 1)))
          (fun j => x0 (ix3 j k q)) (fun r e => x5 (ix2 r e)) (fun r k' => x6 (ix2 r k'))
          (fun r => x7 (ix2 r (0 : Fin 1))) (fun k' => x1 (ix3 k k' q)) (fun k' => x2 (ix3 k k' q)) h := by
  have e0 : (fun j : Fin 3 => View.ld x0 (rowA k) (ix3 j (0 : Fin 1) q)) = fun j => x0 (ix3 j k q) :=
    funext fun j => ld_rowA x0 k j q
  have e1 : (fun k' : Fin 64 => View.ld x1 (rowS k) (ix3 (0 : Fin 1) k' q)) = fun k' => x1 (ix3 k k' q) :=
    funext fun k' => ld_rowS x1 k k' q
  have e2 : (fun k' : Fin 64 => View.ld x2 (rowS k) (ix3 (0 : Fin 1) k' q)) = fun k' => x2 (ix3 k k' q) :=
    funext fun k' => ld_rowS x2 k k' q
  rw [ldW3_eq, ldW4_eq, ldW5_eq, ldW6_eq, ldW7_eq, CellRead.cellC_apply, e0, e1, e2]

end Block

/-! ### The two output buffers, one relation at a time -/

section Out

variable (c : Dev nD) (i : grid0.Coords) (arg1 : Memref sig .tc .vmem S3x32x512 .f32) (harg1 : arg1.IsWhole) (arg2 : Memref sig .tc .vmem S32x64x512 .f32) (harg2 : arg2.IsWhole) (arg3 : Memref sig .tc .vmem S32x64x512 .f32) (harg3 : arg3.IsWhole) (arg4 : Memref sig .tc .vmem S96x3 .f32) (harg4 : arg4.IsWhole) (arg5 : Memref sig .tc .vmem S96x1 .f32) (harg5 : arg5.IsWhole) (arg6 : Memref sig .tc .vmem S256x32 .f32) (harg6 : arg6.IsWhole) (arg7 : Memref sig .tc .vmem S256x64 .f32) (harg7 : arg7.IsWhole) (arg8 : Memref sig .tc .vmem S256x1 .f32) (harg8 : arg8.IsWhole) (arg9 : Memref sig .tc .vmem S32x64x512 .f32) (harg9 : arg9.IsWhole) (arg10 : Memref sig .tc .vmem S32x64x512 .f32) (harg10 : arg10.IsWhole) (x0 : Vec Ideal S3x32x512 .f32) (x1 : Vec Ideal S32x64x512 .f32) (x2 : Vec Ideal S32x64x512 .f32) (x3 : Vec Ideal S96x3 .f32) (x4 : Vec Ideal S96x1 .f32) (x5 : Vec Ideal S256x32 .f32) (x6 : Vec Ideal S256x64 .f32) (x7 : Vec Ideal S256x1 .f32)

/-- Entry (k, h, q) of what the body leaves in the new-hidden buffer is relation (k, q)'s stored hidden row
    at `h`, from the weight blocks and the block's entries at (·, k, q) and (k, ·, q). -/
theorem out8_row (k : Fin 32) (h : Fin 64) (q : Fin 512) :
    out8 (F := Ideal) c i arg1 harg1 arg2 harg2 arg3 harg3 arg4 harg4 arg5 harg5 arg6 harg6 arg7 harg7 arg8 harg8 arg9 harg9 arg10 harg10 x0 x1 x2 x3 x4 x5 x6 x7 (ix3 k h q)
      = CellRead.rowHout (fun e j => x3 (ix2 e j)) (fun e => x4 (ix2 e (0 : Fin 1)))
          (fun j => x0 (ix3 j k q)) (fun r e => x5 (ix2 r e)) (fun r k' => x6 (ix2 r k'))
          (fun r => x7 (ix2 r (0 : Fin 1))) (fun k' => x1 (ix3 k k' q)) (fun k' => x2 (ix3 k k' q)) h :=
  (out8_apply c i arg1 harg1 arg2 harg2 arg3 harg3 arg4 harg4 arg5 harg5 arg6 harg6 arg7 harg7 arg8 harg8 arg9 harg9 arg10 harg10 x0 x1 x2 x3 x4 x5 x6 x7 k h q).trans
    (cellH_rowS x0 x1 x2 x3 x4 x5 x6 x7 k h q)

/-- The same for the new-cell buffer. -/
theorem out9_row (k : Fin 32) (h : Fin 64) (q : Fin 512) :
    out9 (F := Ideal) c i arg1 harg1 arg2 harg2 arg3 harg3 arg4 harg4 arg5 harg5 arg6 harg6 arg7 harg7 arg8 harg8 arg9 harg9 arg10 harg10 x0 x1 x2 x3 x4 x5 x6 x7 (ix3 k h q)
      = CellRead.rowCout (fun e j => x3 (ix2 e j)) (fun e => x4 (ix2 e (0 : Fin 1)))
          (fun j => x0 (ix3 j k q)) (fun r e => x5 (ix2 r e)) (fun r k' => x6 (ix2 r k'))
          (fun r => x7 (ix2 r (0 : Fin 1))) (fun k' => x1 (ix3 k k' q)) (fun k' => x2 (ix3 k k' q)) h :=
  (out9_apply c i arg1 harg1 arg2 harg2 arg3 harg3 arg4 harg4 arg5 harg5 arg6 harg6 arg7 harg7 arg8 harg8 arg9 harg9 arg10 harg10 x0 x1 x2 x3 x4 x5 x6 x7 k h q).trans
    (cellC_rowS x0 x1 x2 x3 x4 x5 x6 x7 k h q)

end Out

end Cert.BlockRow

end
-- ==== Proof.TailI.lean ====
/-
  The two results of @main, read off the launch's output arrays.

  After the launch @main runs two host transposes: the first writes result 0 from the launch's first output
  array (the new hidden states, relation axis last), the second writes result 1 from the launch's second output
  array (the new cell states). Each transpose writes only its own result, and neither output array is written
  after the launch, so result 0 is the [0, 2, 1] transpose of what the launch left in its first output array and
  result 1 the same transpose of what it left in the second. With the run of the launch this gives the final
  contents of both result buffers on every core.
-/
import proofs.«176749_g16716012716120_cont_week2b_1009_18_alg».proof.Proof.FrameRunI
import Idealize.ShloMosaic.Lib.StableHlo.Run

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

variable (m : (ℓ : Loc nD τ sig) → Buf (Elt F) ℓ) (ρ : Dev nD → PrngReg)

/-- Result 0 of @main is the [0, 2, 1] transpose of the launch's first output array (window 8) as the launch
    leaves it: the first transpose reads that array, which nothing after the launch writes. -/
theorem tail_v70 (c : Dev nD) :
    (Pipeline.afterTail₀ cfgs (dats m) 0 (V0 m) [hostOps1] c main_v70 : S512x512x64.Idx → Elt F .f32)
      = transpose S512x512x64 [0, 2, 1] ((dats m 0 c).arrAt 8 cfg0.N) Gen.transposes_S512x64x512_S512x512x64_0_2_1 := by
  unfold Pipeline.afterTail₀
  show StableHlo.after hostOps1 _ (Proc.devRef .tc main_v70) = _
  after_results
  have h := Pipeline.withArrays_arr spec0 launch0.win.arr_inj c (V0 m c) (fun w => (dats m 0 c).arrAt w cfg0.N) 8
  exact congrArg (fun X => transpose S512x512x64 [0, 2, 1] X Gen.transposes_S512x64x512_S512x512x64_0_2_1) h

/-- Result 1 of @main is the [0, 2, 1] transpose of the launch's second output array (window 9) as the launch
    leaves it: the first transpose writes result 0 only, so the second still reads the array as the launch left it. -/
theorem tail_v71 (c : Dev nD) :
    (Pipeline.afterTail₀ cfgs (dats m) 0 (V0 m) [hostOps1] c main_v71 : S512x512x64.Idx → Elt F .f32)
      = transpose S512x512x64 [0, 2, 1] ((dats m 0 c).arrAt 9 cfg0.N) Gen.transposes_S512x64x512_S512x512x64_0_2_1 := by
  unfold Pipeline.afterTail₀
  show StableHlo.after hostOps1 _ (Proc.devRef .tc main_v71) = _
  after_results
  have h := Pipeline.withArrays_arr spec0 launch0.win.arr_inj c (V0 m c) (fun w => (dats m 0 c).arrAt w cfg0.N) 9
  exact congrArg (fun X => transpose S512x512x64 [0, 2, 1] X Gen.transposes_S512x64x512_S512x512x64_0_2_1) h

/-- Every execution of @main terminates, and on every core the two result buffers end at the transposes of the
    launch's two output arrays: the results are operands of no window, so the run's final state has them as the
    host operations after the launch leave them. -/
theorem post_results :
    θ_run defs (onTc (τ := τ) (main (F := F))) (s₀ m ρ) (fun r => ∀ c : Dev nD,
      r.2.mem ((c.tc : Thread nD τ).loc main_v70)
          = transpose S512x512x64 [0, 2, 1] ((dats m 0 c).arrAt 8 cfg0.N) Gen.transposes_S512x64x512_S512x512x64_0_2_1
      ∧ r.2.mem ((c.tc : Thread nD τ).loc main_v71)
          = transpose S512x512x64 [0, 2, 1] ((dats m 0 c).arrAt 9 cfg0.N) Gen.transposes_S512x64x512_S512x512x64_0_2_1) :=
  (θ_run defs _ _).mono (fun _ h c =>
    ⟨((h c).2 main_v70 (Pipeline.mem_restRefs_of main_v70 (by decide) (by decide))).trans (tail_v70 m c),
     ((h c).2 main_v71 (Pipeline.mem_restRefs_of main_v71 (by decide) (by decide))).trans (tail_v71 m c)⟩) (run_main m ρ)

end Cert.KernelIdeal.Around

end
-- ==== Proof.FinalI.lean ====
/-
  The idealized kernel's two results as whole arrays.

  Entry (r, k, q) of what the body leaves in an output buffer at grid point t is the cell of row r of the block;
  the block's rows are rows 32·t + r of the operand arrays, and the operand arrays are the host operations'
  re-layouts of the arguments, so that entry is the kernel's row of relation (32·t + r, q) at hidden coordinate
  k. The 16 blocks tile the [512,64,512] output arrays, so each ends as one function of the arguments; the host
  transposes after the launch swap the last two axes back.
-/
import proofs.«176749_g16716012716120_cont_week2b_1009_18_alg».proof.Proof.WindowsAt
import proofs.«176749_g16716012716120_cont_week2b_1009_18_alg».proof.Proof.OperandsAt
import proofs.«176749_g16716012716120_cont_week2b_1009_18_alg».proof.Proof.HostWindows
import proofs.«176749_g16716012716120_cont_week2b_1009_18_alg».proof.Proof.BlockRow
import proofs.«176749_g16716012716120_cont_week2b_1009_18_alg».proof.Proof.TailI
import proofs.«176749_g16716012716120_cont_week2b_1009_18_alg».proof.Proof.CellRead

set_option maxRecDepth 16384

noncomputable section

namespace Cert.KernelIdeal.Final

open Cert.KernelIdeal Cert.KernelIdeal.Gen Cert.KernelIdeal.Around
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The kernel's rows of relation (p, q), from the argument arrays on core `c`. -/
def rowH (c : Dev nD) (p q : Fin 512) (h : Fin 64) : EReal := LstmSpec.kHout (fun j => (m ((c : Thread nD τ).loc main_arg0)) (ix3 p q j)) (fun k => (m ((c : Thread nD τ).loc main_arg1)) (ix3 p q k)) (fun k => (m ((c : Thread nD τ).loc main_arg2)) (ix3 p q k)) ((m ((c : Thread nD τ).loc main_arg3)) (ix2 p q)) (fun e j => (m ((c : Thread nD τ).loc main_arg4)) (ix2 e j)) (fun e => (m ((c : Thread nD τ).loc main_arg5)) (ix1 e)) (fun r e => (m ((c : Thread nD τ).loc main_arg6)) (ix2 r e)) (fun r => (m ((c : Thread nD τ).loc main_arg7)) (ix1 r)) (fun r k => (m ((c : Thread nD τ).loc main_arg8)) (ix2 r k)) (fun r => (m ((c : Thread nD τ).loc main_arg9)) (ix1 r)) h
def rowC (c : Dev nD) (p q : Fin 512) (h : Fin 64) : EReal := LstmSpec.kCout (fun j => (m ((c : Thread nD τ).loc main_arg0)) (ix3 p q j)) (fun k => (m ((c : Thread nD τ).loc main_arg1)) (ix3 p q k)) (fun k => (m ((c : Thread nD τ).loc main_arg2)) (ix3 p q k)) ((m ((c : Thread nD τ).loc main_arg3)) (ix2 p q)) (fun e j => (m ((c : Thread nD τ).loc main_arg4)) (ix2 e j)) (fun e => (m ((c : Thread nD τ).loc main_arg5)) (ix1 e)) (fun r e => (m ((c : Thread nD τ).loc main_arg6)) (ix2 r e)) (fun r => (m ((c : Thread nD τ).loc main_arg7)) (ix1 r)) (fun r k => (m ((c : Thread nD τ).loc main_arg8)) (ix2 r k)) (fun r => (m ((c : Thread nD τ).loc main_arg9)) (ix1 r)) h

/-- The launch's two output arrays [512,64,512] (relations of a row along the last axis), -/
def G8 (c : Dev nD) : S512x64x512.Idx → EReal := fun y => rowH m c (y 0) (y 2) (y 1)
def G9 (c : Dev nD) : S512x64x512.Idx → EReal := fun y => rowC m c (y 0) (y 2) (y 1)
/-- and @main's two results [512,512,64]. -/
def resH (c : Dev nD) : S512x512x64.Idx → EReal := fun i => rowH m c (i 0) (i 1) (i 2)
def resC (c : Dev nD) : S512x512x64.Idx → EReal := fun i => rowC m c (i 0) (i 1) (i 2)

/-- The row functions depend on their operand matrices entry by entry. -/
theorem rowHout_congr {wf wf' : Fin 96 → Fin 3 → EReal} {bf bf' : Fin 96 → EReal} {ax ax' : Fin 3 → EReal}
    {wih wih' : Fin 256 → Fin 32 → EReal} {whh whh' : Fin 256 → Fin 64 → EReal} {bk bk' : Fin 256 → EReal}
    {ht ht' ct ct' : Fin 64 → EReal}
    (h1 : ∀ e j, wf e j = wf' e j) (h2 : ∀ e, bf e = bf' e) (h3 : ∀ j, ax j = ax' j) (h4 : ∀ r e, wih r e = wih' r e)
    (h5 : ∀ r k, whh r k = whh' r k) (h6 : ∀ r, bk r = bk' r) (h7 : ∀ k, ht k = ht' k) (h8 : ∀ k, ct k = ct' k) (h : Fin 64) :
    CellRead.rowHout wf bf ax wih whh bk ht ct h = CellRead.rowHout wf' bf' ax' wih' whh' bk' ht' ct' h := by
  obtain rfl : wf = wf' := funext fun e => funext fun j => h1 e j
  obtain rfl : bf = bf' := funext h2
  obtain rfl : ax = ax' := funext h3
  obtain rfl : wih = wih' := funext fun r => funext fun e => h4 r e
  obtain rfl : whh = whh' := funext fun r => funext fun k => h5 r k
  obtain rfl : bk = bk' := funext h6
  obtain rfl : ht = ht' := funext h7
  obtain rfl : ct = ct' := funext h8
  rfl
theorem rowCout_congr {wf wf' : Fin 96 → Fin 3 → EReal} {bf bf' : Fin 96 → EReal} {ax ax' : Fin 3 → EReal}
    {wih wih' : Fin 256 → Fin 32 → EReal} {whh whh' : Fin 256 → Fin 64 → EReal} {bk bk' : Fin 256 → EReal}
    {ht ht' ct ct' : Fin 64 → EReal}
    (h1 : ∀ e j, wf e j = wf' e j) (h2 : ∀ e, bf e = bf' e) (h3 : ∀ j, ax j = ax' j) (h4 : ∀ r e, wih r e = wih' r e)
    (h5 : ∀ r k, whh r k = whh' r k) (h6 : ∀ r, bk r = bk' r) (h7 : ∀ k, ht k = ht' k) (h8 : ∀ k, ct k = ct' k) (h : Fin 64) :
    CellRead.rowCout wf bf ax wih whh bk ht ct h = CellRead.rowCout wf' bf' ax' wih' whh' bk' ht' ct' h := by
  obtain rfl : wf = wf' := funext fun e => funext fun j => h1 e j
  obtain rfl : bf = bf' := funext h2
  obtain rfl : ax = ax' := funext h3
  obtain rfl : wih = wih' := funext fun r => funext fun e => h4 r e
  obtain rfl : whh = whh' := funext fun r => funext fun k => h5 r k
  obtain rfl : bk = bk' := funext h6
  obtain rfl : ht = ht' := funext h7
  obtain rfl : ct = ct' := funext h8
  rfl

set_option maxHeartbeats 1600000 in
/-- Entry (r, k, q) of what the body leaves at point `t` is the kernel's row of relation (32·t + r, q), at `k`. -/
theorem block8_at (c : Dev nD) (t : Fin cfg0.N) (r : Fin 32) (k : Fin 64) (q : Fin 512) :
    out8 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (ix3 r k q)
      = G8 m c (ix3 (⟨32 * t.val + r.val, by have := WindowsAt.t_lt t; omega⟩ : Fin 512) k q) := by
  rw [BlockRow.out8_row]
  refine (rowHout_congr
    (wf' := LstmSpec.wfront (fun e' j' => (m ((c : Thread nD τ).loc main_arg4)) (ix2 e' j')))
    (bf' := LstmSpec.bfront (fun e' => (m ((c : Thread nD τ).loc main_arg5)) (ix1 e')))
    (ax' := LstmSpec.aux (fun j' => (m ((c : Thread nD τ).loc main_arg0)) (ix3 (⟨32 * t.val + r.val, by have := WindowsAt.t_lt t; omega⟩ : Fin 512) q j')) ((m ((c : Thread nD τ).loc main_arg3)) (ix2 (⟨32 * t.val + r.val, by have := WindowsAt.t_lt t; omega⟩ : Fin 512) q)))
    (wih' := fun r' e => LstmSpec.scl r' ((m ((c : Thread nD τ).loc main_arg6)) (ix2 (LstmSpec.src r') e)))
    (whh' := fun r' k' => LstmSpec.scl r' ((m ((c : Thread nD τ).loc main_arg8)) (ix2 (LstmSpec.src r') k')))
    (bk' := fun r' => LstmSpec.scl r' (@HAdd.hAdd EReal EReal EReal instHAdd ((m ((c : Thread nD τ).loc main_arg7)) (ix1 (LstmSpec.src r'))) ((m ((c : Thread nD τ).loc main_arg9)) (ix1 (LstmSpec.src r')))))
    (ht' := fun k' => (m ((c : Thread nD τ).loc main_arg1)) (ix3 (⟨32 * t.val + r.val, by have := WindowsAt.t_lt t; omega⟩ : Fin 512) q k'))
    (ct' := fun k' => (m ((c : Thread nD τ).loc main_arg2)) (ix3 (⟨32 * t.val + r.val, by have := WindowsAt.t_lt t; omega⟩ : Fin 512) q k'))
    ?_ ?_ ?_ ?_ ?_ ?_ ?_ ?_ k).trans ?_
  · intro e j
    exact (congrFun (WindowsAt.iblk3_eq m c t) (ix2 e j)).trans ((congrFun (WindowsAt.V_v15 m c) (ix2 e j)).trans (HostWindows.wfrontT_apply _ e j))
  · intro e
    exact (congrFun (WindowsAt.iblk4_eq m c t) (ix2 e (0 : Fin 1))).trans ((congrFun (WindowsAt.V_v18 m c) (ix2 e (0 : Fin 1))).trans (HostWindows.bfrontT_apply _ e))
  · intro j
    exact (WindowsAt.iblk0_apply m c t j r q).trans ((congrFun (WindowsAt.V_v5 m c) _).trans (HostWindows.auxT_apply _ _ j _ q))
  · intro r' e
    exact (congrFun (WindowsAt.iblk5_eq m c t) (ix2 r' e)).trans ((congrFun (WindowsAt.V_v34 m c) (ix2 r' e)).trans (HostWindows.wihT_apply _ r' e))
  · intro r' k'
    exact (congrFun (WindowsAt.iblk6_eq m c t) (ix2 r' k')).trans ((congrFun (WindowsAt.V_v50 m c) (ix2 r' k')).trans (HostWindows.whhT_apply _ r' k'))
  · intro r'
    exact (congrFun (WindowsAt.iblk7_eq m c t) (ix2 r' (0 : Fin 1))).trans ((congrFun (WindowsAt.V_v68 m c) (ix2 r' (0 : Fin 1))).trans (HostWindows.bT_apply _ _ r'))
  · intro k'
    exact (WindowsAt.iblk1_apply m c t r k' q).trans ((congrFun (WindowsAt.V_v0 m c) _).trans (HostWindows.stT_apply _ _ k' q))
  · intro k'
    exact (WindowsAt.iblk2_apply m c t r k' q).trans ((congrFun (WindowsAt.V_v1 m c) _).trans (HostWindows.stT_apply _ _ k' q))
  · exact (CellRead.kHout_eq_row (fun j => (m ((c : Thread nD τ).loc main_arg0)) (ix3 (⟨32 * t.val + r.val, by have := WindowsAt.t_lt t; omega⟩ : Fin 512) q j)) (fun k => (m ((c : Thread nD τ).loc main_arg1)) (ix3 (⟨32 * t.val + r.val, by have := WindowsAt.t_lt t; omega⟩ : Fin 512) q k)) (fun k => (m ((c : Thread nD τ).loc main_arg2)) (ix3 (⟨32 * t.val + r.val, by have := WindowsAt.t_lt t; omega⟩ : Fin 512) q k)) ((m ((c : Thread nD τ).loc main_arg3)) (ix2 (⟨32 * t.val + r.val, by have := WindowsAt.t_lt t; omega⟩ : Fin 512) q)) (fun e j => (m ((c : Thread nD τ).loc main_arg4)) (ix2 e j)) (fun e => (m ((c : Thread nD τ).loc main_arg5)) (ix1 e)) (fun r e => (m ((c : Thread nD τ).loc main_arg6)) (ix2 r e)) (fun r => (m ((c : Thread nD τ).loc main_arg7)) (ix1 r)) (fun r k => (m ((c : Thread nD τ).loc main_arg8)) (ix2 r k)) (fun r => (m ((c : Thread nD τ).loc main_arg9)) (ix1 r)) k).symm

/-- What point `t` writes back is block `t` of the whole-array function. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after8]
  funext y
  have e := eq_ix3 (n0 := 32) (n1 := 64) (n2 := 512) y
  show out8 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) y
      = (((cfg0.win 8).blk t).view.read (Elt Ideal) (G8 m c) : Vec Ideal S32x64x512 .f32) y
  refine (congrArg _ e).trans (((block8_at m c t (y 0) (y 1) (y 2)).trans
    (WindowsAt.blk8_read (F := Ideal) (G8 m c) t (y 0) (y 1) (y 2)).symm).trans (congrArg _ e).symm)

/-- The array after the run. -/
theorem final8 (c : Dev nD) : (dats m 0 c).arrAt 8 cfg0.N = G8 m c :=
  (dats m 0 c).arrAt_eq_of_cover 8 (G8 m c) (fun t _ => flushed8_eq m c t) (WindowsAt.cover8 c)

set_option maxHeartbeats 1600000 in
/-- Entry (r, k, q) of what the body leaves at point `t` is the kernel's row of relation (32·t + r, q), at `k`. -/
theorem block9_at (c : Dev nD) (t : Fin cfg0.N) (r : Fin 32) (k : Fin 64) (q : Fin 512) :
    out9 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) (ix3 r k q)
      = G9 m c (ix3 (⟨32 * t.val + r.val, by have := WindowsAt.t_lt t; omega⟩ : Fin 512) k q) := by
  rw [BlockRow.out9_row]
  refine (rowCout_congr
    (wf' := LstmSpec.wfront (fun e' j' => (m ((c : Thread nD τ).loc main_arg4)) (ix2 e' j')))
    (bf' := LstmSpec.bfront (fun e' => (m ((c : Thread nD τ).loc main_arg5)) (ix1 e')))
    (ax' := LstmSpec.aux (fun j' => (m ((c : Thread nD τ).loc main_arg0)) (ix3 (⟨32 * t.val + r.val, by have := WindowsAt.t_lt t; omega⟩ : Fin 512) q j')) ((m ((c : Thread nD τ).loc main_arg3)) (ix2 (⟨32 * t.val + r.val, by have := WindowsAt.t_lt t; omega⟩ : Fin 512) q)))
    (wih' := fun r' e => LstmSpec.scl r' ((m ((c : Thread nD τ).loc main_arg6)) (ix2 (LstmSpec.src r') e)))
    (whh' := fun r' k' => LstmSpec.scl r' ((m ((c : Thread nD τ).loc main_arg8)) (ix2 (LstmSpec.src r') k')))
    (bk' := fun r' => LstmSpec.scl r' (@HAdd.hAdd EReal EReal EReal instHAdd ((m ((c : Thread nD τ).loc main_arg7)) (ix1 (LstmSpec.src r'))) ((m ((c : Thread nD τ).loc main_arg9)) (ix1 (LstmSpec.src r')))))
    (ht' := fun k' => (m ((c : Thread nD τ).loc main_arg1)) (ix3 (⟨32 * t.val + r.val, by have := WindowsAt.t_lt t; omega⟩ : Fin 512) q k'))
    (ct' := fun k' => (m ((c : Thread nD τ).loc main_arg2)) (ix3 (⟨32 * t.val + r.val, by have := WindowsAt.t_lt t; omega⟩ : Fin 512) q k'))
    ?_ ?_ ?_ ?_ ?_ ?_ ?_ ?_ k).trans ?_
  · intro e j
    exact (congrFun (WindowsAt.iblk3_eq m c t) (ix2 e j)).trans ((congrFun (WindowsAt.V_v15 m c) (ix2 e j)).trans (HostWindows.wfrontT_apply _ e j))
  · intro e
    exact (congrFun (WindowsAt.iblk4_eq m c t) (ix2 e (0 : Fin 1))).trans ((congrFun (WindowsAt.V_v18 m c) (ix2 e (0 : Fin 1))).trans (HostWindows.bfrontT_apply _ e))
  · intro j
    exact (WindowsAt.iblk0_apply m c t j r q).trans ((congrFun (WindowsAt.V_v5 m c) _).trans (HostWindows.auxT_apply _ _ j _ q))
  · intro r' e
    exact (congrFun (WindowsAt.iblk5_eq m c t) (ix2 r' e)).trans ((congrFun (WindowsAt.V_v34 m c) (ix2 r' e)).trans (HostWindows.wihT_apply _ r' e))
  · intro r' k'
    exact (congrFun (WindowsAt.iblk6_eq m c t) (ix2 r' k')).trans ((congrFun (WindowsAt.V_v50 m c) (ix2 r' k')).trans (HostWindows.whhT_apply _ r' k'))
  · intro r'
    exact (congrFun (WindowsAt.iblk7_eq m c t) (ix2 r' (0 : Fin 1))).trans ((congrFun (WindowsAt.V_v68 m c) (ix2 r' (0 : Fin 1))).trans (HostWindows.bT_apply _ _ r'))
  · intro k'
    exact (WindowsAt.iblk1_apply m c t r k' q).trans ((congrFun (WindowsAt.V_v0 m c) _).trans (HostWindows.stT_apply _ _ k' q))
  · intro k'
    exact (WindowsAt.iblk2_apply m c t r k' q).trans ((congrFun (WindowsAt.V_v1 m c) _).trans (HostWindows.stT_apply _ _ k' q))
  · exact (CellRead.kCout_eq_row (fun j => (m ((c : Thread nD τ).loc main_arg0)) (ix3 (⟨32 * t.val + r.val, by have := WindowsAt.t_lt t; omega⟩ : Fin 512) q j)) (fun k => (m ((c : Thread nD τ).loc main_arg1)) (ix3 (⟨32 * t.val + r.val, by have := WindowsAt.t_lt t; omega⟩ : Fin 512) q k)) (fun k => (m ((c : Thread nD τ).loc main_arg2)) (ix3 (⟨32 * t.val + r.val, by have := WindowsAt.t_lt t; omega⟩ : Fin 512) q k)) ((m ((c : Thread nD τ).loc main_arg3)) (ix2 (⟨32 * t.val + r.val, by have := WindowsAt.t_lt t; omega⟩ : Fin 512) q)) (fun e j => (m ((c : Thread nD τ).loc main_arg4)) (ix2 e j)) (fun e => (m ((c : Thread nD τ).loc main_arg5)) (ix1 e)) (fun r e => (m ((c : Thread nD τ).loc main_arg6)) (ix2 r e)) (fun r => (m ((c : Thread nD τ).loc main_arg7)) (ix1 r)) (fun r k => (m ((c : Thread nD τ).loc main_arg8)) (ix2 r k)) (fun r => (m ((c : Thread nD τ).loc main_arg9)) (ix1 r)) k).symm

/-- What point `t` writes back is block `t` of the whole-array function. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after9]
  funext y
  have e := eq_ix3 (n0 := 32) (n1 := 64) (n2 := 512) y
  show out9 (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (iblk m c 0 t) (iblk m c 1 t) (iblk m c 2 t) (iblk m c 3 t) (iblk m c 4 t) (iblk m c 5 t) (iblk m c 6 t) (iblk m c 7 t) y
      = (((cfg0.win 9).blk t).view.read (Elt Ideal) (G9 m c) : Vec Ideal S32x64x512 .f32) y
  refine (congrArg _ e).trans (((block9_at m c t (y 0) (y 1) (y 2)).trans
    (WindowsAt.blk9_read (F := Ideal) (G9 m c) t (y 0) (y 1) (y 2)).symm).trans (congrArg _ e).symm)

/-- The array after the run. -/
theorem final9 (c : Dev nD) : (dats m 0 c).arrAt 9 cfg0.N = G9 m c :=
  (dats m 0 c).arrAt_eq_of_cover 9 (G9 m c) (fun t _ => flushed9_eq m c t) (WindowsAt.cover9 c)

/-- The transposes after the launch give the results. -/
theorem resH_eq (c : Dev nD) : HostWindows.outT (G8 m c) = resH m c := by
  funext i
  have e := eq_ix3 (n0 := 512) (n1 := 512) (n2 := 64) i
  refine (congrArg _ e).trans ((HostWindows.outT_apply (G8 m c) (i 0) (i 1) (i 2)).trans ?_)
  rfl
theorem resC_eq (c : Dev nD) : HostWindows.outT (G9 m c) = resC m c := by
  funext i
  have e := eq_ix3 (n0 := 512) (n1 := 512) (n2 := 64) i
  refine (congrArg _ e).trans ((HostWindows.outT_apply (G9 m c) (i 0) (i 1) (i 2)).trans ?_)
  rfl

/-- The idealized kernel's run, read: the two results are the kernel's rows of each relation, the arguments
    are unchanged. -/
theorem run : θ_run defs (onTc (τ := τ) (main (F := Ideal))) ⟨m, fun _ => 0, ρ⟩ (fun r => ∀ c : Dev nD,
      r.2.mem ((c.tc : Thread nD τ).loc main_v70) = resH m c
      ∧ r.2.mem ((c.tc : Thread nD τ).loc main_v71) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      ((h c).2 main_v70 (Pipeline.mem_restRefs_of main_v70 (by decide) (by decide))).trans
        ((tail_v70 m c).trans (by rw [final8]; exact resH_eq m c)),
      ((h c).2 main_v71 (Pipeline.mem_restRefs_of main_v71 (by decide) (by decide))).trans
        ((tail_v71 m c).trans (by rw [final9]; exact resC_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Final

end
-- ==== Proof.RefRow.lean ====
/-
  The reference's run read one relation at a time.

  The reference flattens the [512, 512, ·] arrays to [262144, ·] (relation (p, q) is row p * 512 + q, row-major),
  computes every row of the cell at once, and reshapes the two selected [262144, 64] results back. Read at one
  index (p, q, h), each operation touches only row p * 512 + q of its operands: the two reshapes in and the reshape
  out are the division and remainder by 512 (and by the row width), a transposed weight matrix read at (k, g) is the
  weight at (g, k), a bias broadcast along the rows is the bias at the column, a column slice [64 b, 64 b + 64) is gate
  block b, a product of matrices is the sum over the contracted coordinate, and the flag compared with zero (signed) and
  broadcast along the 64 hidden coordinates is the one comparison of the relation's flag. So the run's two result
  terms at (p, q, h) are LstmSpec's refHout / refCout of the relation's inputs, by unfolding and index arithmetic
  alone: the order of every product's factors, the grouping of the bias additions and the operand order of the
  positive part are those of the specification.
-/
import proofs.«176749_g16716012716120_cont_week2b_1009_18_alg».proof.Proof.Gen.ReferenceIdeal.Read
import proofs.«176749_g16716012716120_cont_week2b_1009_18_alg».proof.Proof.LstmSpec

noncomputable section

namespace Cert.RefRow

open Cert.ReferenceIdeal Cert.ReferenceIdeal.Read Cert.LstmSpec
open Idealize.ShloMosaic Idealize.ShloMosaic.ValueIdx

/-! ### One relation's flat row, and the index equations of the layout operations -/

/-- The flat row of relation `(p, q)` in the `[262144, ·]` arrays: row-major, `p * 512 + q`. -/
def row (p q : Fin 512) : Fin 262144 := ⟨p.val * 512 + q.val, by omega⟩

section Indices

variable (p q : Fin 512)

/-- Row `p * 512 + q`, column `j` of the flattened correlation array is entry `(p, q, j)`. -/
theorem idx_corr (e : Fin 32) (k : Fin 2) :
    idx_main_v0 (lidx_main_v8 (ix2 (row p q) e) k) = ix3 p q k := by
  funext a
  refine Fin.ext ?_
  match a with
  | ⟨0, _⟩ => show ((p.val * 512 + q.val) * 2 + k.val) / 1024 = p.val; omega
  | ⟨1, _⟩ => show ((p.val * 512 + q.val) * 2 + k.val) / 2 % 512 = q.val; omega
  | ⟨2, _⟩ => show ((p.val * 512 + q.val) * 2 + k.val) % 2 = k.val; omega

/-- The transposed embedding matrix at `(k, e)` is `W_emb` at `(e, k)`. -/
theorem idx_wemb (e : Fin 32) (k : Fin 2) :
    idx_main_v7 (ridx_main_v8 (ix2 (row p q) e) k) = ix2 e k := by
  funext a
  match a with
  | ⟨0, _⟩ => rfl
  | ⟨1, _⟩ => rfl

/-- The embedding bias broadcast along the rows reads `b_emb` at the column. -/
theorem idx_bemb (e : Fin 32) :
    idx_main_v9 (idx_main_v10 (ix2 (row p q) e)) = ix1 e := by
  funext a
  match a with
  | ⟨0, _⟩ => rfl

/-- The embedding row feeding gate column `g` is the embedding row of the relation. -/
theorem idx_emb (g : Fin 256) (k : Fin 32) :
    lidx_main_v14 (ix2 (row p q) g) k = ix2 (row p q) k := by
  funext a
  match a with
  | ⟨0, _⟩ => rfl
  | ⟨1, _⟩ => rfl

/-- The transposed input-to-hidden matrix at `(k, g)` is `W_ih` at `(g, k)`. -/
theorem idx_wih (g : Fin 256) (k : Fin 32) :
    idx_main_v13 (ridx_main_v14 (ix2 (row p q) g) k) = ix2 g k := by
  funext a
  match a with
  | ⟨0, _⟩ => rfl
  | ⟨1, _⟩ => rfl

/-- The input-to-hidden bias broadcast along the rows reads `b_ih` at the column. -/
theorem idx_bih (g : Fin 256) :
    idx_main_v15 (idx_main_v16 (ix2 (row p q) g)) = ix1 g := by
  funext a
  match a with
  | ⟨0, _⟩ => rfl

/-- Row `p * 512 + q`, column `k` of the flattened hidden state is entry `(p, q, k)`. -/
theorem idx_ht (g : Fin 256) (k : Fin 64) :
    idx_main_v1 (lidx_main_v19 (ix2 (row p q) g) k) = ix3 p q k := by
  funext a
  refine Fin.ext ?_
  match a with
  | ⟨0, _⟩ => show ((p.val * 512 + q.val) * 64 + k.val) / 32768 = p.val; omega
  | ⟨1, _⟩ => show ((p.val * 512 + q.val) * 64 + k.val) / 64 % 512 = q.val; omega
  | ⟨2, _⟩ => show ((p.val * 512 + q.val) * 64 + k.val) % 64 = k.val; omega

/-- The transposed hidden-to-hidden matrix at `(k, g)` is `W_hh` at `(g, k)`. -/
theorem idx_whh (g : Fin 256) (k : Fin 64) :
    idx_main_v18 (ridx_main_v19 (ix2 (row p q) g) k) = ix2 g k := by
  funext a
  match a with
  | ⟨0, _⟩ => rfl
  | ⟨1, _⟩ => rfl

/-- The hidden-to-hidden bias broadcast along the rows reads `b_hh` at the column. -/
theorem idx_bhh (g : Fin 256) :
    idx_main_v21 (idx_main_v22 (ix2 (row p q) g)) = ix1 g := by
  funext a
  match a with
  | ⟨0, _⟩ => rfl

/-- The four column slices of the gate array are its four blocks of 64 columns. -/
theorem idx_blk0 (h : Fin 64) : idx_main_v24 (ix2 (row p q) h) = ix2 (row p q) (blk 0 h) := by
  funext a
  refine Fin.ext ?_
  match a with
  | ⟨0, _⟩ => rfl
  | ⟨1, _⟩ => show h.val = 0 * 64 + h.val; omega
theorem idx_blk1 (h : Fin 64) : idx_main_v31 (ix2 (row p q) h) = ix2 (row p q) (blk 1 h) := by
  funext a
  refine Fin.ext ?_
  match a with
  | ⟨0, _⟩ => rfl
  | ⟨1, _⟩ => show 64 + h.val = 1 * 64 + h.val; omega
theorem idx_blk2 (h : Fin 64) : idx_main_v38 (ix2 (row p q) h) = ix2 (row p q) (blk 2 h) := by
  funext a
  refine Fin.ext ?_
  match a with
  | ⟨0, _⟩ => rfl
  | ⟨1, _⟩ => show 128 + h.val = 2 * 64 + h.val; omega
theorem idx_blk3 (h : Fin 64) : idx_main_v40 (ix2 (row p q) h) = ix2 (row p q) (blk 3 h) := by
  funext a
  refine Fin.ext ?_
  match a with
  | ⟨0, _⟩ => rfl
  | ⟨1, _⟩ => show 192 + h.val = 3 * 64 + h.val; omega

/-- Row `p * 512 + q`, column `h` of a flattened `[512, 512, 64]` array is entry `(p, q, h)`. -/
theorem idx_state (h : Fin 64) : idx_main_v2 (ix2 (row p q) h) = ix3 p q h := by
  funext a
  refine Fin.ext ?_
  match a with
  | ⟨0, _⟩ => show ((p.val * 512 + q.val) * 64 + h.val) / 32768 = p.val; omega
  | ⟨1, _⟩ => show ((p.val * 512 + q.val) * 64 + h.val) / 64 % 512 = q.val; omega
  | ⟨2, _⟩ => show ((p.val * 512 + q.val) * 64 + h.val) % 64 = h.val; omega
theorem idx_state' (h : Fin 64) : idx_main_v1 (ix2 (row p q) h) = ix3 p q h := idx_state p q h

/-- The flag of row `p * 512 + q`, broadcast along the 64 columns, is the flag of relation `(p, q)`. -/
theorem idx_flag1 (h : Fin 64) :
    idx_main_v3 (idx_main_v6 (idx_main_call1_v0 (ix2 (row p q) h))) = ix2 p q := by
  funext a
  refine Fin.ext ?_
  match a with
  | ⟨0, _⟩ => show (p.val * 512 + q.val) / 512 = p.val; omega
  | ⟨1, _⟩ => show (p.val * 512 + q.val) % 512 = q.val; omega
theorem idx_flag2 (h : Fin 64) :
    idx_main_v3 (idx_main_v6 (idx_main_call2_v0 (ix2 (row p q) h))) = ix2 p q := idx_flag1 p q h

/-- Entry `(p, q, h)` of a result is row `p * 512 + q`, column `h` of its flat form. -/
theorem idx_out (h : Fin 64) : idx_main_v53 (ix3 p q h) = ix2 (row p q) h := by
  funext a
  refine Fin.ext ?_
  match a with
  | ⟨0, _⟩ => show ((p.val * 512 + q.val) * 64 + h.val) / 64 = p.val * 512 + q.val; omega
  | ⟨1, _⟩ => show ((p.val * 512 + q.val) * 64 + h.val) % 64 = h.val; omega
theorem idx_out' (h : Fin 64) : idx_main_v55 (ix3 p q h) = ix2 (row p q) h := idx_out p q h

end Indices

section Stages

variable (x0 : (⟨S512x512x2, .f32⟩ : BufTy).Contents (Elt Ideal))
  (x1 x2 : (⟨S512x512x64, .f32⟩ : BufTy).Contents (Elt Ideal))
  (x3 : (⟨S512x512, .i32⟩ : BufTy).Contents (Elt Ideal))
  (x4 : (⟨S32x2, .f32⟩ : BufTy).Contents (Elt Ideal)) (x5 : (⟨S32, .f32⟩ : BufTy).Contents (Elt Ideal))
  (x6 : (⟨S256x32, .f32⟩ : BufTy).Contents (Elt Ideal)) (x7 : (⟨S256, .f32⟩ : BufTy).Contents (Elt Ideal))
  (x8 : (⟨S256x64, .f32⟩ : BufTy).Contents (Elt Ideal)) (x9 : (⟨S256, .f32⟩ : BufTy).Contents (Elt Ideal))
  (p q : Fin 512)

theorem emb_apply (e : Fin 32) :
    val_main_v12 (F := Ideal) x0 x4 x5 (ix2 (row p q) e)
      = refEmb (fun j => x0 (ix3 p q j)) (fun e j => x4 (ix2 e j)) (fun e => x5 (ix1 e)) e := by
  rw [val_main_v12_apply, val_main_v11_apply, val_main_v8_apply, val_main_v10_apply, val_main_v9_apply,
    val_main_call0_v0_apply, val_main_call0_cst_apply]
  simp only [val_main_v0_apply, val_main_v7_apply, idx_corr, idx_wemb, idx_bemb]
  rfl

/-- Gate pre-activation `g` of the relation's row. -/
theorem gates_apply (g : Fin 256) :
    val_main_v23 (F := Ideal) x0 x1 x4 x5 x6 x7 x8 x9 (ix2 (row p q) g)
      = refGates (fun j => x0 (ix3 p q j)) (fun k => x1 (ix3 p q k)) (fun e j => x4 (ix2 e j)) (fun e => x5 (ix1 e))
          (fun r e => x6 (ix2 r e)) (fun r => x7 (ix1 r)) (fun r k => x8 (ix2 r k)) (fun r => x9 (ix1 r)) g := by
  rw [val_main_v23_apply, val_main_v20_apply, val_main_v17_apply, val_main_v14_apply, val_main_v16_apply,
    val_main_v15_apply, val_main_v19_apply, val_main_v22_apply, val_main_v21_apply]
  simp only [val_main_v13_apply, val_main_v1_apply, val_main_v18_apply, idx_emb, emb_apply, idx_wih, idx_bih, idx_ht,
    idx_whh, idx_bhh]
  rfl

/-- The logistic of the input-gate block. -/
theorem sig_i_apply (h : Fin 64) :
    val_main_v30 (F := Ideal) x0 x1 x4 x5 x6 x7 x8 x9 (ix2 (row p q) h)
      = logistic (refGates (fun j => x0 (ix3 p q j)) (fun k => x1 (ix3 p q k)) (fun e j => x4 (ix2 e j)) (fun e => x5 (ix1 e))
          (fun r e => x6 (ix2 r e)) (fun r => x7 (ix1 r)) (fun r k => x8 (ix2 r k)) (fun r => x9 (ix1 r)) (blk 0 h)) := by
  rw [val_main_v30_apply, val_main_v29_apply, val_main_cst_0_apply, val_main_v28_apply, val_main_v27_apply,
    val_main_cst_apply, val_main_v26_apply, val_main_v25_apply, val_main_v24_apply, idx_blk0, gates_apply]
  rfl

/-- The logistic of the forget-gate block. -/
theorem sig_f_apply (h : Fin 64) :
    val_main_v37 (F := Ideal) x0 x1 x4 x5 x6 x7 x8 x9 (ix2 (row p q) h)
      = logistic (refGates (fun j => x0 (ix3 p q j)) (fun k => x1 (ix3 p q k)) (fun e j => x4 (ix2 e j)) (fun e => x5 (ix1 e))
          (fun r e => x6 (ix2 r e)) (fun r => x7 (ix1 r)) (fun r k => x8 (ix2 r k)) (fun r => x9 (ix1 r)) (blk 1 h)) := by
  rw [val_main_v37_apply, val_main_v36_apply, val_main_cst_2_apply, val_main_v35_apply, val_main_v34_apply,
    val_main_cst_1_apply, val_main_v33_apply, val_main_v32_apply, val_main_v31_apply, idx_blk1, gates_apply]
  rfl

/-- The hyperbolic tangent of the cell-candidate block. -/
theorem tanh_g_apply (h : Fin 64) :
    val_main_v39 (F := Ideal) x0 x1 x4 x5 x6 x7 x8 x9 (ix2 (row p q) h)
      = Ideal.tanh (refGates (fun j => x0 (ix3 p q j)) (fun k => x1 (ix3 p q k)) (fun e j => x4 (ix2 e j)) (fun e => x5 (ix1 e))
          (fun r e => x6 (ix2 r e)) (fun r => x7 (ix1 r)) (fun r k => x8 (ix2 r k)) (fun r => x9 (ix1 r)) (blk 2 h)) := by
  rw [val_main_v39_apply, val_main_v38_apply, idx_blk2, gates_apply]
  rfl

/-- The logistic of the output-gate block. -/
theorem sig_o_apply (h : Fin 64) :
    val_main_v46 (F := Ideal) x0 x1 x4 x5 x6 x7 x8 x9 (ix2 (row p q) h)
      = logistic (refGates (fun j => x0 (ix3 p q j)) (fun k => x1 (ix3 p q k)) (fun e j => x4 (ix2 e j)) (fun e => x5 (ix1 e))
          (fun r e => x6 (ix2 r e)) (fun r => x7 (ix1 r)) (fun r k => x8 (ix2 r k)) (fun r => x9 (ix1 r)) (blk 3 h)) := by
  rw [val_main_v46_apply, val_main_v45_apply, val_main_cst_4_apply, val_main_v44_apply, val_main_v43_apply,
    val_main_cst_3_apply, val_main_v42_apply, val_main_v41_apply, val_main_v40_apply, idx_blk3, gates_apply]
  rfl

/-- The new cell row. -/
theorem c_apply (h : Fin 64) :
    val_main_v49 (F := Ideal) x0 x1 x2 x4 x5 x6 x7 x8 x9 (ix2 (row p q) h)
      = refC (fun j => x0 (ix3 p q j)) (fun k => x1 (ix3 p q k)) (fun k => x2 (ix3 p q k)) (fun e j => x4 (ix2 e j))
          (fun e => x5 (ix1 e)) (fun r e => x6 (ix2 r e)) (fun r => x7 (ix1 r)) (fun r k => x8 (ix2 r k))
          (fun r => x9 (ix1 r)) h := by
  rw [val_main_v49_apply, val_main_v47_apply, val_main_v48_apply, sig_f_apply, val_main_v2_apply, idx_state,
    sig_i_apply, tanh_g_apply]
  rfl

/-- The new hidden row. -/
theorem h_apply (h : Fin 64) :
    val_main_v51 (F := Ideal) x0 x1 x2 x4 x5 x6 x7 x8 x9 (ix2 (row p q) h)
      = refH (fun j => x0 (ix3 p q j)) (fun k => x1 (ix3 p q k)) (fun k => x2 (ix3 p q k)) (fun e j => x4 (ix2 e j))
          (fun e => x5 (ix1 e)) (fun r e => x6 (ix2 r e)) (fun r => x7 (ix1 r)) (fun r k => x8 (ix2 r k))
          (fun r => x9 (ix1 r)) h := by
  rw [val_main_v51_apply, sig_o_apply, val_main_v50_apply, c_apply]
  rfl

/-- A select on "the word is positive, read signed" is the `if` on that comparison. -/
theorem select_sgt_zero {α : Type} (n : BitVec 32) (a b : α) :
    Scalar.select (IntOp.cmpi .sgt n 0#32) a b = if 0 < n.toInt then a else b := by
  unfold Scalar.select IntOp.cmpi
  by_cases hn : 0 < n.toInt
  · have hs : BitVec.slt 0#32 n = true := by simp [BitVec.slt, hn]
    simp [hs, hn]
  · have hs : BitVec.slt 0#32 n = false := by simp [BitVec.slt, hn]
    simp [hs, hn]

/-- The flag of the relation, compared with zero and broadcast along the hidden coordinates (first select). -/
theorem flag1_apply (h : Fin 64) :
    val_main_call1_v0 (F := Ideal) x3 (ix2 (row p q) h) = IntOp.cmpi .sgt (x3 (ix2 p q)) 0#32 := by
  rw [val_main_call1_v0_apply, val_main_v6_apply, val_main_v5_apply, val_main_v3_apply, val_main_v4_apply,
    val_main_c_apply, idx_flag1]

/-- The same for the second select. -/
theorem flag2_apply (h : Fin 64) :
    val_main_call2_v0 (F := Ideal) x3 (ix2 (row p q) h) = IntOp.cmpi .sgt (x3 (ix2 p q)) 0#32 := by
  rw [val_main_call2_v0_apply, val_main_v6_apply, val_main_v5_apply, val_main_v3_apply, val_main_v4_apply,
    val_main_c_apply, idx_flag2]

/-- The selected hidden row, flat. -/
theorem hout_row (h : Fin 64) :
    val_main_v52 (F := Ideal) x0 x1 x2 x3 x4 x5 x6 x7 x8 x9 (ix2 (row p q) h)
      = refHout (fun j => x0 (ix3 p q j)) (fun k => x1 (ix3 p q k)) (fun k => x2 (ix3 p q k)) (x3 (ix2 p q))
          (fun e j => x4 (ix2 e j)) (fun e => x5 (ix1 e)) (fun r e => x6 (ix2 r e)) (fun r => x7 (ix1 r))
          (fun r k => x8 (ix2 r k)) (fun r => x9 (ix1 r)) h := by
  rw [val_main_v52_apply, flag1_apply, h_apply, val_main_v1_apply, idx_state', select_sgt_zero]
  rfl

/-- The selected cell row, flat. -/
theorem cout_row (h : Fin 64) :
    val_main_v54 (F := Ideal) x0 x1 x2 x3 x4 x5 x6 x7 x8 x9 (ix2 (row p q) h)
      = refCout (fun j => x0 (ix3 p q j)) (fun k => x1 (ix3 p q k)) (fun k => x2 (ix3 p q k)) (x3 (ix2 p q))
          (fun e j => x4 (ix2 e j)) (fun e => x5 (ix1 e)) (fun r e => x6 (ix2 r e)) (fun r => x7 (ix1 r))
          (fun r k => x8 (ix2 r k)) (fun r => x9 (ix1 r)) h := by
  rw [val_main_v54_apply, flag2_apply, c_apply, val_main_v2_apply, idx_state, select_sgt_zero]
  rfl

/-- THE REFERENCE'S FIRST RESULT at `(p, q, h)`, as a stage of the argument arrays. -/
theorem val_hout_apply (h : Fin 64) :
    val_main_v53 (F := Ideal) x0 x1 x2 x3 x4 x5 x6 x7 x8 x9 (ix3 p q h)
      = refHout (fun j => x0 (ix3 p q j)) (fun k => x1 (ix3 p q k)) (fun k => x2 (ix3 p q k)) (x3 (ix2 p q))
          (fun e j => x4 (ix2 e j)) (fun e => x5 (ix1 e)) (fun r e => x6 (ix2 r e)) (fun r => x7 (ix1 r))
          (fun r k => x8 (ix2 r k)) (fun r => x9 (ix1 r)) h := by
  rw [val_main_v53_apply, idx_out, hout_row]

/-- THE REFERENCE'S SECOND RESULT at `(p, q, h)`, as a stage of the argument arrays. -/
theorem val_cout_apply (h : Fin 64) :
    val_main_v55 (F := Ideal) x0 x1 x2 x3 x4 x5 x6 x7 x8 x9 (ix3 p q h)
      = refCout (fun j => x0 (ix3 p q j)) (fun k => x1 (ix3 p q k)) (fun k => x2 (ix3 p q k)) (x3 (ix2 p q))
          (fun e j => x4 (ix2 e j)) (fun e => x5 (ix1 e)) (fun r e => x6 (ix2 r e)) (fun r => x7 (ix1 r))
          (fun r k => x8 (ix2 r k)) (fun r => x9 (ix1 r)) h := by
  rw [val_main_v55_apply, idx_out', cout_row]

end Stages

/-! ### The run's two result terms, read at `(p, q, h)` -/

section Run

open Idealize.ShloMosaic.TcCoe Idealize.SL.Sem

variable (m : (ℓ : Loc nD τ sig) → Buf (Elt Ideal) ℓ) (c : Dev nD) (p q : Fin 512) (h : Fin 64)

/-- The run's first result (the hidden state) at `(p, q, h)` is the reference row of relation `(p, q)`'s inputs. -/
theorem ref_hout_apply :
    Cert.ReferenceIdeal.Value.res_main_v53 (F := Ideal) m c (ix3 p q h)
      = refHout (fun j => m ((c.tc : Thread nD τ).loc main_arg0) (ix3 p q j))
          (fun k => m ((c.tc : Thread nD τ).loc main_arg1) (ix3 p q k))
          (fun k => m ((c.tc : Thread nD τ).loc main_arg2) (ix3 p q k))
          (m ((c.tc : Thread nD τ).loc main_arg3) (ix2 p q))
          (fun e j => m ((c.tc : Thread nD τ).loc main_arg4) (ix2 e j))
          (fun e => m ((c.tc : Thread nD τ).loc main_arg5) (ix1 e))
          (fun r e => m ((c.tc : Thread nD τ).loc main_arg6) (ix2 r e))
          (fun r => m ((c.tc : Thread nD τ).loc main_arg7) (ix1 r))
          (fun r k => m ((c.tc : Thread nD τ).loc main_arg8) (ix2 r k))
          (fun r => m ((c.tc : Thread nD τ).loc main_arg9) (ix1 r)) h := by
  rw [val_main_v53_eq]
  exact val_hout_apply _ _ _ _ _ _ _ _ _ _ p q h

/-- The run's second result (the cell state) at `(p, q, h)`, likewise. -/
theorem ref_cout_apply :
    Cert.ReferenceIdeal.Value.res_main_v55 (F := Ideal) m c (ix3 p q h)
      = refCout (fun j => m ((c.tc : Thread nD τ).loc main_arg0) (ix3 p q j))
          (fun k => m ((c.tc : Thread nD τ).loc main_arg1) (ix3 p q k))
          (fun k => m ((c.tc : Thread nD τ).loc main_arg2) (ix3 p q k))
          (m ((c.tc : Thread nD τ).loc main_arg3) (ix2 p q))
          (fun e j => m ((c.tc : Thread nD τ).loc main_arg4) (ix2 e j))
          (fun e => m ((c.tc : Thread nD τ).loc main_arg5) (ix1 e))
          (fun r e => m ((c.tc : Thread nD τ).loc main_arg6) (ix2 r e))
          (fun r => m ((c.tc : Thread nD τ).loc main_arg7) (ix1 r))
          (fun r k => m ((c.tc : Thread nD τ).loc main_arg8) (ix2 r k))
          (fun r => m ((c.tc : Thread nD τ).loc main_arg9) (ix1 r)) h := by
  rw [val_main_v55_eq]
  exact val_cout_apply _ _ _ _ _ _ _ _ _ _ p q h

end Run

end Cert.RefRow

end
-- ==== Proof.LstmLaw.lean ====
/-
  The cell law: one relation's rows, as the kernel computes them, are the rows the reference computes,
  whenever the relation's float inputs are real numbers and its flag is 0 or 1.

  The three f32 words are 0, 1 and 1/2. The front product's first 32 rows are the reference's embedding
  (the flag's channel meets a zero weight) and its last 64 rows are the positive part of the flag, which is
  the flag itself at 0 and at 1. Over the reals the halving factor comes out of the two finite sums and
  the bias sum, so the kernel's pre-activation of row r is the reference's of the permuted row, halved on
  the first 192 rows; there 1/2 + 1/2·tanh(x/2) = 1/(1 + exp(−x)) gives back the reference's logistic, and
  on the last 64 rows both programs take the same tanh. The blend old + m·(new − old) is old at m = 0 and
  new at m = 1, which is the reference's selection by the sign of the flag.
-/
import proofs.«176749_g16716012716120_cont_week2b_1009_18_alg».proof.Proof.LstmSpec

noncomputable section

namespace Cert.LstmLaw

open Idealize.ShloMosaic Cert.LstmSpec

/-! ### The three f32 words -/

theorem zeroW_eq : zeroW = 0 := by simp [zeroW, Ideal.ofBits, Ideal.ieee]

theorem oneW_eq : oneW = 1 := by
  simp [oneW, Ideal.ofBits, Ideal.ieee, -EReal.coe_mul]; norm_num

theorem halfW_eq : halfW = ((1 / 2 : ℝ) : EReal) := by
  simp [halfW, Ideal.ofBits, Ideal.ieee, -EReal.coe_mul]; norm_num

/-! ### Coercions of reals -/

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two coerced reals is the coerced larger one. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-! ### The front product -/

section Front

variable (corr : Fin 2 → EReal) (nei : BitVec 32)
  (Wemb : Fin 32 → Fin 2 → EReal) (bemb : Fin 32 → EReal)

/-- Rows 0…31 of the front product are the reference's embedding: the flag's channel meets a zero
    weight, and the two remaining products are the reference's with the factors exchanged. -/
theorem front_emb (e : Fin 32) :
    front corr nei Wemb bemb ⟨e.val, by omega⟩ = refEmb corr Wemb bemb e := by
  have he : e.val < 32 := e.isLt
  simp only [front, refEmb, wfront, aux, bfront, Fin.sum_univ_three, Fin.sum_univ_two, zeroW_eq]
  simp [he, mul_comm]

/-- Rows 32…95 of the front product are the positive part of the flag: the two correlation channels
    meet zero weights, the flag's channel the unit weight, and the bias there is zero. -/
theorem mfac_eq (h : Fin 64) :
    mfac corr nei Wemb bemb h = max (((nei.toInt : ℝ) : EReal)) 0 := by
  have h1 : ¬ (32 + h.val < 32) := by omega
  simp only [mfac, front, wfront, aux, bfront, Fin.sum_univ_three, zeroW_eq, oneW_eq]
  simp [h1]

end Front

/-! ### The logistic function and the blend, over the reals -/

/-- 1/2 + 1/2·tanh(x/2) = 1/(1 + exp(−x)): with a = exp(x/2), both sides are a/(a + 1/a). -/
theorem half_tanh_half (g : ℝ) :
    1 / 2 + 1 / 2 * Real.tanh (1 / 2 * g) = (1 + Real.exp (-g))⁻¹ := by
  have ha : 0 < Real.exp (1 / 2 * g) := Real.exp_pos _
  have hb : Real.exp (-(1 / 2 * g)) = (Real.exp (1 / 2 * g))⁻¹ := Real.exp_neg _
  have hc : Real.exp (-g) = (Real.exp (1 / 2 * g))⁻¹ * (Real.exp (1 / 2 * g))⁻¹ := by
    rw [← Real.exp_neg, ← Real.exp_add]; congr 1; ring
  rw [Real.tanh_eq_sinh_div_cosh, Real.sinh_eq, Real.cosh_eq, hb, hc]
  generalize Real.exp (1 / 2 * g) = a at ha
  have ha' : a ≠ 0 := ha.ne'
  have h2 : a * a + 1 ≠ 0 := by positivity
  field_simp
  ring

/-- The reference's logistic at a real number. -/
theorem logistic_coe (g : ℝ) :
    LstmSpec.logistic (g : EReal) = (((1 + Real.exp (-g))⁻¹ : ℝ) : EReal) := by
  unfold LstmSpec.logistic
  rw [oneW_eq]
  exact Ideal.logistic_coe g

/-- 1/2 + 1/2·tanh of the halved argument is the reference's logistic, at a real number. -/
theorem half_tanh_eq_logistic (g : ℝ) :
    halfW + halfW * Ideal.tanh (halfW * (g : EReal)) = LstmSpec.logistic (g : EReal) := by
  rw [logistic_coe, halfW_eq, ← EReal.coe_mul, Ideal.tanh_coe, ← EReal.coe_mul, ← EReal.coe_add,
    half_tanh_half]

/-- old + 0·(new − old) = old. -/
theorem blend_zero (x y : EReal) : x + 0 * (y - x) = x := by rw [zero_mul, add_zero]

/-- old + 1·(new − old) = new when old is a real number. -/
theorem blend_one (a : ℝ) (y : EReal) : (a : EReal) + 1 * (y - (a : EReal)) = y := by
  rw [one_mul, add_comm, EReal.sub_add_cancel]

/-! ### Real inputs -/

section Real

variable (c : Fin 2 → ℝ) (hv cv : Fin 64 → ℝ) (nei : BitVec 32)
  (We : Fin 32 → Fin 2 → ℝ) (be : Fin 32 → ℝ)
  (Wi : Fin 256 → Fin 32 → ℝ) (bi : Fin 256 → ℝ) (Wh : Fin 256 → Fin 64 → ℝ) (bh : Fin 256 → ℝ)

/-- The embedding over the reals. -/
def rEmb (e : Fin 32) : ℝ := max ((∑ j : Fin 2, c j * We e j) + be e) 0

/-- The reference's gate pre-activations over the reals. -/
def rGates (r : Fin 256) : ℝ :=
  (((∑ e : Fin 32, rEmb c We be e * Wi r e) + bi r) + ∑ k : Fin 64, hv k * Wh r k) + bh r

local notation "cE" => (fun j : Fin 2 => ((c j : ℝ) : EReal))
local notation "hE" => (fun k : Fin 64 => ((hv k : ℝ) : EReal))
local notation "ctE" => (fun k : Fin 64 => ((cv k : ℝ) : EReal))
local notation "WeE" => (fun (e : Fin 32) (j : Fin 2) => ((We e j : ℝ) : EReal))
local notation "beE" => (fun e : Fin 32 => ((be e : ℝ) : EReal))
local notation "WiE" => (fun (r : Fin 256) (e : Fin 32) => ((Wi r e : ℝ) : EReal))
local notation "biE" => (fun r : Fin 256 => ((bi r : ℝ) : EReal))
local notation "WhE" => (fun (r : Fin 256) (k : Fin 64) => ((Wh r k : ℝ) : EReal))
local notation "bhE" => (fun r : Fin 256 => ((bh r : ℝ) : EReal))

theorem refEmb_coe (e : Fin 32) : refEmb cE WeE beE e = ((rEmb c We be e : ℝ) : EReal) := by
  simp only [refEmb, rEmb, zeroW_eq, ← EReal.coe_mul, coe_sum, ← EReal.coe_add, ← EReal.coe_zero,
    coe_max]

theorem refGates_coe (r : Fin 256) :
    refGates cE hE WeE beE WiE biE WhE bhE r = ((rGates c hv We be Wi bi Wh bh r : ℝ) : EReal) := by
  simp only [refGates, rGates, refEmb_coe, ← EReal.coe_mul, coe_sum, ← EReal.coe_add]

/-- The kernel's pre-activation is the reference's at the permuted row, halved on the first 192 rows:
    the halving factor comes out of both finite sums and the bias sum, and the four summands are
    regrouped. -/
theorem kGates_coe (r : Fin 256) :
    kGates cE hE nei WeE beE WiE biE WhE bhE r
      = (((if r.val < 192 then 1 / 2 * rGates c hv We be Wi bi Wh bh (src r)
            else rGates c hv We be Wi bi Wh bh (src r)) : ℝ) : EReal) := by
  unfold kGates
  simp only [front_emb, refEmb_coe]
  by_cases hr : r.val < 192
  · simp only [scl, if_pos hr, halfW_eq, ← EReal.coe_mul, coe_sum, ← EReal.coe_add]
    rw [EReal.coe_eq_coe_iff]
    unfold rGates
    have h1 : ∑ e : Fin 32, 1 / 2 * Wi (src r) e * rEmb c We be e
        = 1 / 2 * ∑ e : Fin 32, rEmb c We be e * Wi (src r) e := by
      rw [Finset.mul_sum]; exact Finset.sum_congr rfl (fun e _ => by ring)
    have h2 : ∑ k : Fin 64, 1 / 2 * Wh (src r) k * hv k
        = 1 / 2 * ∑ k : Fin 64, hv k * Wh (src r) k := by
      rw [Finset.mul_sum]; exact Finset.sum_congr rfl (fun k _ => by ring)
    rw [h1, h2]; ring
  · simp only [scl, if_neg hr, ← EReal.coe_mul, coe_sum, ← EReal.coe_add]
    rw [EReal.coe_eq_coe_iff]
    unfold rGates
    have h1 : ∑ e : Fin 32, Wi (src r) e * rEmb c We be e
        = ∑ e : Fin 32, rEmb c We be e * Wi (src r) e :=
      Finset.sum_congr rfl (fun e _ => by ring)
    have h2 : ∑ k : Fin 64, Wh (src r) k * hv k = ∑ k : Fin 64, hv k * Wh (src r) k :=
      Finset.sum_congr rfl (fun k _ => by ring)
    rw [h1, h2]; ring

/-! ### The row permutation on the four blocks -/

theorem src_blk0 (h : Fin 64) : src (blk 0 h) = blk 0 h := by
  have hlt := h.isLt
  have hv : (blk 0 h).val = h.val := by simp [blk]
  unfold src
  rw [dif_pos (show (blk 0 h).val < 128 by omega)]

theorem src_blk1 (h : Fin 64) : src (blk 1 h) = blk 1 h := by
  have hlt := h.isLt
  have hv : (blk 1 h).val = 64 + h.val := by simp [blk]
  unfold src
  rw [dif_pos (show (blk 1 h).val < 128 by omega)]

theorem src_blk2 (h : Fin 64) : src (blk 2 h) = blk 3 h := by
  have hlt := h.isLt
  have hv : (blk 2 h).val = 128 + h.val := by simp [blk]
  have hv' : (blk 3 h).val = 192 + h.val := by simp [blk]
  unfold src
  rw [dif_neg (show ¬ (blk 2 h).val < 128 by omega), dif_pos (show (blk 2 h).val < 192 by omega)]
  apply Fin.ext
  show (blk 2 h).val + 64 = (blk 3 h).val
  omega

theorem src_blk3 (h : Fin 64) : src (blk 3 h) = blk 2 h := by
  have hlt := h.isLt
  have hv : (blk 2 h).val = 128 + h.val := by simp [blk]
  have hv' : (blk 3 h).val = 192 + h.val := by simp [blk]
  unfold src
  rw [dif_neg (show ¬ (blk 3 h).val < 128 by omega), dif_neg (show ¬ (blk 3 h).val < 192 by omega)]
  apply Fin.ext
  show (blk 3 h).val - 64 = (blk 2 h).val
  omega

/-! ### The nonlinearities -/

/-- On the first 192 rows, 1/2 + 1/2·tanh of the kernel's pre-activation is the reference's logistic
    of its own pre-activation at the permuted row. -/
theorem kSig_lo (r : Fin 256) (hr : r.val < 192) :
    kSig cE hE nei WeE beE WiE biE WhE bhE r
      = LstmSpec.logistic (refGates cE hE WeE beE WiE biE WhE bhE (src r)) := by
  unfold kSig kT
  rw [kGates_coe, if_pos hr, refGates_coe, EReal.coe_mul, ← halfW_eq, half_tanh_eq_logistic]

/-- On the last 64 rows the two pre-activations agree at the permuted row. -/
theorem kT_hi (r : Fin 256) (hr : ¬ r.val < 192) :
    kT cE hE nei WeE beE WiE biE WhE bhE r
      = Ideal.tanh (refGates cE hE WeE beE WiE biE WhE bhE (src r)) := by
  unfold kT
  rw [kGates_coe, if_neg hr, refGates_coe]

/-- The new cell rows agree. -/
theorem kC_eq (h : Fin 64) :
    kC cE hE ctE nei WeE beE WiE biE WhE bhE h = refC cE hE ctE WeE beE WiE biE WhE bhE h := by
  have := h.isLt
  unfold kC refC
  rw [kSig_lo _ _ _ _ _ _ _ _ _ (blk 1 h) (by simp only [blk]; omega),
    kSig_lo _ _ _ _ _ _ _ _ _ (blk 0 h) (by simp only [blk]; omega),
    kT_hi _ _ _ _ _ _ _ _ _ (blk 3 h) (by simp only [blk]; omega),
    src_blk0, src_blk1, src_blk3]

/-- The new hidden rows agree. -/
theorem kH_eq (h : Fin 64) :
    kH cE hE ctE nei WeE beE WiE biE WhE bhE h = refH cE hE ctE WeE beE WiE biE WhE bhE h := by
  have := h.isLt
  unfold kH refH
  rw [kSig_lo _ _ _ _ _ _ _ _ _ (blk 2 h) (by simp only [blk]; omega), src_blk2, kC_eq]

/-- The cell law at coerced real inputs. -/
theorem cell_law_real (hnei : nei.toInt = 0 ∨ nei.toInt = 1) (h : Fin 64) :
    kHout cE hE ctE nei WeE beE WiE biE WhE bhE h = refHout cE hE ctE nei WeE beE WiE biE WhE bhE h
    ∧ kCout cE hE ctE nei WeE beE WiE biE WhE bhE h
        = refCout cE hE ctE nei WeE beE WiE biE WhE bhE h := by
  unfold kHout kCout refHout refCout
  rw [mfac_eq, kH_eq, kC_eq]
  rcases hnei with h0 | h1
  · rw [h0]
    simp only [Int.cast_zero, EReal.coe_zero, max_self, lt_self_iff_false, if_false]
    exact ⟨blend_zero _ _, blend_zero _ _⟩
  · rw [h1]
    have hm : max (((1 : ℤ) : ℝ) : EReal) 0 = 1 := by
      rw [Int.cast_one, EReal.coe_one]; exact max_eq_left zero_le_one
    rw [hm, if_pos Int.one_pos, if_pos Int.one_pos]
    exact ⟨blend_one _ _, blend_one _ _⟩

end Real

/-! ### The cell law -/

/-- A family of real-valued extended reals is a coerced family of reals. -/
theorem exists_real_fun {ι : Type*} (f : ι → EReal) (hf : ∀ i, ∃ x : ℝ, f i = (x : EReal)) :
    ∃ g : ι → ℝ, f = fun i => ((g i : ℝ) : EReal) :=
  ⟨fun i => (hf i).choose, funext fun i => (hf i).choose_spec⟩

theorem exists_real_fun₂ {ι κ : Type*} (f : ι → κ → EReal)
    (hf : ∀ i j, ∃ x : ℝ, f i j = (x : EReal)) :
    ∃ g : ι → κ → ℝ, f = fun i j => ((g i j : ℝ) : EReal) :=
  ⟨fun i j => (hf i j).choose, funext fun i => funext fun j => (hf i j).choose_spec⟩

/-- For a relation whose float inputs are all real numbers and whose flag is 0 or 1, the kernel's
    output rows are the reference's. -/
theorem cell_law (corr : Fin 2 → EReal) (ht ct : Fin 64 → EReal) (nei : BitVec 32)
    (Wemb : Fin 32 → Fin 2 → EReal) (bemb : Fin 32 → EReal)
    (Wih : Fin 256 → Fin 32 → EReal) (bih : Fin 256 → EReal)
    (Whh : Fin 256 → Fin 64 → EReal) (bhh : Fin 256 → EReal)
    (hcorr : ∀ j, ∃ x : ℝ, corr j = (x : EReal)) (hht : ∀ k, ∃ x : ℝ, ht k = x)
    (hct : ∀ k, ∃ x : ℝ, ct k = x)
    (hWemb : ∀ e j, ∃ x : ℝ, Wemb e j = x) (hbemb : ∀ e, ∃ x : ℝ, bemb e = x)
    (hWih : ∀ r e, ∃ x : ℝ, Wih r e = x) (hbih : ∀ r, ∃ x : ℝ, bih r = x)
    (hWhh : ∀ r k, ∃ x : ℝ, Whh r k = x) (hbhh : ∀ r, ∃ x : ℝ, bhh r = x)
    (hnei : nei.toInt = 0 ∨ nei.toInt = 1) (h : Fin 64) :
    LstmSpec.kHout corr ht ct nei Wemb bemb Wih bih Whh bhh h
        = LstmSpec.refHout corr ht ct nei Wemb bemb Wih bih Whh bhh h
      ∧ LstmSpec.kCout corr ht ct nei Wemb bemb Wih bih Whh bhh h
        = LstmSpec.refCout corr ht ct nei Wemb bemb Wih bih Whh bhh h := by
  obtain ⟨c, rfl⟩ := exists_real_fun corr hcorr
  obtain ⟨hv, rfl⟩ := exists_real_fun ht hht
  obtain ⟨cv, rfl⟩ := exists_real_fun ct hct
  obtain ⟨We, rfl⟩ := exists_real_fun₂ Wemb hWemb
  obtain ⟨be, rfl⟩ := exists_real_fun bemb hbemb
  obtain ⟨Wi, rfl⟩ := exists_real_fun₂ Wih hWih
  obtain ⟨bi, rfl⟩ := exists_real_fun bih hbih
  obtain ⟨Wh, rfl⟩ := exists_real_fun₂ Whh hWhh
  obtain ⟨bh, rfl⟩ := exists_real_fun bhh hbhh
  exact cell_law_real c hv cv nei We be Wi bi Wh bh hnei h

end Cert.LstmLaw

end
-- ==== Proof.PreDecode.lean ====
/-
  The precondition, decoded. The certificate's precondition is a one-bit word: the conjunction of ten
  folds by "and", each started at 1. Nine of them run over the entries of a float array and test
  |x| < +∞ entry by entry; the tenth runs over the integer array of neighbour flags and tests
  0 ≤ n and n ≤ 1 (both signed). When the word is 1, every fold is 1, so every test passed:
  every float entry is a real number (the only extended reals whose absolute value is not below +∞
  are −∞ and +∞ themselves, where max x (−x) = +∞), and every flag reads 0 or 1.
-/
import proofs.«176749_g16716012716120_cont_week2b_1009_18_alg».proof.Pre_finite_inputs
import Idealize.ShloMosaic.PureOps.Ideal
import Idealize.ShloMosaic.Lib.ReduceAll
import Idealize.ShloMosaic.Lib.ValueIdx

noncomputable section

namespace Cert.PreDecode

open Idealize.ShloMosaic Cert.Pre_finite_inputs

/-- The rank-0 shape has exactly one index. -/
instance : Subsingleton S_.Idx := ⟨fun a b => funext fun d => d.elim0⟩

/-- A boolean's one-bit word is 1 exactly when the boolean is true. -/
theorem ofBool_eq_one (b : Bool) : BitVec.ofBool b = 1#1 ↔ b = true := by cases b <;> decide

/-- The pattern with all exponent bits set and no fraction bit denotes +∞. -/
theorem inf_word : Ideal.ofBits .f32 0x7F800000#32 = (⊤ : EReal) := by
  simp [Ideal.ofBits, Ideal.ieee]

/-- An extended real whose absolute value max x (−x) is below +∞ is a real: at −∞ and at +∞ the
    maximum is +∞. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One float entry: the test |x| < +∞ answering 1 makes x a real. -/
theorem real_of_entry (x : Ideal .f32)
    (h : FloatOps.cmpf (F := Ideal) .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  rw [ofBool_eq_one] at h'
  exact real_of_abs_lt_top x (of_decide_eq_true h')

/-- One integer entry: 0 ≤ n and n ≤ 1, both signed, leave n = 0 or n = 1. -/
theorem flag_of_entry (x : BitVec 32)
    (h : IntOp.andi (IntOp.cmpi .sge x 0#32) (IntOp.cmpi .sle x 1#32) = 1#1) : x.toInt = 0 ∨ x.toInt = 1 := by
  rw [IntOp.andi_eq_one, IntOp.cmpi_sge, IntOp.cmpi_sle] at h
  have h0 : (0#32 : BitVec 32).toInt = 0 := by decide
  have h1 : (1#32 : BitVec 32).toInt = 1 := by decide
  rw [h0] at h; rw [h1] at h
  omega

/-- A float array of any shape: if the fold by "and", from 1, of the entrywise tests |x| < +∞ is 1,
    then every entry is a real. -/
theorem finite_of_fold {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  real_of_entry (a i) (Host.reduce_andi_all _ _ hr hu _ e i)

/-- An integer array of any shape: if the fold by "and", from 1, of the entrywise tests
    0 ≤ n ∧ n ≤ 1 is 1, then every entry reads 0 or 1. -/
theorem flag_of_fold {s : Shape} {axes : List (Fin s.rank)} (a : IVec s 32)
    (hb : S_.BroadcastsInDim s (![] : Fin 0 → Fin s.rank)) (hr : s.ReducesTo axes S_) (hu : 0 < S_.numel)
    (e : Host.reduce IntOp.andi
          (andi (cmpi .sge a (broadcastInDim s ![] hb (constantI S_ 32 0#32)))
                (cmpi .sle a (broadcastInDim s ![] hb (constantI S_ 32 1#32))))
          (constantI S_ 1 1#1) hr hu ValueIdx.ix0 = 1#1)
    (i : s.Idx) : (a i).toInt = 0 ∨ (a i).toInt = 1 :=
  flag_of_entry (a i) (Host.reduce_andi_all _ _ hr hu _ e i)

/-- The conjunction of two one-bit results is 1 only if both are. -/
theorem and_split {x y : IVec S_ 1} (e : andi x y ValueIdx.ix0 = 1#1) :
    x ValueIdx.ix0 = 1#1 ∧ y ValueIdx.ix0 = 1#1 := IntOp.andi_eq_one.1 e

variable [Facts]

/-- THE PRECONDITION DECODED: every entry of the nine float arrays is a real, and every neighbour flag
    reads 0 or 1. -/
theorem finite_of_pre (a0 : FVec Ideal S512x512x2 .f32) (a1 : FVec Ideal S512x512x64 .f32)
    (a2 : FVec Ideal S512x512x64 .f32) (a3 : IVec S512x512 32) (a4 : FVec Ideal S32x2 .f32)
    (a5 : FVec Ideal S32 .f32) (a6 : FVec Ideal S256x32 .f32) (a7 : FVec Ideal S256 .f32)
    (a8 : FVec Ideal S256x64 .f32) (a9 : FVec Ideal S256 .f32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a1 i = (x : EReal)) ∧ (∀ i, ∃ x : ℝ, a2 i = (x : EReal))
      ∧ (∀ i, (a3 i).toInt = 0 ∨ (a3 i).toInt = 1)
      ∧ (∀ i, ∃ x : ℝ, a4 i = (x : EReal)) ∧ (∀ i, ∃ x : ℝ, a5 i = (x : EReal)) ∧ (∀ i, ∃ x : ℝ, a6 i = (x : EReal))
      ∧ (∀ i, ∃ x : ℝ, a7 i = (x : EReal)) ∧ (∀ i, ∃ x : ℝ, a8 i = (x : EReal)) ∧ (∀ i, ∃ x : ℝ, a9 i = (x : EReal)) := by
  have e := congrFun h ValueIdx.ix0
  dsimp only [fn, fn_part1, fn_part2] at e
  obtain ⟨e, e3⟩ := and_split e
  obtain ⟨e, e9⟩ := and_split e
  obtain ⟨e, e8⟩ := and_split e
  obtain ⟨e, e7⟩ := and_split e
  obtain ⟨e, e6⟩ := and_split e
  obtain ⟨e, e5⟩ := and_split e
  obtain ⟨e, e4⟩ := and_split e
  obtain ⟨e, e2⟩ := and_split e
  obtain ⟨e0, e1⟩ := and_split e
  exact ⟨finite_of_fold a0 _ _ _ e0, finite_of_fold a1 _ _ _ e1, finite_of_fold a2 _ _ _ e2,
    flag_of_fold a3 _ _ _ e3, finite_of_fold a4 _ _ _ e4, finite_of_fold a5 _ _ _ e5,
    finite_of_fold a6 _ _ _ e6, finite_of_fold a7 _ _ _ e7, finite_of_fold a8 _ _ _ e8,
    finite_of_fold a9 _ _ _ e9⟩

end Cert.PreDecode

end
-- ==== Proof.lean ====
/-
  The certificate of one masked LSTM-cell step over a 512 × 512 grid of relations.

  The kernel evaluates the cell sideways: the hidden and cell states are laid out with the relations of a row
  along the last axis, the gate rows are stacked [i, f, o, g] with the i, f, o rows of the weights and of
  b_ih + b_hh halved so that one tanh serves every nonlinearity (the logistic function is 1/2 + 1/2·tanh(x/2)),
  the neighbour flag rides as a third input channel of a 96-row front product whose last 64 rows copy it, and each
  output is old + flag·(new − old). The reference embeds, forms the gates in the order [i, f, g, o], applies
  1/(1 + exp(−x)) and tanh, and selects the new rows where the flag is positive.

  The three frames: both printings of the kernel run through one launch of 16 grid points between host operations
  (the run is built block by block from one run of the body on its ten staging buffers); the reference is host
  operations only. The idealization rewrote nothing, so it preserves the kernel trivially. The two idealized
  programs end with equal results: entry (p, q, h) of either result depends only on relation (p, q)'s inputs; read
  there, the kernel's is the kernel's row and the reference's is the reference's row of one specification, and the
  two rows agree when every float input is a real number and every flag is 0 or 1 — by the logistic identity, by
  0·x = 0 and distributivity over finite sums of reals, and by old + 0·d = old, old + 1·(new − old) = new.
-/
import proofs.«176749_g16716012716120_cont_week2b_1009_18_alg».proof.Defs
import proofs.«176749_g16716012716120_cont_week2b_1009_18_alg».proof.Proof.FrameRunB
import proofs.«176749_g16716012716120_cont_week2b_1009_18_alg».proof.Proof.FinalI
import proofs.«176749_g16716012716120_cont_week2b_1009_18_alg».proof.Proof.RefRow
import proofs.«176749_g16716012716120_cont_week2b_1009_18_alg».proof.Proof.LstmLaw
import proofs.«176749_g16716012716120_cont_week2b_1009_18_alg».proof.Proof.PreDecode
import proofs.«176749_g16716012716120_cont_week2b_1009_18_alg».proof.Proof.Gen.Pre_finite_inputs
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof

theorem frame_k : Cert.frame_Kernel := fun m ρ _ => Cert.Kernel.Around.frame m ρ
theorem frame_ki : Cert.frame_KernelIdeal := fun m ρ _ => Cert.KernelIdeal.Around.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- Both idealized programs end with the same two arrays: at (p, q, h) the kernel's row of relation (p, q), which
    is the reference's row there because the precondition makes every float input real and every flag 0 or 1. -/
theorem algebraic : Cert.algebraic_KernelIdeal_ReferenceIdeal := by
  intro m ρ m' ρ' hpre hagree
  refine ⟨fun c => Cert.KernelIdeal.Final.resH m c, fun c => Cert.KernelIdeal.Final.resC m c, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    obtain ⟨e0, e1, e2, e3, e4, e5, e6, e7, e8, e9⟩ := hagree c
    obtain ⟨f0, f1, f2, f3, f4, f5, f6, f7, f8, f9⟩ := Cert.PreDecode.finite_of_pre _ _ _ _ _ _ _ _ _ _ (hpre c)
    funext i
    obtain ⟨p, q, h, rfl⟩ : ∃ (p q : Fin 512) (h : Fin 64), i = ix3 p q h := ⟨i 0, i 1, i 2, eq_ix3 i⟩
  · rw [Cert.RefRow.ref_hout_apply m' c p q h, e0, e1, e2, e3, e4, e5, e6, e7, e8, e9]
    exact ((Cert.LstmLaw.cell_law _ _ _ _ _ _ _ _ _ _ (fun j => f0 _) (fun k => f1 _) (fun k => f2 _) (fun e j => f4 _)
      (fun e => f5 _) (fun r e => f6 _) (fun r => f7 _) (fun r k => f8 _) (fun r => f9 _) (f3 _) h).1).symm
  · rw [Cert.RefRow.ref_cout_apply m' c p q h, e0, e1, e2, e3, e4, e5, e6, e7, e8, e9]
    exact ((Cert.LstmLaw.cell_law _ _ _ _ _ _ _ _ _ _ (fun j => f0 _) (fun k => f1 _) (fun k => f2 _) (fun e j => f4 _)
      (fun e => f5 _) (fun r e => f6 _) (fun r => f7 _) (fun r k => f8 _) (fun r => f9 _) (f3 _) h).2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
